-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x768 : Shape := ⟨2, ![512, 768]⟩
abbrev S768x1536 : Shape := ⟨2, ![768, 1536]⟩
abbrev S768 : Shape := ⟨1, ![768]⟩
abbrev S2x768 : Shape := ⟨2, ![2, 768]⟩
abbrev S2 : Shape := ⟨1, ![2]⟩
abbrev S_ : Shape := ⟨0, ![]⟩

class Facts : Prop where
  bcast_S_S512x768 : S_.BroadcastsInDim S512x768 (![] : Fin 0 → Fin S512x768.rank)
  reducesTo_S512x768_S_d0_1 : S512x768.ReducesTo [0, 1] S_
  h_S_ : 0 < S_.numel
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S2x768 : S_.BroadcastsInDim S2x768 (![] : Fin 0 → Fin S2x768.rank)
  reducesTo_S2x768_S_d0_1 : S2x768.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S2x768 1) : IVec S_ 1 :=
  let main_c_5 : IVec S_ 1 := constantI S_ 1 1#1
  let main_v17 : IVec S_ 1 := (fun x v => Host.reduce IntOp.andi x v reducesTo_S2x768_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S512x768 .f32) (main_arg1 : FVec F S768x1536 .f32) (main_arg2 : FVec F S768 .f32) (main_arg3 : FVec F S2x768 .f32) (main_arg4 : FVec F S2 .f32) : IVec S_ 1 :=
  let main_v0 : FVec F S512x768 .f32 := Host.absf main_arg0
  let main_cst : FVec F S_ .f32 := constant S_ .f32 0x7F800000#32
  let main_v1 : FVec F S512x768 .f32 := broadcastInDim S512x768 ![] bcast_S_S512x768 main_cst
  let main_v2 : IVec S512x768 1 := cmpf .olt main_v0 main_v1
  let main_c : IVec S_ 1 := constantI S_ 1 1#1
  let main_v3 : IVec S_ 1 := (fun x v => Host.reduce IntOp.andi x v reducesTo_S512x768_S_d0_1 h_S_) main_v2 main_c
  let main_v4 : FVec F S768x1536 .f32 := Host.absf main_arg1
  let main_cst_0 : FVec F S_ .f32 := constant S_ .f32 0x7F800000#32
  let main_v5 : FVec F S768x1536 .f32 := broadcastInDim S768x1536 ![] bcast_S_S768x1536 main_cst_0
  let main_v6 : IVec S768x1536 1 := cmpf .olt main_v4 main_v5
  let main_c_1 : IVec S_ 1 := constantI S_ 1 1#1
  let main_v7 : IVec S_ 1 := (fun x v => Host.reduce IntOp.andi x v reducesTo_S768x1536_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S2x768 .f32 := Host.absf main_arg3
  let main_cst_4 : FVec F S_ .f32 := constant S_ .f32 0x7F800000#32
  let main_v15 : FVec F S2x768 .f32 := broadcastInDim S2x768 ![] bcast_S_S2x768 main_cst_4
  let main_v16 : IVec S2x768 1 := cmpf .olt main_v14 main_v15
  fn_part1 (F := F) main_arg4 main_v13 main_v16
-- ==== Kernel.lean ====
abbrev S512x768 : Shape := ⟨2, ![512, 768]⟩
abbrev S768x1536 : Shape := ⟨2, ![768, 1536]⟩
abbrev S768 : Shape := ⟨1, ![768]⟩
abbrev S2x768 : Shape := ⟨2, ![2, 768]⟩
abbrev S2 : Shape := ⟨1, ![2]⟩
abbrev S768x768 : Shape := ⟨2, ![768, 768]⟩
abbrev S128x768 : Shape := ⟨2, ![128, 768]⟩
abbrev S1x768 : Shape := ⟨2, ![1, 768]⟩
abbrev S1x2 : Shape := ⟨2, ![1, 2]⟩
abbrev S2x512x512 : Shape := ⟨3, ![2, 512, 512]⟩
abbrev S128x128 : Shape := ⟨2, ![128, 128]⟩
abbrev S1x128 : Shape := ⟨2, ![1, 128]⟩
abbrev S2x128 : Shape := ⟨2, ![2, 128]⟩
abbrev S2x128x128 : Shape := ⟨3, ![2, 128, 128]⟩
abbrev S128x1x128 : Shape := ⟨3, ![128, 1, 128]⟩
abbrev S1x128x128 : Shape := ⟨3, ![1, 128, 128]⟩
abbrev S128x128x128 : Shape := ⟨3, ![128, 128, 128]⟩
abbrev S128 : Shape := ⟨1, ![128]⟩
abbrev S1x1x128 : Shape := ⟨3, ![1, 1, 128]⟩
abbrev S1x1 : Shape := ⟨2, ![1, 1]⟩
abbrev S512x512x2 : Shape := ⟨3, ![512, 512, 2]⟩

abbrev nBuf : Space → Nat
  | .hbm => 15
  | .vmem => 20
  | .smem => 0
  | _ => 0

abbrev bufTy : (tb : Table) → Fin (tcTables nBuf tb) → BufTy
  | .hbm, ⟨0, _⟩ => ⟨S512x768, .f32⟩
  | .hbm, ⟨1, _⟩ => ⟨S768x1536, .f32⟩
  | .hbm, ⟨2, _⟩ => ⟨S768, .f32⟩
  | .hbm, ⟨3, _⟩ => ⟨S2x768, .f32⟩
  | .hbm, ⟨4, _⟩ => ⟨S2, .f32⟩
  | .hbm, ⟨5, _⟩ => ⟨S768x768, .f32⟩
  | .hbm, ⟨6, _⟩ => ⟨S768x768, .f32⟩
  | .hbm, ⟨7, _⟩ => ⟨S768x768, .f32⟩
  | .hbm, ⟨8, _⟩ => ⟨S768x768, .f32⟩
  | .hbm, ⟨9, _⟩ => ⟨S512x768, .f32⟩
  | .hbm, ⟨10, _⟩ => ⟨S512x768, .f32⟩
  | .hbm, ⟨11, _⟩ => ⟨S1x768, .f32⟩
  | .hbm, ⟨12, _⟩ => ⟨S1x2, .f32⟩
  | .hbm, ⟨13, _⟩ => ⟨S2x512x512, .f32⟩
  | .hbm, ⟨14, _⟩ => ⟨S512x512x2, .f32⟩
  | .local _ .vmem, ⟨0, _⟩ => ⟨S128x768, .f32⟩
  | .local _ .vmem, ⟨1, _⟩ => ⟨S128x768, .f32⟩
  | .local _ .vmem, ⟨2, _⟩ => ⟨S768x768, .f32⟩
  | .local _ .vmem, ⟨3, _⟩ => ⟨S768x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | .local _ .vmem, ⟨7, _⟩ => ⟨S128x768, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S2x128, .f32⟩
  | .local _ .vmem, ⟨15, _⟩ => ⟨S2x128, .f32⟩
  | .local _ .vmem, ⟨16, _⟩ => ⟨S1x2, .f32⟩
  | .local _ .vmem, ⟨17, _⟩ => ⟨S2x128x128, .f32⟩
  | .local _ .vmem, ⟨18, _⟩ => ⟨S2x128x128, .f32⟩
  | .local _ .vmem, ⟨19, _⟩ => ⟨S2x128x128, .f32⟩
  | _, _ => ⟨S512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 6], ![false, false, false]⟩

def k1_cond2 (i : grid1.Coords) : BitVec 1 :=
  let arg2 : BitVec 32 := BitVec.ofNat 32 (i 2).val
  let c5_i32 : BitVec 32 := 5#32
  let v44 : BitVec 1 := Scalar.cmpi .eq arg2 c5_i32
  let v45 : BitVec 32 := Scalar.extui v44
  let c0_i32_20 : BitVec 32 := 0#32
  let v46 : BitVec 1 := Scalar.cmpi .ne v45 c0_i32_20
  v46

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S2x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S2x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  slices_S768x1536_S768x768_0_0 : S768x1536.Slices ![0, 0] S768x768
  transposes_S768x768_S768x768_1_0 : S768x768.Transposes [1, 0] S768x768
  slices_S768x1536_S768x768_0_768 : S768x1536.Slices ![0, 768] S768x768
  inb_S128x768_S128x768_0_0 : ∀ a, (![0, 0] : Fin 2 → Nat) a + S128x768.size a ≤ S128x768.size a
  h_S128x768 : 0 < S128x768.numel
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S768_S1x768 : S768.ShapeCasts S1x768
  shapeCasts_S2_S1x2 : S2.ShapeCasts S1x2
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S1x128_S128 : S1x128.ShapeCasts S128
  shapeCasts_S128_S1x1x128 : S128.ShapeCasts S1x1x128
  broadcasts_S1x1x128_S128x128x128 : S1x1x128.Broadcasts S128x128x128
  inb_S2x128_S2x128_0_0 : ∀ a, (![0, 0] : Fin 2 → Nat) a + S2x128.size a ≤ S2x128.size a
  h_S2x128 : 0 < S2x128.numel
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  slices_S2x128_o0_0_S1x128 : S2x128.Slices ![0, 0] S1x128
  reduces_S128x128x128_S128x128 : S128x128x128.Reduces [2] S128x128
  inb_S2x128x128_S1x128x128_1_0_0 : ∀ a, (![1, 0, 0] : Fin 3 → Nat) a + S1x128x128.size a ≤ S2x128x128.size a
  slices_S2x128_o1_0_S1x128 : S2x128.Slices ![1, 0] S1x128
  inb_S1x2_S1x2_0_0 : ∀ a, (![0, 0] : Fin 2 → Nat) a + S1x2.size a ≤ S1x2.size a
  h_S1x2 : 0 < S1x2.numel
  shapeCasts_S1x2_S1x2 : S1x2.ShapeCasts S1x2
  slices_S1x2_o0_0_S1x1 : S1x2.Slices ![0, 0] S1x1
  inpos_S1x1_p0_0 : ∀ a, (![0, 0] : Fin 2 → Nat) a < S1x1.size a
  slices_S1x2_o0_1_S1x1 : S1x2.Slices ![0, 1] S1x1
  transposes_S2x512x512_S512x512x2_1_2_0 : S2x512x512.Transposes [1, 2, 0] S512x512x2
  dot_S128x768_S768x768_S128x768_1_0_0_1_n_n_wf : DotDims.WF S128x768 S768x768 S128x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .f32 = 32 ∨ (Rect.block (s := S512x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x768.size a ≤ S512x768.size a
  hwx0_3 : ∀ i : grid0.Coords, EltTy.bits .f32 = 32 ∨ (Rect.block (s := S512x768) S128x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x768.size a ≤ S512x768.size a
  hwx0_4 : ∀ i : grid0.Coords, EltTy.bits .f32 = 32 ∨ (Rect.block (s := S512x768) S128x768.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S512x768.size a
  hwx1_0 : ∀ i : grid1.Coords, EltTy.bits .f32 = 32 ∨ (Rect.block (s := S512x768) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x768.size a
  hwx1_1 : ∀ i : grid1.Coords, EltTy.bits .f32 = 32 ∨ (Rect.block (s := S512x768) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x768.size a
  hwx1_2 : ∀ i : grid1.Coords, EltTy.bits .f32 = 32 ∨ (Rect.block (s := S1x768) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x768.size a
  hwx1_3 : ∀ i : grid1.Coords, EltTy.bits .f32 = 32 ∨ (Rect.block (s := S2x768) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x128x128.size a ≤ S2x512x512.size a
  hwx1_5 : ∀ i : grid1.Coords, EltTy.bits .f32 = 32 ∨ (Rect.block (s := S2x512x512) S2x128x128.size (cc1_transform_5 i) (hinb1_5 i)).WholeWords (EltTy.packing .f32)

variable [Facts₀]

def dot_S128x768_S768x768_S128x768_1_0_0_1_n_n : DotDims S128x768 S768x768 S128x768 where
  lhsContracting := [1]
  rhsContracting := [0]
  lhsNonContracting := [0]
  rhsNonContracting := [1]
  lhsBatch := []
  rhsBatch := []
  wf := dot_S128x768_S768x768_S128x768_1_0_0_1_n_n_wf

abbrev win0_0 : Pipeline.Window sig grid0 :=
  Pipeline.Window.ofSpec (Memref.whole main_arg0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S128x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S128x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S2x128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S512x768 : Shape := ⟨2, ![512, 768]⟩
abbrev S768x1536 : Shape := ⟨2, ![768, 1536]⟩
abbrev S768 : Shape := ⟨1, ![768]⟩
abbrev S2x768 : Shape := ⟨2, ![2, 768]⟩
abbrev S2 : Shape := ⟨1, ![2]⟩
abbrev S768x768 : Shape := ⟨2, ![768, 768]⟩
abbrev S512x1x768 : Shape := ⟨3, ![512, 1, 768]⟩
abbrev S1x512x768 : Shape := ⟨3, ![1, 512, 768]⟩
abbrev S512x512x768 : Shape := ⟨3, ![512, 512, 768]⟩
abbrev S1x1x768 : Shape := ⟨3, ![1, 1, 768]⟩
abbrev S512x512x2 : Shape := ⟨3, ![512, 512, 2]⟩
abbrev S1x1x2 : Shape := ⟨3, ![1, 1, 2]⟩

abbrev nBuf : Space → Nat
  | .hbm => 24
  | .vmem => 0
  | .smem => 0
  | _ => 0

abbrev bufTy : (tb : Table) → Fin (tcTables nBuf tb) → BufTy
  | .hbm, ⟨0, _⟩ => ⟨S512x768, .f32⟩
  | .hbm, ⟨1, _⟩ => ⟨S768x1536, .f32⟩
  | .hbm, ⟨2, _⟩ => ⟨S768, .f32⟩
  | .hbm, ⟨3, _⟩ => ⟨S2x768, .f32⟩
  | .hbm, ⟨4, _⟩ => ⟨S2, .f32⟩
  | .hbm, ⟨5, _⟩ => ⟨S768x768, .f32⟩
  | .hbm, ⟨6, _⟩ => ⟨S768x768, .f32⟩
  | .hbm, ⟨7, _⟩ => ⟨S512x768, .f32⟩
  | .hbm, ⟨8, _⟩ => ⟨S768x768, .f32⟩
  | .hbm, ⟨9, _⟩ => ⟨S768x768, .f32⟩
  | .hbm, ⟨10, _⟩ => ⟨S512x768, .f32⟩
  | .hbm, ⟨11, _⟩ => ⟨S512x1x768, .f32⟩
  | .hbm, ⟨12, _⟩ => ⟨S1x512x768, .f32⟩
  | .hbm, ⟨13, _⟩ => ⟨S512x512x768, .f32⟩
  | .hbm, ⟨14, _⟩ => ⟨S512x512x768, .f32⟩
  | .hbm, ⟨15, _⟩ => ⟨S512x512x768, .f32⟩
  | .hbm, ⟨16, _⟩ => ⟨S1x1x768, .f32⟩
  | .hbm, ⟨17, _⟩ => ⟨S512x512x768, .f32⟩
  | .hbm, ⟨18, _⟩ => ⟨S512x512x768, .f32⟩
  | .hbm, ⟨19, _⟩ => ⟨S512x512x768, .f32⟩
  | .hbm, ⟨20, _⟩ => ⟨S512x512x2, .f32⟩
  | .hbm, ⟨21, _⟩ => ⟨S1x1x2, .f32⟩
  | .hbm, ⟨22, _⟩ => ⟨S512x512x2, .f32⟩
  | .hbm, ⟨23, _⟩ => ⟨S512x512x2, .f32⟩
  | _, _ => ⟨S512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  slices_S768x1536_S768x768_0_0 : S768x1536.Slices ![0, 0] S768x768
  transposes_S768x768_S768x768_1_0 : S768x768.Transposes [1, 0] S768x768
  slices_S768x1536_S768x768_0_768 : S768x1536.Slices ![0, 768] S768x768
  bcast_S512x768_S512x1x768_0_2 : S512x768.BroadcastsInDim S512x1x768 (![0, 2] : Fin 2 → Fin S512x1x768.rank)
  bcast_S512x768_S1x512x768_1_2 : S512x768.BroadcastsInDim S1x512x768 (![1, 2] : Fin 2 → Fin S1x512x768.rank)
  bcast_S512x1x768_S512x512x768_0_1_2 : S512x1x768.BroadcastsInDim S512x512x768 (![0, 1, 2] : Fin 3 → Fin S512x512x768.rank)
  bcast_S1x512x768_S512x512x768_0_1_2 : S1x512x768.BroadcastsInDim S512x512x768 (![0, 1, 2] : Fin 3 → Fin S512x512x768.rank)
  bcast_S768_S1x1x768_2 : S768.BroadcastsInDim S1x1x768 (![2] : Fin 1 → Fin S1x1x768.rank)
  bcast_S1x1x768_S512x512x768_0_1_2 : S1x1x768.BroadcastsInDim S512x512x768 (![0, 1, 2] : Fin 3 → Fin S512x512x768.rank)
  bcast_S2_S1x1x2_2 : S2.BroadcastsInDim S1x1x2 (![2] : Fin 1 → Fin S1x1x2.rank)
  bcast_S1x1x2_S512x512x2_0_1_2 : S1x1x2.BroadcastsInDim S512x512x2 (![0, 1, 2] : Fin 3 → Fin S512x512x2.rank)
  dot_S512x768_S768x768_S512x768_1_0_0_1_n_n_wf : DotDims.WF S512x768 S768x768 S512x768 [1] [0] [0] [1] [] []
  dot_S512x512x768_S2x768_S512x512x2_2_1_01_0_n_n_wf : DotDims.WF S512x512x768 S2x768 S512x512x2 [2] [1] [0, 1] [0] [] []

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x512x768_S2x768_S512x512x2_2_1_01_0_n_n : DotDims S512x512x768 S2x768 S512x512x2 where
  lhsContracting := [2]
  rhsContracting := [1]
  lhsNonContracting := [0, 1]
  rhsNonContracting := [0]
  lhsBatch := []
  rhsBatch := []
  wf := dot_S512x512x768_S2x768_S512x512x2_2_1_01_0_n_n_wf

class Facts : Prop extends Facts₀ where

variable [Facts]
-- ==== Proof.Kernel.Body0.lean ====
/- REGION 0 of @main (the projection kernel, pipeline 0), at a PARAMETER `V` — the TensorCore's buffer contents when
   the region is entered: each window's block at a point, what the body leaves in each of the two output windows'
   buffers as a closed function of the input blocks, the body's triple, the pipeline's proof data and the body
   obligation at every point of the grid. Generic in the float instance. -/
import proofs.«130630_j61950608278169_1_alg».proof.Proof.Gen.Kernel.Launch
import proofs.«130630_j61950608278169_1_alg».proof.Proof.Gen.Kernel.Skeleton
import proofs.«130630_j61950608278169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- the whole rows' block (and the whole of either output block) -/
abbrev r0_a : Rect S128x768 := Rect.unit (s := S128x768) ![0, 0] S128x768.size inb_S128x768_S128x768_0_0
/-- the whole of a weight matrix -/
abbrev r0_b : Rect S768x768 := Rect.unit (s := S768x768) ![0, 0] S768x768.size inb_S768x768_S768x768_0_0

/-! ## What the body leaves in each output window's buffer -/

/-- the left projection block: the product of the rows' block with the whole first weight matrix -/
def out0_3 (x0 : Vec F S128x768 .f32) (x1 : Vec F S768x768 .f32) : Vec F S128x768 .f32 := View.canon [⟨r0_a, k0_pay2 (View.ld x0 r0_a) (View.ld x1 r0_b)⟩]
/-- the right projection block: the product of the rows' block with the whole second weight matrix -/
def out0_4 (x0 : Vec F S128x768 .f32) (x2 : Vec F S768x768 .f32) : Vec F S128x768 .f32 := View.canon [⟨r0_a, k0_pay3 (View.ld x0 r0_a) (View.ld x2 r0_b)⟩]

/-- The one store into an output buffer is of the whole buffer, so it covers it. -/
theorem cover0_o (p0 : Vec F S128x768 .f32) (y : S128x768.Idx) :
    ∃ pc ∈ ([⟨r0_a, p0⟩] : List (View.Piece (Elt F) S128x768 .f32)), y ∈ pc.1.set :=
  View.cover_of_tiled [⟨r0_a, p0⟩] S128x768.size (by rfl) y

/-! ## The pipeline's proof data -/

/-- The proof data of pipeline 0 on core `c`: the arrays as the region finds them (`V`); after the body at point `t`
    each input's buffer at its block and each output's at its projection of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t | ⟨1, _⟩ => iblk0 V c 1 t | ⟨2, _⟩ => iblk0 V c 2 t
    | ⟨3, _⟩ => out0_3 (iblk0 V c 0 t) (iblk0 V c 1 t) | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-! ## What the body finds in each input window's buffer -/

/-- Input window 0's current staging buffer holds its block at every point, for ANY proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole first weight matrix, its block index constant) is fetched at the first point only;
    at a later point the index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole second weight matrix): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the three inputs' at read contents `x0`, `x1`, `x2` and the two
    outputs' at anything, runs to the continuation holding the inputs' as they were and each output's at its
    projection of the inputs'. The body reads each output buffer before it stores it whole; what it read is used
    nowhere, and the whole store covers the buffer, so what was there before does not matter. -/
theorem sound_kernel0 (c : Dev nD) (E : Set ℕ) (i : grid0.Coords)
    (arg1 : Memref sig .tc .vmem S128x768 .f32) (harg1 : arg1.IsWhole)
    (arg2 : Memref sig .tc .vmem S768x768 .f32) (harg2 : arg2.IsWhole)
    (arg3 : Memref sig .tc .vmem S768x768 .f32) (harg3 : arg3.IsWhole)
    (arg4 : Memref sig .tc .vmem S128x768 .f32) (harg4 : arg4.IsWhole)
    (arg5 : Memref sig .tc .vmem S128x768 .f32) (harg5 : arg5.IsWhole)
    (x0 : Vec F S128x768 .f32) (x1 x2 : Vec F S768x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The body obligation, at a generic point -/

/-- What the body is called with at point `t`: the invariant, what the core owes, and each window's current staging
    buffer at what it then holds, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' memrefs hold their blocks, fetched there or not, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point of the grid. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.Kernel.Runs1.lean ====
/- Region 1 (the pairwise stage, grid 4 x 4 x 6, the innermost coordinate the sweep over the feature blocks):
   what its three whole-body runs share. The body's two branch conditions on the grid point, in closed form over
   the 96 points; where the output window is idle and where the pipeline does not write it back; the staging
   memrefs the pipeline passes the body at a point, the scratch accumulator as a memref; and the region's
   invariant split into the scratch accumulator and the part the body never touches. -/
import proofs.«130630_j61950608278169_1_alg».proof.Proof.Gen.Kernel.Launch
import proofs.«130630_j61950608278169_1_alg».proof.Proof.Gen.Kernel.Skeleton
import proofs.«130630_j61950608278169_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's first `scf.if` (the sweep's first step: the accumulator is zeroed), from the grid
    coordinates, the scalar chain substituted. -/
abbrev cond1_0 (i : grid1.Coords) : Prop := (Scalar.cmpi .ne (Scalar.extui (Scalar.cmpi .eq (BitVec.ofNat 32 (i 2).val) 0#32)) 0#32) = 1#1
/-- It holds at the points whose innermost coordinate is 0 — decided over the grid. -/
theorem hcond1_0 : ∀ t : Fin cfg1.N, cond1_0 (grid1.coords t) ↔ t.val % 6 = 0 :=
  (by decide +kernel : ∀ t : Fin grid1.N, cond1_0 (grid1.coords t) ↔ t.val % 6 = 0)

/-- The condition of the body's second `scf.if` (the sweep's last step: the output block is stored). -/
abbrev cond1_1 (i : grid1.Coords) : Prop := k1_cond2 i = 1#1
/-- It holds at the points whose innermost coordinate is 5 — decided over the grid. -/
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- At the points of case A (first step of a sweep) the output window 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B (an inner step of a sweep) the output window 5 is idle. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C (last step of a sweep) the output window 5 is live: the case stores its two halves. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter:
    what covering writes leave reads the same through any view). -/
abbrev VO1_5 : View sig .tc .vmem S2x128x128 .f32 := (Memref.whole cc1_stg5_0 : Memref sig .tc .vmem S2x128x128 .f32).view
/-- Each window's current staging memref at point `t`, spelled as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x128x128 .f32 := win1_5.stage (cfg1.slots t 5)
abbrev hs1_5 (t : Fin cfg1.N) : (ms1_5 t).IsWhole := hstage1_5 ((cfg1.slots t 5).cast nbuf1_5)
/-- The scratch accumulator: a whole scoped buffer of the region's own, passed beside the windows. -/
abbrev scM1_0 : Memref sig .tc .vmem S2x128x128 .f32 := Memref.whole cc1_scratch0
/-- The scratch accumulator as a view: what it holds between points is stated through it. -/
abbrev VS1_0 : View sig .tc .vmem S2x128x128 .f32 := scM1_0.view

/-! ## The region's invariant, split -/

/-- A scoped buffer of the core, whole at some contents. -/
abbrev heldAny1 (c : Dev nD) (b : Ref sig .tc) : sProp 𝕄 :=
  iprop(∃ f : Buf (Elt F) ((c : Thread nD τ).loc b), ((c : Thread nD τ).loc b) ↦{fullShare} f)

/-- What the body never touches: the eight staging buffers of the other region, each whole at some contents, and the
    generator register at some state. -/
def restG1 (c : Dev nD) : sProp 𝕄 :=
  iprop(heldAny1 (F := F) c cc0_stg0_0 ∗ heldAny1 (F := F) c cc0_stg0_1 ∗ heldAny1 (F := F) c cc0_stg1_0 ∗ heldAny1 (F := F) c cc0_stg2_0
    ∗ heldAny1 (F := F) c cc0_stg3_0 ∗ heldAny1 (F := F) c cc0_stg3_1 ∗ heldAny1 (F := F) c cc0_stg4_0 ∗ heldAny1 (F := F) c cc0_stg4_1
    ∗ (∃ r, prngReg c r))

/-- The class's region invariant as the launch lists it, the scratch accumulator owned as a memref. -/
abbrev PhiRaw1 (c : Dev nD) : sProp 𝕄 :=
  iprop(iprop(heldAny1 (F := F) c cc0_stg0_0 ∗ heldAny1 (F := F) c cc0_stg0_1 ∗ heldAny1 (F := F) c cc0_stg1_0 ∗ heldAny1 (F := F) c cc0_stg2_0
      ∗ heldAny1 (F := F) c cc0_stg3_0 ∗ heldAny1 (F := F) c cc0_stg3_1 ∗ heldAny1 (F := F) c cc0_stg4_0 ∗ heldAny1 (F := F) c cc0_stg4_1
      ∗ (∃ d, owns (c : Thread nD τ) scM1_0 fullShare d)) ∗ (∃ r, prngReg c r))

theorem PhiRaw1_eq (c : Dev nD) : (Pipeline.ΦA spec1 c : sProp 𝕄) = PhiRaw1 (F := F) c := by
  unfold Pipeline.ΦA PhiRaw1; rw [scopedRest1_eq]; simp only [scM1_0, owns_whole]; try rfl

theorem PhiRaw1_split (c : Dev nD) :
    PhiRaw1 (F := F) c ⊢ (iprop((∃ d, owns (c : Thread nD τ) scM1_0 fullShare d) ∗ restG1 (F := F) c) : sProp 𝕄) := by
  unfold restG1
  iintro ⟨⟨R0, R1, R2, R3, R4, R5, R6, R7, HS0⟩, Hg⟩
  isplitl [HS0]; · iexact HS0
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg

theorem PhiRaw1_join (c : Dev nD) :
    (iprop((∃ d, owns (c : Thread nD τ) scM1_0 fullShare d) ∗ restG1 (F := F) c) : sProp 𝕄) ⊢ PhiRaw1 (F := F) c := by
  unfold restG1
  iintro ⟨HS0, R0, R1, R2, R3, R4, R5, R6, R7, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact HS0

/-- The class's region invariant (every scoped buffer that is no staging buffer of the region at some contents, the
    generator register at some state) is the scratch accumulator owned as a memref at some contents, beside the part
    the body never touches. -/
theorem PhiA1_eq (c : Dev nD) :
    (Pipeline.ΦA spec1 c : sProp 𝕄)
      = iprop((∃ d, owns (c : Thread nD τ) scM1_0 fullShare d) ∗ restG1 (F := F) c) := by
  rw [PhiRaw1_eq]
  exact BI.equiv_iff.mp ⟨PhiRaw1_split c, PhiRaw1_join c⟩

end Cert.Kernel.Fr

end
-- ==== Proof.Kernel.Run1A.lean ====
/- Region 1, CASE A: the whole-body run. -/
import proofs.«130630_j61950608278169_1_alg».proof.Proof.Kernel.Runs1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE A (the first step of a sweep: first branch taken, second not). On whole memrefs — the five inputs' at their
    contents, the output's at contents `xi5` handed back untouched, the scratch accumulator's at anything — the body
    runs to the continuation holding the inputs' and the output's as they were and the accumulator with its pieces
    written (`LS0`, last first: the two accumulated halves over the zeros stored over the whole of it). The pieces
    are the witness the run finds. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) :
    Σ' (L5 : List (View.Piece (Elt F) S2x128x128 .f32)), { LS0 : List (View.Piece (Elt F) S2x128x128 .f32) //
      ∀ (xi5 : Vec F S2x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨[], ?_, fun xi5 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.Kernel.Run1B.lean ====
/- Region 1, CASE B: the whole-body run. -/
import proofs.«130630_j61950608278169_1_alg».proof.Proof.Kernel.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE B (an inner step of a sweep: neither branch taken). On whole memrefs — the five inputs' at their contents,
    the output's at contents `xi5` handed back untouched, the scratch accumulator's at what the point before left
    (`xs0`) — the body runs to the continuation holding the inputs' and the output's as they were and the accumulator
    with its pieces written (`LS0`, last first: its two halves, each the half it held plus this step's partial sum).
    The pieces are the witness the run finds. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) :
    Σ' (L5 : List (View.Piece (Elt F) S2x128x128 .f32)), { LS0 : List (View.Piece (Elt F) S2x128x128 .f32) //
      ∀ (xi5 : Vec F S2x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨[], ?_, fun xi5 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Fr

end
-- ==== Proof.Kernel.Run1C.lean ====
/- Region 1, CASE C: the whole-body run. -/
import proofs.«130630_j61950608278169_1_alg».proof.Proof.Kernel.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE C (the last step of a sweep: first branch not taken, second taken). On whole memrefs — the five inputs' at
    their contents, the output's at anything, the scratch accumulator's at what the point before left (`xs0`) — the
    body runs to the continuation holding the inputs' as they were, the accumulator with its pieces written (`LS0`: its
    two halves accumulated) and the output's buffer with its pieces written (`L5`: its two halves, each the accumulated
    half plus the bias entry of its class). The pieces are the witness the run finds. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) :
    Σ' (L5 : List (View.Piece (Elt F) S2x128x128 .f32)), { LS0 : List (View.Piece (Elt F) S2x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Fr

end
-- ==== Proof.Kernel.Body1.lean ====
/- Region 1: what the scratch accumulator and the output's staging buffer hold after the body at each of the 96 points
   (a recursion on the position: the accumulator is carried from point to point within a sweep of six, zeroed at the
   sweep's first step, and read into the output block at its last), the pipeline's proof data at the buffers' contents
   `V` when the region is entered, and the body obligation at every point. -/
import proofs.«130630_j61950608278169_1_alg».proof.Proof.Kernel.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A (the first step of a sweep) stores nothing into output 5 (the window is idle at its points and not written back
    there): no pieces — a placeholder (junk read back) that nothing consults. -/
def out1_A_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S2x128x128 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the scratch accumulator cover it: among them its two halves of `S1x128x128`, which tile it. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) (y : S2x128x128.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x128x128.size (by sl_kernel_rfl) y

/-- What case A leaves in the scratch accumulator: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S2x128x128 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B (an inner step of a sweep) stores nothing into output 5 (the window is idle at its points and not written back
    there): no pieces — a placeholder (junk read back) that nothing consults. -/
def out1_B_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the scratch accumulator cover it: among them its two halves of `S1x128x128`, which tile it. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x128x128.size (by sl_kernel_rfl) y

/-- What case B leaves in the scratch accumulator: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block: two stores of `S1x128x128`, one per class. -/
theorem cover1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x128x128.size (by sl_kernel_rfl) y

/-- What case C leaves in output 5's staging buffer: its pieces read back over junk. -/
def out1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the scratch accumulator cover it: among them its two halves of `S1x128x128`, which tile it. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x128x128.size (by sl_kernel_rfl) y

/-- What case C leaves in the scratch accumulator: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output's buffer and the accumulator hold after each point -/

/-- THE ACCUMULATION. After the body at position `n`: (.1) output window 5's staging buffer, (.2) the scratch
    accumulator — the case the closed forms select at `n`, run at the point's memrefs and input blocks, the
    accumulator taken at what this leaves at `n - 1` (cases B and C; case A stores over all of it first). The two
    conditions together are met by no point. -/
def outsAt1 (c : Dev nD) : (n : ℕ) → n < cfg1.N → Vec F S2x128x128 .f32 × Vec F S2x128x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 6 = 0 then
      if h5 : (n + 1) % 6 = 5 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h5 : (n + 1) % 6 = 5 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h5) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h5) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 6 = 0) (h5 : ¬t.val % 6 = 5) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h5 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h5 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h5).trans rfl)

/-- `outsAt1` at a point of case B: that case's contents, over what the point before left. -/
theorem outsAt1_B (c : Dev nD) (t : Fin cfg1.N) (h0 : ¬t.val % 6 = 0) (h5 : ¬t.val % 6 = 5) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h5 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h5 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h5).trans rfl)

/-- `outsAt1` at a point of case C: that case's contents, over what the point before left. -/
theorem outsAt1_C (c : Dev nD) (t : Fin cfg1.N) (h0 : ¬t.val % 6 = 0) (h5 : t.val % 6 = 5) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h5) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h5) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h5).trans rfl)

/-- The region invariant before position `n`: before the first point the class's (every scratch at anything);
    afterwards the scratch accumulator at what the point before left in it (`outsAt1`'s second component), beside
    the part the body never touches. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restG1 (F := F) c)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(owns (c : Thread nD τ) scM1_0 fullShare ((outsAt1 V c n hn).2) ∗ restG1 (F := F) c) := rfl

/-- Before a point that is not the first: the accumulator at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restG1 (F := F) c) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in;
    the invariant hands the body the accumulator at what the point before left (at anything at the first point) and
    takes it back at this point's contents, the pieces covering it; the output's buffer is handed back untouched where
    the window is idle, and at its two stored halves at a sweep's last step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 6 = 0
  · by_cases h5 : t.val % 6 = 5
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h5 ((hcond1_1 t).mp h))) (noFlush1_5_A t ((hcond1_0 t).mpr h0) (fun h => h5 ((hcond1_1 t).mp h)))]
      rw [outsAt1_A V c t h0 h5]
      unfold sout1_A_0; (try dsimp only)
      by_cases hz : t.val = 0
      · rw [PhiS1_castSucc V c t, PhiS1_zero V c _ _ hz, PhiA1_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h5 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h5 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h5 : t.val % 6 = 5
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h5)], after1_5]
      rw [outsAt1_C V c t h0 h5]
      unfold out1_C_5 sout1_C_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h5) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h5 ((hcond1_1 t).mp h))) (noFlush1_5_B t (fun h => h0 ((hcond1_0 t).mp h)) (fun h => h5 ((hcond1_1 t).mp h)))]
      rw [outsAt1_B V c t h0 h5]
      unfold sout1_B_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h5 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Cert.Kernel.Fr

end
-- ==== Proof.Kernel.Run.lean ====
/-
  The run of the whole program: two kernel regions among three stretches of host operations.

  Between two items a core holds every unscoped buffer whole, at contents that are a fold through the program:
  the launch memory, then each host stretch applied (StableHlo.after), then, after a region, that region's
  arrays at what its write-backs leave (the proof data's arrAt at the last point) and every other buffer as
  the region found it. Beside the buffers rides the generator register at some state and the core owing
  nothing. Each region's arrays are split out of the unscoped buffers at its entry and put back at its exit;
  the region's invariant takes the scoped rest and the generator register in and gives them back.

  Everything here is stated for ANY proof data of the two regions, given, per region: its arrays are the
  entry contents, full shares, nothing owed, the body obligation, and that its invariant is entered from and
  left to the class's plain invariant (the scoped rest beside the generator register). The conclusion names
  every unscoped buffer at the end: the fold's last stage.
-/
import proofs.«130630_j61950608278169_1_alg».proof.Proof.Gen.Kernel.Launch
import proofs.«130630_j61950608278169_1_alg».proof.Proof.Gen.Kernel.Skeleton
import proofs.«130630_j61950608278169_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed valuation of the TensorCore's buffers: what a region's proof data are stated at. -/
abbrev Entry (F : FTy → Type) [FloatOps F] : Type := (c : Dev nD) → (b : Ref sig .tc) → Buf (Elt F) ((c : Thread nD τ).loc b)

/-- What the run asks of region 0's proof data, at every entry contents. -/
structure Half0 (dat0 : Entry F → (c : Dev nD) → Dat τ (Elt F) Unit ℕ (UR sig nD τ) ℕ cfg0 c) : Prop where
  A : ∀ V c w, (dat0 V c).A w = V c (Pipeline.arrRef spec0 w)
  q : ∀ V c w, (dat0 V c).q w = fullShare
  owed : ∀ V c t, (dat0 V c).owed t = 0
  recd : ∀ V c t, (dat0 V c).recorded t = Set.univ
  body : ∀ V c, BodyObligation (dat0 V c) (defs₀ (F := F)) Variants.none () Set.univ
  hin : ∀ V c, (Pipeline.ΦA spec0 c : sProp 𝕄) ⊢ (dat0 V c).Φ 0
  hout : ∀ V c, (dat0 V c).Φ (Fin.last cfg0.N) ⊢ (Pipeline.ΦA spec0 c : sProp 𝕄)

/-- The same of region 1's. -/
structure Half1 (dat1 : Entry F → (c : Dev nD) → Dat τ (Elt F) Unit ℕ (UR sig nD τ) ℕ cfg1 c) : Prop where
  A : ∀ V c w, (dat1 V c).A w = V c (Pipeline.arrRef spec1 w)
  q : ∀ V c w, (dat1 V c).q w = fullShare
  owed : ∀ V c t, (dat1 V c).owed t = 0
  recd : ∀ V c t, (dat1 V c).recorded t = Set.univ
  body : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)
variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev E1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 dat0 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev E2 : Entry F := fun c b => W2 dat0 m ρ c b
theorem hF0 (c : Dev nD) (w : Fin cfg0.W) : (dat0 (E1 m ρ) c).arrAt w cfg0.N = E2 dat0 m ρ c (Pipeline.arrRef spec0 w) :=
  (W2_arr dat0 m ρ c w).symm
theorem hrest0 (c : Dev nD) : ∀ b, b ∉ Finset.univ.image (Pipeline.arrRef spec0) → E2 dat0 m ρ c b = E1 m ρ c b :=
  fun b hb => W2_of_ne dat0 m ρ c b fun w e => hb (Finset.mem_image.mpr ⟨w, Finset.mem_univ _, e⟩)

/-- After the second host stretch: region 1's entry. -/
abbrev W3 : Dev nD → Valuation τ sig (Elt F) := fun c => StableHlo.after hostOps1 (W2 dat0 m ρ c)
abbrev E3 : Entry F := fun c b => W3 dat0 m ρ c b
/-- At region 1's exit. -/
def W4 (c : Dev nD) : Valuation τ sig (Elt F) :=
  Pipeline.withArrays spec1 c (W3 dat0 m ρ c) fun w => (dat1 (E3 dat0 m ρ) c).arrAt w cfg1.N
theorem W4_arr (c : Dev nD) (w : Fin cfg1.W) :
    W4 dat0 dat1 m ρ c (Proc.devRef .tc (Pipeline.arrRef spec1 w)) = (dat1 (E3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
abbrev E4 : Entry F := fun c b => W4 dat0 dat1 m ρ c b
theorem hF1 (c : Dev nD) (w : Fin cfg1.W) : (dat1 (E3 dat0 m ρ) c).arrAt w cfg1.N = E4 dat0 dat1 m ρ c (Pipeline.arrRef spec1 w) :=
  (W4_arr dat0 dat1 m ρ c w).symm
theorem hrest1 (c : Dev nD) : ∀ b, b ∉ Finset.univ.image (Pipeline.arrRef spec1) → E4 dat0 dat1 m ρ c b = E3 dat0 m ρ c b :=
  fun b hb => W4_of_ne dat0 dat1 m ρ c b fun w e => hb (Finset.mem_image.mpr ⟨w, Finset.mem_univ _, e⟩)
/-- After the last host stretch: the end. -/
abbrev W5 : Dev nD → Valuation τ sig (Elt F) := fun c => StableHlo.after hostOps2 (W4 dat0 dat1 m ρ c)

/-! ## The proof data family and the thread state -/

/-- No pipeline has a prefetched table. -/
abbrev adm : (p : Fin 2) → (pcfgs (F := F) p).Adm := fun p => (cfgs p).toPCfg_adm
/-- Both pipelines' proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 dat0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the fold's last stage, the generator register at some state. -/
abbrev Tₙ (c : Dev nD) : sProp 𝕄 := iprop(StableHlo.held (c : Thread nD τ) (Pipeline.ucRefs τ sig) (W5 dat0 dat1 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at what the write-backs leave; the generator
    register goes into the invariant and comes back; nothing is owed; the kernel has no semaphore of its own. -/
def reg0 (h0 : Half0 dat0) (h1 : Half1 dat1) : Pipeline.RegionSeg (pcfgs (F := F)) adm (pdats dat0 dat1 m ρ) () defs₀ 𝒱₀ L lv 0 where
  win := launch0.win.to₀
  block_pos := launch0.block_pos
  stage_whole := launch0.stage_whole
  K := PEmpty
  osem k := k.elim
  ho := Pipeline.OwnSemFacts.none _
  hbody c := (h0.body (E1 m ρ) c).loose
  hwaits := Pipeline.hwaits_of_owed_zero _ _ _ _ L lv 0 fun c t => h0.owed (E1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats dat0 dat1 m ρ) launch0.win launch0.arr_whole c
      ((pdats dat0 dat1 m ρ 0 c).share_full fun w => h0.q (E1 m ρ) c w) (E1 m ρ c) fun w => h0.A (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m ρ 0 c).owed 0 = 0 from h0.owed (E1 m ρ) c 0]
      icases HO with ⟨%W, HO⟩; iexists W; isplitr; · ipureintro; exact fun _ _ => Or.inl ((Set.ext_iff.mp (h0.recd (E1 m ρ) c 0) _).mpr trivial)
      iexact HO
    isplitl [Hp]; · iexact Hp
    iexact Hrest
  hin c := by
    refine BIBase.Entails.trans ?_ (h0.hin (E1 m ρ) c)
    unfold Pipeline.ΦA
    iintro ⟨Hp, -, Hr⟩
    isplitl [Hr]; · iexact Hr
    iexact Hp
  hout c := by
    refine BIBase.Entails.trans (h0.hout (E1 m ρ) c) ?_
    rw [Pipeline.ownSems0_none]; unfold Pipeline.ΦA
    iintro ⟨Hr, Hp⟩
    isplitl [Hp]; · iexact Hp
    isplitr; · iempintro
    iexact Hr
  hexit c := by
    have hlast0 : (pdats dat0 dat1 m ρ 0 c).owed (Fin.last (Pipeline.pin (pcfgs (F := F)) adm 0).N) = 0 := h0.owed (E1 m ρ) c _
    have hjoin := Pipeline.unscopedBufs_of_arrays (p := 0) (pcfgs (F := F)) adm (Ix := Unit) (Name := ℕ) (U := UR sig nD τ) (Lvl := ℕ)
      launch0.win launch0.arr_whole c (pdats dat0 dat1 m ρ) ((pdats dat0 dat1 m ρ 0 c).share_full fun w => h0.q (E1 m ρ) c w)
      (E1 m ρ c) (E2 dat0 m ρ c) ((pdats dat0 dat1 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hlast0]
    icases HO with ⟨%W, -, HO⟩; iexists W; iexact HO

set_option backward.isDefEq.respectTransparency.types false in
/-- Region 1 over the thread state: entered from every unscoped buffer at the boundary's contents, left at the next
    boundary's. Its arrays are split out of the unscoped buffers and put back at what the write-backs leave; the generator
    register goes into the invariant and comes back; nothing is owed; the kernel has no semaphore of its own. -/
def reg1 (h0 : Half0 dat0) (h1 : Half1 dat1) : Pipeline.RegionSeg (pcfgs (F := F)) adm (pdats dat0 dat1 m ρ) () defs₀ 𝒱₀ L lv 1 where
  win := launch1.win.to₀
  block_pos := launch1.block_pos
  stage_whole := launch1.stage_whole
  K := PEmpty
  osem k := k.elim
  ho := Pipeline.OwnSemFacts.none _
  hbody c := (h1.body (E3 dat0 m ρ) c).loose
  hwaits := Pipeline.hwaits_of_owed_zero _ _ _ _ L lv 1 fun c t => h1.owed (E3 dat0 m ρ) c t
  pre c := iprop(StableHlo.held (c : Thread nD τ) (Pipeline.ucRefs τ sig) (W3 dat0 m ρ c) ∗ R c)
  post c := iprop(StableHlo.held (c : Thread nD τ) (Pipeline.ucRefs τ sig) (W4 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 dat0 m ρ c)
  hentry c := by
    rw [Pipeline.ownSems0_none]
    have hsplit := Pipeline.arrays_of_unscopedBufs (p := 1) (pcfgs (F := F)) adm (pdats dat0 dat1 m ρ) launch1.win launch1.arr_whole c
      ((pdats dat0 dat1 m ρ 1 c).share_full fun w => h1.q (E3 dat0 m ρ) c w) (E3 dat0 m ρ c) fun w => h1.A (E3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m ρ 1 c).owed 0 = 0 from h1.owed (E3 dat0 m ρ) c 0]
      icases HO with ⟨%W, HO⟩; iexists W; isplitr; · ipureintro; exact fun _ _ => Or.inl ((Set.ext_iff.mp (h1.recd (E3 dat0 m ρ) c 0) _).mpr trivial)
      iexact HO
    isplitl [Hp]; · iexact Hp
    iexact Hrest
  hin c := by
    refine BIBase.Entails.trans ?_ (h1.hin (E3 dat0 m ρ) c)
    unfold Pipeline.ΦA
    iintro ⟨Hp, -, Hr⟩
    isplitl [Hr]; · iexact Hr
    iexact Hp
  hout c := by
    refine BIBase.Entails.trans (h1.hout (E3 dat0 m ρ) c) ?_
    rw [Pipeline.ownSems0_none]; unfold Pipeline.ΦA
    iintro ⟨Hr, Hp⟩
    isplitl [Hp]; · iexact Hp
    isplitr; · iempintro
    iexact Hr
  hexit c := by
    have hlast0 : (pdats dat0 dat1 m ρ 1 c).owed (Fin.last (Pipeline.pin (pcfgs (F := F)) adm 1).N) = 0 := h1.owed (E3 dat0 m ρ) c _
    have hjoin := Pipeline.unscopedBufs_of_arrays (p := 1) (pcfgs (F := F)) adm (Ix := Unit) (Name := ℕ) (U := UR sig nD τ) (Lvl := ℕ)
      launch1.win launch1.arr_whole c (pdats dat0 dat1 m ρ) ((pdats dat0 dat1 m ρ 1 c).share_full fun w => h1.q (E3 dat0 m ρ) c w)
      (E3 dat0 m ρ c) (E4 dat0 dat1 m ρ c) ((pdats dat0 dat1 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hlast0]
    icases HO with ⟨%W, -, HO⟩; iexists W; iexact HO

/-! ## The program as segments, and the launch -/

/-- The five items in order: a host segment per stretch from its boundary's contents, a region per kernel launch. -/
abbrev segs (h0 : Half0 dat0) (h1 : Half1 dat1) : List (Pipeline.Seg (pcfgs (F := F)) adm (pdats dat0 dat1 m ρ) () defs₀ 𝒱₀ L lv) :=
  [ .host (hseg hostOps0 hostOps0_sub hostOps0_fresh (W0 m ρ)),
    .region (reg0 dat0 dat1 m ρ h0 h1),
    .host (hseg hostOps1 hostOps1_sub hostOps1_fresh (W2 dat0 m ρ)),
    .region (reg1 dat0 dat1 m ρ h0 h1),
    .host (hseg hostOps2 hostOps2_sub hostOps2_fresh (W4 dat0 dat1 m ρ)) ]
/-- The program is the run of the segments. -/
theorem main_run (h0 : Half0 dat0) (h1 : Half1 dat1) (c : Dev nD) : main (F := F) c = Pipeline.Seg.run (segs dat0 dat1 m ρ h0 h1) :=
  (main_chain c).trans (by chain_rfl)

set_option backward.isDefEq.respectTransparency.types false in
/-- THE RUN. From any memory with zero counters every weakly fair execution of the program on the TensorCores terminates,
    nothing faulting, and every final state has every unscoped buffer at the fold's last stage. -/
theorem run_all (h0 : Half0 dat0) (h1 : Half1 dat1) :
    θ_run defs (onTc (τ := τ) (main (F := F))) ⟨m, fun _ => 0, ρ⟩
      (fun r => ∀ c : Dev nD, ∀ b ∈ Pipeline.ucRefs τ sig, r.2.mem (((c : Thread nD τ)).1, b) = W5 dat0 dat1 m ρ c b) :=
  Pipeline.θ_run_regions_kit (pcfgs (F := F)) adm (pdats dat0 dat1 m ρ) () cellOf_inj emb₁ defs₀ 𝒱₀ L lv m ρ main (segs dat0 dat1 m ρ h0 h1)
    (fun c Q => by rw [main_run dat0 dat1 m ρ h0 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 m ρ)
    (hch := ⟨fun _ => .rfl, fun _ => .rfl, fun _ => .rfl, fun _ => .rfl, fun _ => .rfl, fun c => by
      show iprop(StableHlo.held (c : Thread nD τ) (Pipeline.ucRefs τ sig) (W5 dat0 dat1 m ρ c) ∗ R c)
        ⊢ iprop(Tₙ dat0 dat1 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 m ρ c) s')
      isplitl [Hh] <;> iassumption)
    (hQ := fun s h c => h c)

end Cert.Kernel.Fr

end
-- ==== Proof.Kernel.RunPost.lean ====
/-
  The end of the run read back. No host operation writes an argument array and no region changes one (a region reads it
  through an input window, whose array ends as it was found, or does not touch it), so the fold's last stage at an
  argument is the launch memory: the frame. The result buffer is the last host operation's term of region 1's output
  array; each region's input arrays are host operations' terms of earlier stages.
-/
import proofs.«130630_j61950608278169_1_alg».proof.Proof.Kernel.Run
import Idealize.ShloMosaic.Lib.StableHlo.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

/-- A host stretch leaves a buffer none of its operations writes as it was. -/
local macro "keep_tac" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.reshape_writes, Finset.mem_singleton]
  repeat' apply And.intro
  all_goals exact StableHlo.devRef_ne_of_ne (by decide)))

theorem keep0_main_arg0 (Wv : Valuation τ sig (Elt F)) : StableHlo.after hostOps0 Wv (Proc.devRef .tc main_arg0) = Wv (Proc.devRef .tc main_arg0) := by keep_tac
theorem keep1_main_arg0 (Wv : Valuation τ sig (Elt F)) : StableHlo.after hostOps1 Wv (Proc.devRef .tc main_arg0) = Wv (Proc.devRef .tc main_arg0) := by keep_tac
theorem keep2_main_arg0 (Wv : Valuation τ sig (Elt F)) : StableHlo.after hostOps2 Wv (Proc.devRef .tc main_arg0) = Wv (Proc.devRef .tc main_arg0) := by keep_tac
theorem keep0_main_arg1 (Wv : Valuation τ sig (Elt F)) : StableHlo.after hostOps0 Wv (Proc.devRef .tc main_arg1) = Wv (Proc.devRef .tc main_arg1) := by keep_tac
theorem keep1_main_arg1 (Wv : Valuation τ sig (Elt F)) : StableHlo.after hostOps1 Wv (Proc.devRef .tc main_arg1) = Wv (Proc.devRef .tc main_arg1) := by keep_tac
theorem keep2_main_arg1 (Wv : Valuation τ sig (Elt F)) : StableHlo.after hostOps2 Wv (Proc.devRef .tc main_arg1) = Wv (Proc.devRef .tc main_arg1) := by keep_tac
theorem keep0_main_arg2 (Wv : Valuation τ sig (Elt F)) : StableHlo.after hostOps0 Wv (Proc.devRef .tc main_arg2) = Wv (Proc.devRef .tc main_arg2) := by keep_tac
theorem keep1_main_arg2 (Wv : Valuation τ sig (Elt F)) : StableHlo.after hostOps1 Wv (Proc.devRef .tc main_arg2) = Wv (Proc.devRef .tc main_arg2) := by keep_tac
theorem keep2_main_arg2 (Wv : Valuation τ sig (Elt F)) : StableHlo.after hostOps2 Wv (Proc.devRef .tc main_arg2) = Wv (Proc.devRef .tc main_arg2) := by keep_tac
theorem keep0_main_arg3 (Wv : Valuation τ sig (Elt F)) : StableHlo.after hostOps0 Wv (Proc.devRef .tc main_arg3) = Wv (Proc.devRef .tc main_arg3) := by keep_tac
theorem keep1_main_arg3 (Wv : Valuation τ sig (Elt F)) : StableHlo.after hostOps1 Wv (Proc.devRef .tc main_arg3) = Wv (Proc.devRef .tc main_arg3) := by keep_tac
theorem keep2_main_arg3 (Wv : Valuation τ sig (Elt F)) : StableHlo.after hostOps2 Wv (Proc.devRef .tc main_arg3) = Wv (Proc.devRef .tc main_arg3) := by keep_tac
theorem keep0_main_arg4 (Wv : Valuation τ sig (Elt F)) : StableHlo.after hostOps0 Wv (Proc.devRef .tc main_arg4) = Wv (Proc.devRef .tc main_arg4) := by keep_tac
theorem keep1_main_arg4 (Wv : Valuation τ sig (Elt F)) : StableHlo.after hostOps1 Wv (Proc.devRef .tc main_arg4) = Wv (Proc.devRef .tc main_arg4) := by keep_tac
theorem keep2_main_arg4 (Wv : Valuation τ sig (Elt F)) : StableHlo.after hostOps2 Wv (Proc.devRef .tc main_arg4) = Wv (Proc.devRef .tc main_arg4) := by keep_tac
theorem keep1_main_v4_0 (Wv : Valuation τ sig (Elt F)) : StableHlo.after hostOps1 Wv (Proc.devRef .tc main_v4_0) = Wv (Proc.devRef .tc main_v4_0) := by keep_tac
theorem keep1_main_v4_1 (Wv : Valuation τ sig (Elt F)) : StableHlo.after hostOps1 Wv (Proc.devRef .tc main_v4_1) = Wv (Proc.devRef .tc main_v4_1) := by keep_tac

variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)
variable (m : (ℓ : Loc nD τ sig) → Buf (Elt F) ℓ) (ρ : Dev nD → PrngReg)

/-! ## The arguments end as launched -/

theorem W5_main_arg0 (h0 : Half0 dat0) (c : Dev nD) : W5 dat0 dat1 m ρ c (Proc.devRef .tc main_arg0) = m ((c : Thread nD τ).loc main_arg0) :=
  calc W5 dat0 dat1 m ρ c (Proc.devRef .tc main_arg0)
    _ = W4 dat0 dat1 m ρ c (Proc.devRef .tc main_arg0) := keep2_main_arg0 _
    _ = W3 dat0 m ρ c (Proc.devRef .tc main_arg0) := W4_of_ne dat0 dat1 m ρ c main_arg0 (by decide)
    _ = W2 dat0 m ρ c (Proc.devRef .tc main_arg0) := keep1_main_arg0 _
    _ = W1 m ρ c (Proc.devRef .tc main_arg0) := (W2_arr dat0 m ρ c 0).trans (((dat0 (E1 m ρ) c).arrAt_in 0 rfl _).trans (h0.A (E1 m ρ) c 0))
    _ = W0 m ρ c (Proc.devRef .tc main_arg0) := keep0_main_arg0 _
    _ = m ((c : Thread nD τ).loc main_arg0) := rfl
theorem W5_main_arg3 (h1 : Half1 dat1) (c : Dev nD) : W5 dat0 dat1 m ρ c (Proc.devRef .tc main_arg3) = m ((c : Thread nD τ).loc main_arg3) :=
  calc W5 dat0 dat1 m ρ c (Proc.devRef .tc main_arg3)
    _ = W4 dat0 dat1 m ρ c (Proc.devRef .tc main_arg3) := keep2_main_arg3 _
    _ = W3 dat0 m ρ c (Proc.devRef .tc main_arg3) := (W4_arr dat0 dat1 m ρ c 3).trans (((dat1 (E3 dat0 m ρ) c).arrAt_in 3 rfl _).trans (h1.A (E3 dat0 m ρ) c 3))
    _ = W2 dat0 m ρ c (Proc.devRef .tc main_arg3) := keep1_main_arg3 _
    _ = W1 m ρ c (Proc.devRef .tc main_arg3) := W2_of_ne dat0 m ρ c main_arg3 (by decide)
    _ = W0 m ρ c (Proc.devRef .tc main_arg3) := keep0_main_arg3 _
    _ = m ((c : Thread nD τ).loc main_arg3) := rfl
theorem W5_main_arg1 (c : Dev nD) : W5 dat0 dat1 m ρ c (Proc.devRef .tc main_arg1) = m ((c : Thread nD τ).loc main_arg1) :=
  calc W5 dat0 dat1 m ρ c (Proc.devRef .tc main_arg1)
    _ = W4 dat0 dat1 m ρ c (Proc.devRef .tc main_arg1) := keep2_main_arg1 _
    _ = W3 dat0 m ρ c (Proc.devRef .tc main_arg1) := W4_of_ne dat0 dat1 m ρ c main_arg1 (by decide)
    _ = W2 dat0 m ρ c (Proc.devRef .tc main_arg1) := keep1_main_arg1 _
    _ = W1 m ρ c (Proc.devRef .tc main_arg1) := W2_of_ne dat0 m ρ c main_arg1 (by decide)
    _ = W0 m ρ c (Proc.devRef .tc main_arg1) := keep0_main_arg1 _
    _ = m ((c : Thread nD τ).loc main_arg1) := rfl
theorem W5_main_arg2 (c : Dev nD) : W5 dat0 dat1 m ρ c (Proc.devRef .tc main_arg2) = m ((c : Thread nD τ).loc main_arg2) :=
  calc W5 dat0 dat1 m ρ c (Proc.devRef .tc main_arg2)
    _ = W4 dat0 dat1 m ρ c (Proc.devRef .tc main_arg2) := keep2_main_arg2 _
    _ = W3 dat0 m ρ c (Proc.devRef .tc main_arg2) := W4_of_ne dat0 dat1 m ρ c main_arg2 (by decide)
    _ = W2 dat0 m ρ c (Proc.devRef .tc main_arg2) := keep1_main_arg2 _
    _ = W1 m ρ c (Proc.devRef .tc main_arg2) := W2_of_ne dat0 m ρ c main_arg2 (by decide)
    _ = W0 m ρ c (Proc.devRef .tc main_arg2) := keep0_main_arg2 _
    _ = m ((c : Thread nD τ).loc main_arg2) := rfl
theorem W5_main_arg4 (c : Dev nD) : W5 dat0 dat1 m ρ c (Proc.devRef .tc main_arg4) = m ((c : Thread nD τ).loc main_arg4) :=
  calc W5 dat0 dat1 m ρ c (Proc.devRef .tc main_arg4)
    _ = W4 dat0 dat1 m ρ c (Proc.devRef .tc main_arg4) := keep2_main_arg4 _
    _ = W3 dat0 m ρ c (Proc.devRef .tc main_arg4) := W4_of_ne dat0 dat1 m ρ c main_arg4 (by decide)
    _ = W2 dat0 m ρ c (Proc.devRef .tc main_arg4) := keep1_main_arg4 _
    _ = W1 m ρ c (Proc.devRef .tc main_arg4) := W2_of_ne dat0 m ρ c main_arg4 (by decide)
    _ = W0 m ρ c (Proc.devRef .tc main_arg4) := keep0_main_arg4 _
    _ = m ((c : Thread nD τ).loc main_arg4) := rfl

/-- THE FRAME, at any instance: the program runs to the end, faults nowhere, and leaves its five argument arrays as launched. -/
theorem frame_all (h0 : Half0 dat0) (h1 : Half1 dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 dat0 dat1 m ρ h0 c),
     (h c _ (mem_uc main_arg1 (by decide))).trans (W5_main_arg1 dat0 dat1 m ρ c),
     (h c _ (mem_uc main_arg2 (by decide))).trans (W5_main_arg2 dat0 dat1 m ρ c),
     (h c _ (mem_uc main_arg3 (by decide))).trans (W5_main_arg3 dat0 dat1 m ρ h1 c),
     (h c _ (mem_uc main_arg4 (by decide))).trans (W5_main_arg4 dat0 dat1 m ρ c)⟩)
    (run_all dat0 dat1 m ρ h0 h1)

end Cert.Kernel.Fr

end
-- ==== Proof.Kernel.Frame.lean ====
/-
  The frame of the whole program at any instance: the run over both regions at the two regions' proof data — region 0's
  (each output block the product of the rows' block with a weight matrix) and region 1's (the accumulator carried
  between grid points, the output block stored at the last point of each sweep).
-/
import proofs.«130630_j61950608278169_1_alg».proof.Proof.Kernel.Body0
import proofs.«130630_j61950608278169_1_alg».proof.Proof.Kernel.Body1
import proofs.«130630_j61950608278169_1_alg».proof.Proof.Kernel.RunPost

noncomputable section

namespace Cert.Kernel.Fr

open Cert.Kernel Cert.Kernel.Gen
open Idealize.ShloMosaic Idealize.ShloMosaic.TcCoe
open Idealize.SL Idealize.SL.Sem
open Idealize.ShloMosaic.Pipeline (Dat)

variable {F : FTy → Type} [FloatOps F]

/-- Region 0's proof data meet what the run asks: its invariant is the plain one at every point. -/
theorem half0 : Half0 (F := F) (fun V c => dat0 V c) :=
  ⟨fun V c w => A_eq0 V c w, fun _ _ _ => rfl, fun _ _ _ => rfl, fun _ _ _ => rfl, fun V c => body_obligation0 V c,
    fun _ _ => .rfl, fun _ _ => .rfl⟩

/-- Region 1's: its invariant is entered from the plain one and gives it back after the last point. -/
theorem half1 : Half1 (F := F) (fun V c => dat1 V c) :=
  ⟨fun V c w => A_eq1 V c w, fun _ _ _ => rfl, fun _ _ _ => rfl, fun _ _ _ => rfl, fun V c => body_obligation1 V c,
    fun V c => hin1 V c, fun V c => hout1 V c⟩

variable (m : (ℓ : Loc nD τ sig) → Buf (Elt F) ℓ) (ρ : Dev nD → PrngReg)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_all (fun V c => dat0 V c) (fun V c => dat1 V c) m ρ half0 half1

/-- The same run, naming every unscoped buffer at the end (the result among them). -/
theorem run_named : θ_run defs (onTc (τ := τ) (main (F := F))) ⟨m, fun _ => 0, ρ⟩
    (fun r => ∀ c : Dev nD, ∀ b ∈ Pipeline.ucRefs τ sig, r.2.mem (((c : Thread nD τ)).1, b) = W5 (fun V c => dat0 V c) (fun V c => dat1 V c) m ρ c b) :=
  run_all (fun V c => dat0 V c) (fun V c => dat1 V c) m ρ half0 half1

/-- The same run with the result buffer named beside the five arguments: the result is the fold's last stage at it. -/
theorem run_result : θ_run defs (onTc (τ := τ) (main (F := F))) ⟨m, fun _ => 0, ρ⟩ (fun r => ∀ c : Dev nD,
      r.2.mem ((c.tc : Thread nD τ).loc main_v8) = W5 (fun V c => dat0 V c) (fun V c => dat1 V c) m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (W5_main_arg0 _ _ m ρ half0 c),
     (h c _ (mem_uc main_arg1 (by decide))).trans (W5_main_arg1 _ _ m ρ c),
     (h c _ (mem_uc main_arg2 (by decide))).trans (W5_main_arg2 _ _ m ρ c),
     (h c _ (mem_uc main_arg3 (by decide))).trans (W5_main_arg3 _ _ m ρ half1 c),
     (h c _ (mem_uc main_arg4 (by decide))).trans (W5_main_arg4 _ _ m ρ c)⟩)
    (run_named m ρ)

end Cert.Kernel.Fr

end
-- ==== Proof.KernelIdeal.Body0.lean ====
/- REGION 0 of @main (the projection kernel, pipeline 0), at a PARAMETER `V` — the TensorCore's buffer contents when
   the region is entered: each window's block at a point, what the body leaves in each of the two output windows'
   buffers as a closed function of the input blocks, the body's triple, the pipeline's proof data and the body
   obligation at every point of the grid. Generic in the float instance. -/
import proofs.«130630_j61950608278169_1_alg».proof.Proof.Gen.KernelIdeal.Launch
import proofs.«130630_j61950608278169_1_alg».proof.Proof.Gen.KernelIdeal.Skeleton
import proofs.«130630_j61950608278169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- the whole rows' block (and the whole of either output block) -/
abbrev r0_a : Rect S128x768 := Rect.unit (s := S128x768) ![0, 0] S128x768.size inb_S128x768_S128x768_0_0
/-- the whole of a weight matrix -/
abbrev r0_b : Rect S768x768 := Rect.unit (s := S768x768) ![0, 0] S768x768.size inb_S768x768_S768x768_0_0

/-! ## What the body leaves in each output window's buffer -/

/-- the left projection block: the product of the rows' block with the whole first weight matrix -/
def out0_3 (x0 : Vec F S128x768 .f32) (x1 : Vec F S768x768 .f32) : Vec F S128x768 .f32 := View.canon [⟨r0_a, k0_pay2 (View.ld x0 r0_a) (View.ld x1 r0_b)⟩]
/-- the right projection block: the product of the rows' block with the whole second weight matrix -/
def out0_4 (x0 : Vec F S128x768 .f32) (x2 : Vec F S768x768 .f32) : Vec F S128x768 .f32 := View.canon [⟨r0_a, k0_pay3 (View.ld x0 r0_a) (View.ld x2 r0_b)⟩]

/-- The one store into an output buffer is of the whole buffer, so it covers it. -/
theorem cover0_o (p0 : Vec F S128x768 .f32) (y : S128x768.Idx) :
    ∃ pc ∈ ([⟨r0_a, p0⟩] : List (View.Piece (Elt F) S128x768 .f32)), y ∈ pc.1.set :=
  View.cover_of_tiled [⟨r0_a, p0⟩] S128x768.size (by rfl) y

/-! ## The pipeline's proof data -/

/-- The proof data of pipeline 0 on core `c`: the arrays as the region finds them (`V`); after the body at point `t`
    each input's buffer at its block and each output's at its projection of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t | ⟨1, _⟩ => iblk0 V c 1 t | ⟨2, _⟩ => iblk0 V c 2 t
    | ⟨3, _⟩ => out0_3 (iblk0 V c 0 t) (iblk0 V c 1 t) | ⟨4, _⟩ => out0_4 (iblk0 V c 0 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

/-! ## What the body finds in each input window's buffer -/

/-- Input window 0's current staging buffer holds its block at every point, for ANY proof data whose array is
    `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole first weight matrix, its block index constant) is fetched at the first point only;
    at a later point the index has not moved and the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole second weight matrix): as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the three inputs' at read contents `x0`, `x1`, `x2` and the two
    outputs' at anything, runs to the continuation holding the inputs' as they were and each output's at its
    projection of the inputs'. The body reads each output buffer before it stores it whole; what it read is used
    nowhere, and the whole store covers the buffer, so what was there before does not matter. -/
theorem sound_kernel0 (c : Dev nD) (E : Set ℕ) (i : grid0.Coords)
    (arg1 : Memref sig .tc .vmem S128x768 .f32) (harg1 : arg1.IsWhole)
    (arg2 : Memref sig .tc .vmem S768x768 .f32) (harg2 : arg2.IsWhole)
    (arg3 : Memref sig .tc .vmem S768x768 .f32) (harg3 : arg3.IsWhole)
    (arg4 : Memref sig .tc .vmem S128x768 .f32) (harg4 : arg4.IsWhole)
    (arg5 : Memref sig .tc .vmem S128x768 .f32) (harg5 : arg5.IsWhole)
    (x0 : Vec F S128x768 .f32) (x1 x2 : Vec F S768x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  iexists _; isplitr
  swap; · iexact H4
  ipureintro
  exact View.read_writes_eq_canon _ _ _ (cover0_o _)

/-! ## The body obligation, at a generic point -/

/-- What the body is called with at point `t`: the invariant, what the core owes, and each window's current staging
    buffer at what it then holds, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the three inputs' memrefs hold their blocks, fetched there or not, so the body's triple
    applies; the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point of the grid. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KernelIdeal.Runs1.lean ====
/- Region 1 (the pairwise stage, grid 4 x 4 x 6, the innermost coordinate the sweep over the feature blocks):
   what its three whole-body runs share. The body's two branch conditions on the grid point, in closed form over
   the 96 points; where the output window is idle and where the pipeline does not write it back; the staging
   memrefs the pipeline passes the body at a point, the scratch accumulator as a memref; and the region's
   invariant split into the scratch accumulator and the part the body never touches. -/
import proofs.«130630_j61950608278169_1_alg».proof.Proof.Gen.KernelIdeal.Launch
import proofs.«130630_j61950608278169_1_alg».proof.Proof.Gen.KernelIdeal.Skeleton
import proofs.«130630_j61950608278169_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's first `scf.if` (the sweep's first step: the accumulator is zeroed), from the grid
    coordinates, the scalar chain substituted. -/
abbrev cond1_0 (i : grid1.Coords) : Prop := (Scalar.cmpi .ne (Scalar.extui (Scalar.cmpi .eq (BitVec.ofNat 32 (i 2).val) 0#32)) 0#32) = 1#1
/-- It holds at the points whose innermost coordinate is 0 — decided over the grid. -/
theorem hcond1_0 : ∀ t : Fin cfg1.N, cond1_0 (grid1.coords t) ↔ t.val % 6 = 0 :=
  (by decide +kernel : ∀ t : Fin grid1.N, cond1_0 (grid1.coords t) ↔ t.val % 6 = 0)

/-- The condition of the body's second `scf.if` (the sweep's last step: the output block is stored). -/
abbrev cond1_1 (i : grid1.Coords) : Prop := k1_cond2 i = 1#1
/-- It holds at the points whose innermost coordinate is 5 — decided over the grid. -/
theorem hcond1_1 : ∀ t : Fin cfg1.N, cond1_1 (grid1.coords t) ↔ t.val % 6 = 5 :=
  (by decide +kernel : ∀ t : Fin grid1.N, cond1_1 (grid1.coords t) ↔ t.val % 6 = 5)

/-! ## Where the windows are idle -/

/-- The five input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
/-- At the points of case A (first step of a sweep) the output window 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B (an inner step of a sweep) the output window 5 is idle. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C (last step of a sweep) the output window 5 is live: the case stores its two halves. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of output window 5, through which its contents are stated (the choice does not matter:
    what covering writes leave reads the same through any view). -/
abbrev VO1_5 : View sig .tc .vmem S2x128x128 .f32 := (Memref.whole cc1_stg5_0 : Memref sig .tc .vmem S2x128x128 .f32).view
/-- Each window's current staging memref at point `t`, spelled as the pipeline passes it, and its wholeness. -/
abbrev ms1_0 (t : Fin cfg1.N) : Memref sig .tc .vmem S128x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x128x128 .f32 := win1_5.stage (cfg1.slots t 5)
abbrev hs1_5 (t : Fin cfg1.N) : (ms1_5 t).IsWhole := hstage1_5 ((cfg1.slots t 5).cast nbuf1_5)
/-- The scratch accumulator: a whole scoped buffer of the region's own, passed beside the windows. -/
abbrev scM1_0 : Memref sig .tc .vmem S2x128x128 .f32 := Memref.whole cc1_scratch0
/-- The scratch accumulator as a view: what it holds between points is stated through it. -/
abbrev VS1_0 : View sig .tc .vmem S2x128x128 .f32 := scM1_0.view

/-! ## The region's invariant, split -/

/-- A scoped buffer of the core, whole at some contents. -/
abbrev heldAny1 (c : Dev nD) (b : Ref sig .tc) : sProp 𝕄 :=
  iprop(∃ f : Buf (Elt F) ((c : Thread nD τ).loc b), ((c : Thread nD τ).loc b) ↦{fullShare} f)

/-- What the body never touches: the eight staging buffers of the other region, each whole at some contents, and the
    generator register at some state. -/
def restG1 (c : Dev nD) : sProp 𝕄 :=
  iprop(heldAny1 (F := F) c cc0_stg0_0 ∗ heldAny1 (F := F) c cc0_stg0_1 ∗ heldAny1 (F := F) c cc0_stg1_0 ∗ heldAny1 (F := F) c cc0_stg2_0
    ∗ heldAny1 (F := F) c cc0_stg3_0 ∗ heldAny1 (F := F) c cc0_stg3_1 ∗ heldAny1 (F := F) c cc0_stg4_0 ∗ heldAny1 (F := F) c cc0_stg4_1
    ∗ (∃ r, prngReg c r))

/-- The class's region invariant as the launch lists it, the scratch accumulator owned as a memref. -/
abbrev PhiRaw1 (c : Dev nD) : sProp 𝕄 :=
  iprop(iprop(heldAny1 (F := F) c cc0_stg0_0 ∗ heldAny1 (F := F) c cc0_stg0_1 ∗ heldAny1 (F := F) c cc0_stg1_0 ∗ heldAny1 (F := F) c cc0_stg2_0
      ∗ heldAny1 (F := F) c cc0_stg3_0 ∗ heldAny1 (F := F) c cc0_stg3_1 ∗ heldAny1 (F := F) c cc0_stg4_0 ∗ heldAny1 (F := F) c cc0_stg4_1
      ∗ (∃ d, owns (c : Thread nD τ) scM1_0 fullShare d)) ∗ (∃ r, prngReg c r))

theorem PhiRaw1_eq (c : Dev nD) : (Pipeline.ΦA spec1 c : sProp 𝕄) = PhiRaw1 (F := F) c := by
  unfold Pipeline.ΦA PhiRaw1; rw [scopedRest1_eq]; simp only [scM1_0, owns_whole]; try rfl

theorem PhiRaw1_split (c : Dev nD) :
    PhiRaw1 (F := F) c ⊢ (iprop((∃ d, owns (c : Thread nD τ) scM1_0 fullShare d) ∗ restG1 (F := F) c) : sProp 𝕄) := by
  unfold restG1
  iintro ⟨⟨R0, R1, R2, R3, R4, R5, R6, R7, HS0⟩, Hg⟩
  isplitl [HS0]; · iexact HS0
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg

theorem PhiRaw1_join (c : Dev nD) :
    (iprop((∃ d, owns (c : Thread nD τ) scM1_0 fullShare d) ∗ restG1 (F := F) c) : sProp 𝕄) ⊢ PhiRaw1 (F := F) c := by
  unfold restG1
  iintro ⟨HS0, R0, R1, R2, R3, R4, R5, R6, R7, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  iexact HS0

/-- The class's region invariant (every scoped buffer that is no staging buffer of the region at some contents, the
    generator register at some state) is the scratch accumulator owned as a memref at some contents, beside the part
    the body never touches. -/
theorem PhiA1_eq (c : Dev nD) :
    (Pipeline.ΦA spec1 c : sProp 𝕄)
      = iprop((∃ d, owns (c : Thread nD τ) scM1_0 fullShare d) ∗ restG1 (F := F) c) := by
  rw [PhiRaw1_eq]
  exact BI.equiv_iff.mp ⟨PhiRaw1_split c, PhiRaw1_join c⟩

end Cert.KernelIdeal.Fr

end
-- ==== Proof.KernelIdeal.Run1A.lean ====
/- Region 1, CASE A: the whole-body run. -/
import proofs.«130630_j61950608278169_1_alg».proof.Proof.KernelIdeal.Runs1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE A (the first step of a sweep: first branch taken, second not). On whole memrefs — the five inputs' at their
    contents, the output's at contents `xi5` handed back untouched, the scratch accumulator's at anything — the body
    runs to the continuation holding the inputs' and the output's as they were and the accumulator with its pieces
    written (`LS0`, last first: the two accumulated halves over the zeros stored over the whole of it). The pieces
    are the witness the run finds. -/
noncomputable def kernelRun1_A (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) :
    Σ' (L5 : List (View.Piece (Elt F) S2x128x128 .f32)), { LS0 : List (View.Piece (Elt F) S2x128x128 .f32) //
      ∀ (xi5 : Vec F S2x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨[], ?_, fun xi5 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KernelIdeal.Run1B.lean ====
/- Region 1, CASE B: the whole-body run. -/
import proofs.«130630_j61950608278169_1_alg».proof.Proof.KernelIdeal.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE B (an inner step of a sweep: neither branch taken). On whole memrefs — the five inputs' at their contents,
    the output's at contents `xi5` handed back untouched, the scratch accumulator's at what the point before left
    (`xs0`) — the body runs to the continuation holding the inputs' and the output's as they were and the accumulator
    with its pieces written (`LS0`, last first: its two halves, each the half it held plus this step's partial sum).
    The pieces are the witness the run finds. -/
noncomputable def kernelRun1_B (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) :
    Σ' (L5 : List (View.Piece (Elt F) S2x128x128 .f32)), { LS0 : List (View.Piece (Elt F) S2x128x128 .f32) //
      ∀ (xi5 : Vec F S2x128x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨[], ?_, fun xi5 E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Fr

end
-- ==== Proof.KernelIdeal.Run1C.lean ====
/- Region 1, CASE C: the whole-body run. -/
import proofs.«130630_j61950608278169_1_alg».proof.Proof.KernelIdeal.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE C (the last step of a sweep: first branch not taken, second taken). On whole memrefs — the five inputs' at
    their contents, the output's at anything, the scratch accumulator's at what the point before left (`xs0`) — the
    body runs to the continuation holding the inputs' as they were, the accumulator with its pieces written (`LS0`: its
    two halves accumulated) and the output's buffer with its pieces written (`L5`: its two halves, each the accumulated
    half plus the bias entry of its class). The pieces are the witness the run finds. -/
noncomputable def kernelRun1_C (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) :
    Σ' (L5 : List (View.Piece (Elt F) S2x128x128 .f32)), { LS0 : List (View.Piece (Elt F) S2x128x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__pair_kernel i arg3 harg3 arg4 harg4 arg5 harg5 arg6 harg6 arg7 harg7 arg8 harg8 arg9 harg9) K } := by
  refine ⟨?_, ?_, fun E K => ?run⟩
  case run =>
    simp only [cc1__pair_kernel_eq_skeleton]; unfold cc1__pair_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Fr

end
-- ==== Proof.KernelIdeal.Body1.lean ====
/- Region 1: what the scratch accumulator and the output's staging buffer hold after the body at each of the 96 points
   (a recursion on the position: the accumulator is carried from point to point within a sweep of six, zeroed at the
   sweep's first step, and read into the output block at its last), the pipeline's proof data at the buffers' contents
   `V` when the region is entered, and the body obligation at every point. -/
import proofs.«130630_j61950608278169_1_alg».proof.Proof.KernelIdeal.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter everything here is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A (the first step of a sweep) stores nothing into output 5 (the window is idle at its points and not written back
    there): no pieces — a placeholder (junk read back) that nothing consults. -/
def out1_A_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S2x128x128 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1 x2 x3 x4).1)

/-- Case A's pieces for the scratch accumulator cover it: among them its two halves of `S1x128x128`, which tile it. -/
theorem scover1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) (y : S2x128x128.Idx) :
    ∃ pc ∈ (kernelRun1_A c i arg3 harg3 arg4 harg4 arg5 harg5 arg6 harg6 arg7 harg7 arg8 harg8 arg9 harg9 hc0 hc1 x0 x1 x2 x3 x4).2.1, y ∈ pc.1.set :=
  View.cover_of_tiledL (kernelRun1_A c i arg3 harg3 arg4 harg4 arg5 harg5 arg6 harg6 arg7 harg7 arg8 harg8 arg9 harg9 hc0 hc1 x0 x1 x2 x3 x4).2.1 S1x128x128.size (by sl_kernel_rfl) y

/-- What case A leaves in the scratch accumulator: its pieces read back over junk. -/
def sout1_A_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)
    (x0 : Vec F S128x128 .f32) (x1 : Vec F S128x128 .f32) (x2 : Vec F S1x128 .f32) (x3 : Vec F S2x128 .f32) (x4 : Vec F S1x2 .f32) : Vec F S2x128x128 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2 x3 x4).2.1)

/-- Case B (an inner step of a sweep) stores nothing into output 5 (the window is idle at its points and not written back
    there): no pieces — a placeholder (junk read back) that nothing consults. -/
def out1_B_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 x2 x3 x4 xs0).1)

/-- Case B's pieces for the scratch accumulator cover it: among them its two halves of `S1x128x128`, which tile it. -/
theorem scover1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_B c i arg3 harg3 arg4 harg4 arg5 harg5 arg6 harg6 arg7 harg7 arg8 harg8 arg9 harg9 hc0 hc1 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 x0 x1 x2 x3 x4 xs0).2.1 S1x128x128.size (by sl_kernel_rfl) y

/-- What case B leaves in the scratch accumulator: its pieces read back over junk. -/
def sout1_B_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 x3 x4 xs0).2.1)

/-- Case C's pieces for output 5 tile its block: two stores of `S1x128x128`, one per class. -/
theorem cover1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x128x128.size (by sl_kernel_rfl) y

/-- What case C leaves in output 5's staging buffer: its pieces read back over junk. -/
def out1_C_5 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

/-- Case C's pieces for the scratch accumulator cover it: among them its two halves of `S1x128x128`, which tile it. -/
theorem scover1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) (y : S2x128x128.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1x128x128.size (by sl_kernel_rfl) y

/-- What case C leaves in the scratch accumulator: its pieces read back over junk. -/
def sout1_C_0 (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)
    (x0 : Vec F S128x128 .f32) (x1 : Vec F S128x128 .f32) (x2 : Vec F S1x128 .f32) (x3 : Vec F S2x128 .f32) (x4 : Vec F S1x2 .f32) (xs0 : Vec F S2x128x128 .f32) : Vec F S2x128x128 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 x3 x4 xs0).2.1)

/-! ## What the output's buffer and the accumulator hold after each point -/

/-- THE ACCUMULATION. After the body at position `n`: (.1) output window 5's staging buffer, (.2) the scratch
    accumulator — the case the closed forms select at `n`, run at the point's memrefs and input blocks, the
    accumulator taken at what this leaves at `n - 1` (cases B and C; case A stores over all of it first). The two
    conditions together are met by no point. -/
def outsAt1 (c : Dev nD) : (n : ℕ) → n < cfg1.N → Vec F S2x128x128 .f32 × Vec F S2x128x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 6 = 0 then
      if h5 : (n + 1) % 6 = 5 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h5 : (n + 1) % 6 = 5 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h5) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h5) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h5 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A: that case's contents. -/
theorem outsAt1_A (c : Dev nD) (t : Fin cfg1.N) (h0 : t.val % 6 = 0) (h5 : ¬t.val % 6 = 5) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h5 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h5 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h5).trans rfl)

/-- `outsAt1` at a point of case B: that case's contents, over what the point before left. -/
theorem outsAt1_B (c : Dev nD) (t : Fin cfg1.N) (h0 : ¬t.val % 6 = 0) (h5 : ¬t.val % 6 = 5) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h5 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h5 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h5).trans rfl)

/-- `outsAt1` at a point of case C: that case's contents, over what the point before left. -/
theorem outsAt1_C (c : Dev nD) (t : Fin cfg1.N) (h0 : ¬t.val % 6 = 0) (h5 : t.val % 6 = 5) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h5) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h5) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h5).trans rfl)

/-- The region invariant before position `n`: before the first point the class's (every scratch at anything);
    afterwards the scratch accumulator at what the point before left in it (`outsAt1`'s second component), beside
    the part the body never touches. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ restG1 (F := F) c)

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(owns (c : Thread nD τ) scM1_0 fullShare ((outsAt1 V c n hn).2) ∗ restG1 (F := F) c) := rfl

/-- Before a point that is not the first: the accumulator at what the point before left. -/
theorem PhiS1_pos (c : Dev nD) (n : ℕ) (h : n ≤ cfg1.N) (hz : n ≠ 0) :
    PhiS1 V c n h = iprop(owns (c : Thread nD τ) scM1_0 fullShare ((outsAt1 V c (n - 1) (by omega)).2) ∗ restG1 (F := F) c) := by
  cases n with
  | zero => exact absurd rfl hz
  | succ n => rfl

/-! ## The pipeline's proof data -/

/-- The proof data of pipeline 1 on core `c`: the arrays as the region finds them (`V`); after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in;
    the invariant hands the body the accumulator at what the point before left (at anything at the first point) and
    takes it back at this point's contents, the pieces covering it; the output's buffer is handed back untouched where
    the window is idle, and at its two stored halves at a sweep's last step; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 96 := lt_of_lt_of_eq t.isLt (show cfg1.N = 96 from N_1)
  by_cases h0 : t.val % 6 = 0
  · by_cases h5 : t.val % 6 = 5
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_A t ((hcond1_0 t).mpr h0) (fun h => h5 ((hcond1_1 t).mp h))) (noFlush1_5_A t ((hcond1_0 t).mpr h0) (fun h => h5 ((hcond1_1 t).mp h)))]
      rw [outsAt1_A V c t h0 h5]
      unfold sout1_A_0; (try dsimp only)
      by_cases hz : t.val = 0
      · rw [PhiS1_castSucc V c t, PhiS1_zero V c _ _ hz, PhiA1_eq]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h5 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h5 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h5 : t.val % 6 = 5
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h5)], after1_5]
      rw [outsAt1_C V c t h0 h5]
      unfold out1_C_5 sout1_C_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h5) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h5 ((hcond1_1 t).mp h))) (noFlush1_5_B t (fun h => h0 ((hcond1_0 t).mp h)) (fun h => h5 ((hcond1_1 t).mp h)))]
      rw [outsAt1_B V c t h0 h5]
      unfold sout1_B_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h5 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Cert.KernelIdeal.Fr

end
-- ==== Proof.KernelIdeal.Run.lean ====
/-
  The run of the whole program: two kernel regions among three stretches of host operations.

  Between two items a core holds every unscoped buffer whole, at contents that are a fold through the program:
  the launch memory, then each host stretch applied (StableHlo.after), then, after a region, that region's
  arrays at what its write-backs leave (the proof data's arrAt at the last point) and every other buffer as
  the region found it. Beside the buffers rides the generator register at some state and the core owing
  nothing. Each region's arrays are split out of the unscoped buffers at its entry and put back at its exit;
  the region's invariant takes the scoped rest and the generator register in and gives them back.

  Everything here is stated for ANY proof data of the two regions, given, per region: its arrays are the
  entry contents, full shares, nothing owed, the body obligation, and that its invariant is entered from and
  left to the class's plain invariant (the scoped rest beside the generator register). The conclusion names
  every unscoped buffer at the end: the fold's last stage.
-/
import proofs.«130630_j61950608278169_1_alg».proof.Proof.Gen.KernelIdeal.Launch
import proofs.«130630_j61950608278169_1_alg».proof.Proof.Gen.KernelIdeal.Skeleton
import proofs.«130630_j61950608278169_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed valuation of the TensorCore's buffers: what a region's proof data are stated at. -/
abbrev Entry (F : FTy → Type) [FloatOps F] : Type := (c : Dev nD) → (b : Ref sig .tc) → Buf (Elt F) ((c : Thread nD τ).loc b)

/-- What the run asks of region 0's proof data, at every entry contents. -/
structure Half0 (dat0 : Entry F → (c : Dev nD) → Dat τ (Elt F) Unit ℕ (UR sig nD τ) ℕ cfg0 c) : Prop where
  A : ∀ V c w, (dat0 V c).A w = V c (Pipeline.arrRef spec0 w)
  q : ∀ V c w, (dat0 V c).q w = fullShare
  owed : ∀ V c t, (dat0 V c).owed t = 0
  recd : ∀ V c t, (dat0 V c).recorded t = Set.univ
  body : ∀ V c, BodyObligation (dat0 V c) (defs₀ (F := F)) Variants.none () Set.univ
  hin : ∀ V c, (Pipeline.ΦA spec0 c : sProp 𝕄) ⊢ (dat0 V c).Φ 0
  hout : ∀ V c, (dat0 V c).Φ (Fin.last cfg0.N) ⊢ (Pipeline.ΦA spec0 c : sProp 𝕄)

/-- The same of region 1's. -/
structure Half1 (dat1 : Entry F → (c : Dev nD) → Dat τ (Elt F) Unit ℕ (UR sig nD τ) ℕ cfg1 c) : Prop where
  A : ∀ V c w, (dat1 V c).A w = V c (Pipeline.arrRef spec1 w)
  q : ∀ V c w, (dat1 V c).q w = fullShare
  owed : ∀ V c t, (dat1 V c).owed t = 0
  recd : ∀ V c t, (dat1 V c).recorded t = Set.univ
  body : ∀ V c, BodyObligation (dat1 V c) (defs₀ (F := F)) Variants.none () Set.univ
  hin : ∀ V c, (Pipeline.ΦA spec1 c : sProp 𝕄) ⊢ (dat1 V c).Φ 0
  hout : ∀ V c, (dat1 V c).Φ (Fin.last cfg1.N) ⊢ (Pipeline.ΦA spec1 c : sProp 𝕄)

variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)
variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev E1 : Entry F := fun c b => W1 m ρ c b
/-- At region 0's exit: its arrays at what the pipeline leaves, every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 dat0 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev E2 : Entry F := fun c b => W2 dat0 m ρ c b
theorem hF0 (c : Dev nD) (w : Fin cfg0.W) : (dat0 (E1 m ρ) c).arrAt w cfg0.N = E2 dat0 m ρ c (Pipeline.arrRef spec0 w) :=
  (W2_arr dat0 m ρ c w).symm
theorem hrest0 (c : Dev nD) : ∀ b, b ∉ Finset.univ.image (Pipeline.arrRef spec0) → E2 dat0 m ρ c b = E1 m ρ c b :=
  fun b hb => W2_of_ne dat0 m ρ c b fun w e => hb (Finset.mem_image.mpr ⟨w, Finset.mem_univ _, e⟩)

/-- After the second host stretch: region 1's entry. -/
abbrev W3 : Dev nD → Valuation τ sig (Elt F) := fun c => StableHlo.after hostOps1 (W2 dat0 m ρ c)
abbrev E3 : Entry F := fun c b => W3 dat0 m ρ c b
/-- At region 1's exit. -/
def W4 (c : Dev nD) : Valuation τ sig (Elt F) :=
  Pipeline.withArrays spec1 c (W3 dat0 m ρ c) fun w => (dat1 (E3 dat0 m ρ) c).arrAt w cfg1.N
theorem W4_arr (c : Dev nD) (w : Fin cfg1.W) :
    W4 dat0 dat1 m ρ c (Proc.devRef .tc (Pipeline.arrRef spec1 w)) = (dat1 (E3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
abbrev E4 : Entry F := fun c b => W4 dat0 dat1 m ρ c b
theorem hF1 (c : Dev nD) (w : Fin cfg1.W) : (dat1 (E3 dat0 m ρ) c).arrAt w cfg1.N = E4 dat0 dat1 m ρ c (Pipeline.arrRef spec1 w) :=
  (W4_arr dat0 dat1 m ρ c w).symm
theorem hrest1 (c : Dev nD) : ∀ b, b ∉ Finset.univ.image (Pipeline.arrRef spec1) → E4 dat0 dat1 m ρ c b = E3 dat0 m ρ c b :=
  fun b hb => W4_of_ne dat0 dat1 m ρ c b fun w e => hb (Finset.mem_image.mpr ⟨w, Finset.mem_univ _, e⟩)
/-- After the last host stretch: the end. -/
abbrev W5 : Dev nD → Valuation τ sig (Elt F) := fun c => StableHlo.after hostOps2 (W4 dat0 dat1 m ρ c)

/-! ## The proof data family and the thread state -/

/-- No pipeline has a prefetched table. -/
abbrev adm : (p : Fin 2) → (pcfgs (F := F) p).Adm := fun p => (cfgs p).toPCfg_adm
/-- Both pipelines' proof data, each at its region's entry contents: a literal match, so that the pinned
    configuration at a numeral reduces to the printed one. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 dat0 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the fold's last stage, the generator register at some state. -/
abbrev Tₙ (c : Dev nD) : sProp 𝕄 := iprop(StableHlo.held (c : Thread nD τ) (Pipeline.ucRefs τ sig) (W5 dat0 dat1 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at what the write-backs leave; the generator
    register goes into the invariant and comes back; nothing is owed; the kernel has no semaphore of its own. -/
def reg0 (h0 : Half0 dat0) (h1 : Half1 dat1) : Pipeline.RegionSeg (pcfgs (F := F)) adm (pdats dat0 dat1 m ρ) () defs₀ 𝒱₀ L lv 0 where
  win := launch0.win.to₀
  block_pos := launch0.block_pos
  stage_whole := launch0.stage_whole
  K := PEmpty
  osem k := k.elim
  ho := Pipeline.OwnSemFacts.none _
  hbody c := (h0.body (E1 m ρ) c).loose
  hwaits := Pipeline.hwaits_of_owed_zero _ _ _ _ L lv 0 fun c t => h0.owed (E1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats dat0 dat1 m ρ) launch0.win launch0.arr_whole c
      ((pdats dat0 dat1 m ρ 0 c).share_full fun w => h0.q (E1 m ρ) c w) (E1 m ρ c) fun w => h0.A (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m ρ 0 c).owed 0 = 0 from h0.owed (E1 m ρ) c 0]
      icases HO with ⟨%W, HO⟩; iexists W; isplitr; · ipureintro; exact fun _ _ => Or.inl ((Set.ext_iff.mp (h0.recd (E1 m ρ) c 0) _).mpr trivial)
      iexact HO
    isplitl [Hp]; · iexact Hp
    iexact Hrest
  hin c := by
    refine BIBase.Entails.trans ?_ (h0.hin (E1 m ρ) c)
    unfold Pipeline.ΦA
    iintro ⟨Hp, -, Hr⟩
    isplitl [Hr]; · iexact Hr
    iexact Hp
  hout c := by
    refine BIBase.Entails.trans (h0.hout (E1 m ρ) c) ?_
    rw [Pipeline.ownSems0_none]; unfold Pipeline.ΦA
    iintro ⟨Hr, Hp⟩
    isplitl [Hp]; · iexact Hp
    isplitr; · iempintro
    iexact Hr
  hexit c := by
    have hlast0 : (pdats dat0 dat1 m ρ 0 c).owed (Fin.last (Pipeline.pin (pcfgs (F := F)) adm 0).N) = 0 := h0.owed (E1 m ρ) c _
    have hjoin := Pipeline.unscopedBufs_of_arrays (p := 0) (pcfgs (F := F)) adm (Ix := Unit) (Name := ℕ) (U := UR sig nD τ) (Lvl := ℕ)
      launch0.win launch0.arr_whole c (pdats dat0 dat1 m ρ) ((pdats dat0 dat1 m ρ 0 c).share_full fun w => h0.q (E1 m ρ) c w)
      (E1 m ρ c) (E2 dat0 m ρ c) ((pdats dat0 dat1 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hlast0]
    icases HO with ⟨%W, -, HO⟩; iexists W; iexact HO

set_option backward.isDefEq.respectTransparency.types false in
/-- Region 1 over the thread state: entered from every unscoped buffer at the boundary's contents, left at the next
    boundary's. Its arrays are split out of the unscoped buffers and put back at what the write-backs leave; the generator
    register goes into the invariant and comes back; nothing is owed; the kernel has no semaphore of its own. -/
def reg1 (h0 : Half0 dat0) (h1 : Half1 dat1) : Pipeline.RegionSeg (pcfgs (F := F)) adm (pdats dat0 dat1 m ρ) () defs₀ 𝒱₀ L lv 1 where
  win := launch1.win.to₀
  block_pos := launch1.block_pos
  stage_whole := launch1.stage_whole
  K := PEmpty
  osem k := k.elim
  ho := Pipeline.OwnSemFacts.none _
  hbody c := (h1.body (E3 dat0 m ρ) c).loose
  hwaits := Pipeline.hwaits_of_owed_zero _ _ _ _ L lv 1 fun c t => h1.owed (E3 dat0 m ρ) c t
  pre c := iprop(StableHlo.held (c : Thread nD τ) (Pipeline.ucRefs τ sig) (W3 dat0 m ρ c) ∗ R c)
  post c := iprop(StableHlo.held (c : Thread nD τ) (Pipeline.ucRefs τ sig) (W4 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 dat0 m ρ c)
  hentry c := by
    rw [Pipeline.ownSems0_none]
    have hsplit := Pipeline.arrays_of_unscopedBufs (p := 1) (pcfgs (F := F)) adm (pdats dat0 dat1 m ρ) launch1.win launch1.arr_whole c
      ((pdats dat0 dat1 m ρ 1 c).share_full fun w => h1.q (E3 dat0 m ρ) c w) (E3 dat0 m ρ c) fun w => h1.A (E3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 m ρ 1 c).owed 0 = 0 from h1.owed (E3 dat0 m ρ) c 0]
      icases HO with ⟨%W, HO⟩; iexists W; isplitr; · ipureintro; exact fun _ _ => Or.inl ((Set.ext_iff.mp (h1.recd (E3 dat0 m ρ) c 0) _).mpr trivial)
      iexact HO
    isplitl [Hp]; · iexact Hp
    iexact Hrest
  hin c := by
    refine BIBase.Entails.trans ?_ (h1.hin (E3 dat0 m ρ) c)
    unfold Pipeline.ΦA
    iintro ⟨Hp, -, Hr⟩
    isplitl [Hr]; · iexact Hr
    iexact Hp
  hout c := by
    refine BIBase.Entails.trans (h1.hout (E3 dat0 m ρ) c) ?_
    rw [Pipeline.ownSems0_none]; unfold Pipeline.ΦA
    iintro ⟨Hr, Hp⟩
    isplitl [Hp]; · iexact Hp
    isplitr; · iempintro
    iexact Hr
  hexit c := by
    have hlast0 : (pdats dat0 dat1 m ρ 1 c).owed (Fin.last (Pipeline.pin (pcfgs (F := F)) adm 1).N) = 0 := h1.owed (E3 dat0 m ρ) c _
    have hjoin := Pipeline.unscopedBufs_of_arrays (p := 1) (pcfgs (F := F)) adm (Ix := Unit) (Name := ℕ) (U := UR sig nD τ) (Lvl := ℕ)
      launch1.win launch1.arr_whole c (pdats dat0 dat1 m ρ) ((pdats dat0 dat1 m ρ 1 c).share_full fun w => h1.q (E3 dat0 m ρ) c w)
      (E3 dat0 m ρ c) (E4 dat0 dat1 m ρ c) ((pdats dat0 dat1 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hlast0]
    icases HO with ⟨%W, -, HO⟩; iexists W; iexact HO

/-! ## The program as segments, and the launch -/

/-- The five items in order: a host segment per stretch from its boundary's contents, a region per kernel launch. -/
abbrev segs (h0 : Half0 dat0) (h1 : Half1 dat1) : List (Pipeline.Seg (pcfgs (F := F)) adm (pdats dat0 dat1 m ρ) () defs₀ 𝒱₀ L lv) :=
  [ .host (hseg hostOps0 hostOps0_sub hostOps0_fresh (W0 m ρ)),
    .region (reg0 dat0 dat1 m ρ h0 h1),
    .host (hseg hostOps1 hostOps1_sub hostOps1_fresh (W2 dat0 m ρ)),
    .region (reg1 dat0 dat1 m ρ h0 h1),
    .host (hseg hostOps2 hostOps2_sub hostOps2_fresh (W4 dat0 dat1 m ρ)) ]
/-- The program is the run of the segments. -/
theorem main_run (h0 : Half0 dat0) (h1 : Half1 dat1) (c : Dev nD) : main (F := F) c = Pipeline.Seg.run (segs dat0 dat1 m ρ h0 h1) :=
  (main_chain c).trans (by chain_rfl)

set_option backward.isDefEq.respectTransparency.types false in
/-- THE RUN. From any memory with zero counters every weakly fair execution of the program on the TensorCores terminates,
    nothing faulting, and every final state has every unscoped buffer at the fold's last stage. -/
theorem run_all (h0 : Half0 dat0) (h1 : Half1 dat1) :
    θ_run defs (onTc (τ := τ) (main (F := F))) ⟨m, fun _ => 0, ρ⟩
      (fun r => ∀ c : Dev nD, ∀ b ∈ Pipeline.ucRefs τ sig, r.2.mem (((c : Thread nD τ)).1, b) = W5 dat0 dat1 m ρ c b) :=
  Pipeline.θ_run_regions_kit (pcfgs (F := F)) adm (pdats dat0 dat1 m ρ) () cellOf_inj emb₁ defs₀ 𝒱₀ L lv m ρ main (segs dat0 dat1 m ρ h0 h1)
    (fun c Q => by rw [main_run dat0 dat1 m ρ h0 h1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 m ρ)
    (hch := ⟨fun _ => .rfl, fun _ => .rfl, fun _ => .rfl, fun _ => .rfl, fun _ => .rfl, fun c => by
      show iprop(StableHlo.held (c : Thread nD τ) (Pipeline.ucRefs τ sig) (W5 dat0 dat1 m ρ c) ∗ R c)
        ⊢ iprop(Tₙ dat0 dat1 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 m ρ c) s')
      isplitl [Hh] <;> iassumption)
    (hQ := fun s h c => h c)

end Cert.KernelIdeal.Fr

end
-- ==== Proof.KernelIdeal.RunPost.lean ====
/-
  The end of the run read back. No host operation writes an argument array and no region changes one (a region reads it
  through an input window, whose array ends as it was found, or does not touch it), so the fold's last stage at an
  argument is the launch memory: the frame. The result buffer is the last host operation's term of region 1's output
  array; each region's input arrays are host operations' terms of earlier stages.
-/
import proofs.«130630_j61950608278169_1_alg».proof.Proof.KernelIdeal.Run
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-- A host stretch leaves a buffer none of its operations writes as it was. -/
local macro "keep_tac" : tactic => `(tactic| (
  refine StableHlo.after_of_forall_not_mem _ _ (List.forall_iff_forall_mem.mp ?_)
  simp only [hostOps0, hostOps1, hostOps2, List.Forall, StableHlo.nullary_writes, StableHlo.unary_writes, StableHlo.binary_writes,
    StableHlo.reshape_writes, Finset.mem_singleton]
  repeat' apply And.intro
  all_goals exact StableHlo.devRef_ne_of_ne (by decide)))

theorem keep0_main_arg0 (Wv : Valuation τ sig (Elt F)) : StableHlo.after hostOps0 Wv (Proc.devRef .tc main_arg0) = Wv (Proc.devRef .tc main_arg0) := by keep_tac
theorem keep1_main_arg0 (Wv : Valuation τ sig (Elt F)) : StableHlo.after hostOps1 Wv (Proc.devRef .tc main_arg0) = Wv (Proc.devRef .tc main_arg0) := by keep_tac
theorem keep2_main_arg0 (Wv : Valuation τ sig (Elt F)) : StableHlo.after hostOps2 Wv (Proc.devRef .tc main_arg0) = Wv (Proc.devRef .tc main_arg0) := by keep_tac
theorem keep0_main_arg1 (Wv : Valuation τ sig (Elt F)) : StableHlo.after hostOps0 Wv (Proc.devRef .tc main_arg1) = Wv (Proc.devRef .tc main_arg1) := by keep_tac
theorem keep1_main_arg1 (Wv : Valuation τ sig (Elt F)) : StableHlo.after hostOps1 Wv (Proc.devRef .tc main_arg1) = Wv (Proc.devRef .tc main_arg1) := by keep_tac
theorem keep2_main_arg1 (Wv : Valuation τ sig (Elt F)) : StableHlo.after hostOps2 Wv (Proc.devRef .tc main_arg1) = Wv (Proc.devRef .tc main_arg1) := by keep_tac
theorem keep0_main_arg2 (Wv : Valuation τ sig (Elt F)) : StableHlo.after hostOps0 Wv (Proc.devRef .tc main_arg2) = Wv (Proc.devRef .tc main_arg2) := by keep_tac
theorem keep1_main_arg2 (Wv : Valuation τ sig (Elt F)) : StableHlo.after hostOps1 Wv (Proc.devRef .tc main_arg2) = Wv (Proc.devRef .tc main_arg2) := by keep_tac
theorem keep2_main_arg2 (Wv : Valuation τ sig (Elt F)) : StableHlo.after hostOps2 Wv (Proc.devRef .tc main_arg2) = Wv (Proc.devRef .tc main_arg2) := by keep_tac
theorem keep0_main_arg3 (Wv : Valuation τ sig (Elt F)) : StableHlo.after hostOps0 Wv (Proc.devRef .tc main_arg3) = Wv (Proc.devRef .tc main_arg3) := by keep_tac
theorem keep1_main_arg3 (Wv : Valuation τ sig (Elt F)) : StableHlo.after hostOps1 Wv (Proc.devRef .tc main_arg3) = Wv (Proc.devRef .tc main_arg3) := by keep_tac
theorem keep2_main_arg3 (Wv : Valuation τ sig (Elt F)) : StableHlo.after hostOps2 Wv (Proc.devRef .tc main_arg3) = Wv (Proc.devRef .tc main_arg3) := by keep_tac
theorem keep0_main_arg4 (Wv : Valuation τ sig (Elt F)) : StableHlo.after hostOps0 Wv (Proc.devRef .tc main_arg4) = Wv (Proc.devRef .tc main_arg4) := by keep_tac
theorem keep1_main_arg4 (Wv : Valuation τ sig (Elt F)) : StableHlo.after hostOps1 Wv (Proc.devRef .tc main_arg4) = Wv (Proc.devRef .tc main_arg4) := by keep_tac
theorem keep2_main_arg4 (Wv : Valuation τ sig (Elt F)) : StableHlo.after hostOps2 Wv (Proc.devRef .tc main_arg4) = Wv (Proc.devRef .tc main_arg4) := by keep_tac
theorem keep1_main_v4_0 (Wv : Valuation τ sig (Elt F)) : StableHlo.after hostOps1 Wv (Proc.devRef .tc main_v4_0) = Wv (Proc.devRef .tc main_v4_0) := by keep_tac
theorem keep1_main_v4_1 (Wv : Valuation τ sig (Elt F)) : StableHlo.after hostOps1 Wv (Proc.devRef .tc main_v4_1) = Wv (Proc.devRef .tc main_v4_1) := by keep_tac

variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)
variable (m : (ℓ : Loc nD τ sig) → Buf (Elt F) ℓ) (ρ : Dev nD → PrngReg)

/-! ## The arguments end as launched -/

theorem W5_main_arg0 (h0 : Half0 dat0) (c : Dev nD) : W5 dat0 dat1 m ρ c (Proc.devRef .tc main_arg0) = m ((c : Thread nD τ).loc main_arg0) :=
  calc W5 dat0 dat1 m ρ c (Proc.devRef .tc main_arg0)
    _ = W4 dat0 dat1 m ρ c (Proc.devRef .tc main_arg0) := keep2_main_arg0 _
    _ = W3 dat0 m ρ c (Proc.devRef .tc main_arg0) := W4_of_ne dat0 dat1 m ρ c main_arg0 (by decide)
    _ = W2 dat0 m ρ c (Proc.devRef .tc main_arg0) := keep1_main_arg0 _
    _ = W1 m ρ c (Proc.devRef .tc main_arg0) := (W2_arr dat0 m ρ c 0).trans (((dat0 (E1 m ρ) c).arrAt_in 0 rfl _).trans (h0.A (E1 m ρ) c 0))
    _ = W0 m ρ c (Proc.devRef .tc main_arg0) := keep0_main_arg0 _
    _ = m ((c : Thread nD τ).loc main_arg0) := rfl
theorem W5_main_arg3 (h1 : Half1 dat1) (c : Dev nD) : W5 dat0 dat1 m ρ c (Proc.devRef .tc main_arg3) = m ((c : Thread nD τ).loc main_arg3) :=
  calc W5 dat0 dat1 m ρ c (Proc.devRef .tc main_arg3)
    _ = W4 dat0 dat1 m ρ c (Proc.devRef .tc main_arg3) := keep2_main_arg3 _
    _ = W3 dat0 m ρ c (Proc.devRef .tc main_arg3) := (W4_arr dat0 dat1 m ρ c 3).trans (((dat1 (E3 dat0 m ρ) c).arrAt_in 3 rfl _).trans (h1.A (E3 dat0 m ρ) c 3))
    _ = W2 dat0 m ρ c (Proc.devRef .tc main_arg3) := keep1_main_arg3 _
    _ = W1 m ρ c (Proc.devRef .tc main_arg3) := W2_of_ne dat0 m ρ c main_arg3 (by decide)
    _ = W0 m ρ c (Proc.devRef .tc main_arg3) := keep0_main_arg3 _
    _ = m ((c : Thread nD τ).loc main_arg3) := rfl
theorem W5_main_arg1 (c : Dev nD) : W5 dat0 dat1 m ρ c (Proc.devRef .tc main_arg1) = m ((c : Thread nD τ).loc main_arg1) :=
  calc W5 dat0 dat1 m ρ c (Proc.devRef .tc main_arg1)
    _ = W4 dat0 dat1 m ρ c (Proc.devRef .tc main_arg1) := keep2_main_arg1 _
    _ = W3 dat0 m ρ c (Proc.devRef .tc main_arg1) := W4_of_ne dat0 dat1 m ρ c main_arg1 (by decide)
    _ = W2 dat0 m ρ c (Proc.devRef .tc main_arg1) := keep1_main_arg1 _
    _ = W1 m ρ c (Proc.devRef .tc main_arg1) := W2_of_ne dat0 m ρ c main_arg1 (by decide)
    _ = W0 m ρ c (Proc.devRef .tc main_arg1) := keep0_main_arg1 _
    _ = m ((c : Thread nD τ).loc main_arg1) := rfl
theorem W5_main_arg2 (c : Dev nD) : W5 dat0 dat1 m ρ c (Proc.devRef .tc main_arg2) = m ((c : Thread nD τ).loc main_arg2) :=
  calc W5 dat0 dat1 m ρ c (Proc.devRef .tc main_arg2)
    _ = W4 dat0 dat1 m ρ c (Proc.devRef .tc main_arg2) := keep2_main_arg2 _
    _ = W3 dat0 m ρ c (Proc.devRef .tc main_arg2) := W4_of_ne dat0 dat1 m ρ c main_arg2 (by decide)
    _ = W2 dat0 m ρ c (Proc.devRef .tc main_arg2) := keep1_main_arg2 _
    _ = W1 m ρ c (Proc.devRef .tc main_arg2) := W2_of_ne dat0 m ρ c main_arg2 (by decide)
    _ = W0 m ρ c (Proc.devRef .tc main_arg2) := keep0_main_arg2 _
    _ = m ((c : Thread nD τ).loc main_arg2) := rfl
theorem W5_main_arg4 (c : Dev nD) : W5 dat0 dat1 m ρ c (Proc.devRef .tc main_arg4) = m ((c : Thread nD τ).loc main_arg4) :=
  calc W5 dat0 dat1 m ρ c (Proc.devRef .tc main_arg4)
    _ = W4 dat0 dat1 m ρ c (Proc.devRef .tc main_arg4) := keep2_main_arg4 _
    _ = W3 dat0 m ρ c (Proc.devRef .tc main_arg4) := W4_of_ne dat0 dat1 m ρ c main_arg4 (by decide)
    _ = W2 dat0 m ρ c (Proc.devRef .tc main_arg4) := keep1_main_arg4 _
    _ = W1 m ρ c (Proc.devRef .tc main_arg4) := W2_of_ne dat0 m ρ c main_arg4 (by decide)
    _ = W0 m ρ c (Proc.devRef .tc main_arg4) := keep0_main_arg4 _
    _ = m ((c : Thread nD τ).loc main_arg4) := rfl

/-- THE FRAME, at any instance: the program runs to the end, faults nowhere, and leaves its five argument arrays as launched. -/
theorem frame_all (h0 : Half0 dat0) (h1 : Half1 dat1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 dat0 dat1 m ρ h0 c),
     (h c _ (mem_uc main_arg1 (by decide))).trans (W5_main_arg1 dat0 dat1 m ρ c),
     (h c _ (mem_uc main_arg2 (by decide))).trans (W5_main_arg2 dat0 dat1 m ρ c),
     (h c _ (mem_uc main_arg3 (by decide))).trans (W5_main_arg3 dat0 dat1 m ρ h1 c),
     (h c _ (mem_uc main_arg4 (by decide))).trans (W5_main_arg4 dat0 dat1 m ρ c)⟩)
    (run_all dat0 dat1 m ρ h0 h1)

end Cert.KernelIdeal.Fr

end
-- ==== Proof.KernelIdeal.Frame.lean ====
/-
  The frame of the whole program at any instance: the run over both regions at the two regions' proof data — region 0's
  (each output block the product of the rows' block with a weight matrix) and region 1's (the accumulator carried
  between grid points, the output block stored at the last point of each sweep).
-/
import proofs.«130630_j61950608278169_1_alg».proof.Proof.KernelIdeal.Body0
import proofs.«130630_j61950608278169_1_alg».proof.Proof.KernelIdeal.Body1
import proofs.«130630_j61950608278169_1_alg».proof.Proof.KernelIdeal.RunPost

noncomputable section

namespace Cert.KernelIdeal.Fr

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

/-- Region 0's proof data meet what the run asks: its invariant is the plain one at every point. -/
theorem half0 : Half0 (F := F) (fun V c => dat0 V c) :=
  ⟨fun V c w => A_eq0 V c w, fun _ _ _ => rfl, fun _ _ _ => rfl, fun _ _ _ => rfl, fun V c => body_obligation0 V c,
    fun _ _ => .rfl, fun _ _ => .rfl⟩

/-- Region 1's: its invariant is entered from the plain one and gives it back after the last point. -/
theorem half1 : Half1 (F := F) (fun V c => dat1 V c) :=
  ⟨fun V c w => A_eq1 V c w, fun _ _ _ => rfl, fun _ _ _ => rfl, fun _ _ _ => rfl, fun V c => body_obligation1 V c,
    fun V c => hin1 V c, fun V c => hout1 V c⟩

variable (m : (ℓ : Loc nD τ sig) → Buf (Elt F) ℓ) (ρ : Dev nD → PrngReg)

/-- The program runs to the end, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_all (fun V c => dat0 V c) (fun V c => dat1 V c) m ρ half0 half1

/-- The same run, naming every unscoped buffer at the end (the result among them). -/
theorem run_named : θ_run defs (onTc (τ := τ) (main (F := F))) ⟨m, fun _ => 0, ρ⟩
    (fun r => ∀ c : Dev nD, ∀ b ∈ Pipeline.ucRefs τ sig, r.2.mem (((c : Thread nD τ)).1, b) = W5 (fun V c => dat0 V c) (fun V c => dat1 V c) m ρ c b) :=
  run_all (fun V c => dat0 V c) (fun V c => dat1 V c) m ρ half0 half1

/-- The same run with the result buffer named beside the five arguments: the result is the fold's last stage at it. -/
theorem run_result : θ_run defs (onTc (τ := τ) (main (F := F))) ⟨m, fun _ => 0, ρ⟩ (fun r => ∀ c : Dev nD,
      r.2.mem ((c.tc : Thread nD τ).loc main_v8) = W5 (fun V c => dat0 V c) (fun V c => dat1 V c) m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (W5_main_arg0 _ _ m ρ half0 c),
     (h c _ (mem_uc main_arg1 (by decide))).trans (W5_main_arg1 _ _ m ρ c),
     (h c _ (mem_uc main_arg2 (by decide))).trans (W5_main_arg2 _ _ m ρ c),
     (h c _ (mem_uc main_arg3 (by decide))).trans (W5_main_arg3 _ _ m ρ half1 c),
     (h c _ (mem_uc main_arg4 (by decide))).trans (W5_main_arg4 _ _ m ρ c)⟩)
    (run_named m ρ)

end Cert.KernelIdeal.Fr

end
-- ==== Proof.KernelIdeal.RunValue.lean ====
/-
  The buffers the host stretches write, as the operations' terms of what the stretch found, and each region's input
  arrays traced back through the fold: region 0 reads the rows as launched and the two transposed halves of the
  weight matrix; region 1 reads the two projections region 0 left, the bias row, the classifier weights as launched
  and the second bias row; the result is the transpose of what region 1 left.
-/
import proofs.«130630_j61950608278169_1_alg».proof.Proof.KernelIdeal.RunPost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-! ## What each stretch writes -/

theorem after0_main_v1 (Wv : Valuation τ sig (Elt F)) :
    StableHlo.after hostOps0 Wv (Proc.devRef .tc main_v1)
      = transpose S768x768 [1, 0] (extractStridedSlice S768x768 ![0, 0] (Wv (Proc.devRef .tc main_arg1)) slices_S768x1536_S768x768_0_0) transposes_S768x768_S768x768_1_0 := by
  after_results
theorem after0_main_v3 (Wv : Valuation τ sig (Elt F)) :
    StableHlo.after hostOps0 Wv (Proc.devRef .tc main_v3)
      = transpose S768x768 [1, 0] (extractStridedSlice S768x768 ![0, 768] (Wv (Proc.devRef .tc main_arg1)) slices_S768x1536_S768x768_0_768) transposes_S768x768_S768x768_1_0 := by
  after_results
theorem after1_main_v5 (Wv : Valuation τ sig (Elt F)) :
    StableHlo.after hostOps1 Wv (Proc.devRef .tc main_v5) = shapeCast S1x768 (Wv (Proc.devRef .tc main_arg2)) shapeCasts_S768_S1x768 := by
  after_results; rfl
theorem after1_main_v6 (Wv : Valuation τ sig (Elt F)) :
    StableHlo.after hostOps1 Wv (Proc.devRef .tc main_v6) = shapeCast S1x2 (Wv (Proc.devRef .tc main_arg4)) shapeCasts_S2_S1x2 := by
  after_results; rfl
theorem after2_main_v8 (Wv : Valuation τ sig (Elt F)) :
    StableHlo.after hostOps2 Wv (Proc.devRef .tc main_v8)
      = transpose S512x512x2 [1, 2, 0] (Wv (Proc.devRef .tc main_v7)) transposes_S2x512x512_S512x512x2_1_2_0 := by
  after_results

variable (dat0 : Entry F → (c : Dev nD) → Dat τ (Elt F) Unit ℕ (UR sig nD τ) ℕ cfg0 c)
variable (dat1 : Entry F → (c : Dev nD) → Dat τ (Elt F) Unit ℕ (UR sig nD τ) ℕ cfg1 c)
variable (m : (ℓ : Loc nD τ sig) → Buf (Elt F) ℓ) (ρ : Dev nD → PrngReg)

/-! ## Region 0's input arrays -/

/-- The rows, as launched. -/
theorem E1_main_arg0 (c : Dev nD) : E1 m ρ c main_arg0 = m ((c : Thread nD τ).loc main_arg0) := keep0_main_arg0 _
/-- The first half of the weight matrix, transposed. -/
theorem E1_main_v1 (c : Dev nD) : E1 m ρ c main_v1
    = transpose S768x768 [1, 0] (extractStridedSlice S768x768 ![0, 0] (m ((c : Thread nD τ).loc main_arg1)) slices_S768x1536_S768x768_0_0) transposes_S768x768_S768x768_1_0 :=
  after0_main_v1 _
/-- The second half, transposed. -/
theorem E1_main_v3 (c : Dev nD) : E1 m ρ c main_v3
    = transpose S768x768 [1, 0] (extractStridedSlice S768x768 ![0, 768] (m ((c : Thread nD τ).loc main_arg1)) slices_S768x1536_S768x768_0_768) transposes_S768x768_S768x768_1_0 :=
  after0_main_v3 _

/-! ## Region 1's input arrays -/

/-- The two projections, as region 0 left them. -/
theorem E3_main_v4_0 (c : Dev nD) : E3 dat0 m ρ c main_v4_0 = (dat0 (E1 m ρ) c).arrAt 3 cfg0.N :=
  (keep1_main_v4_0 _).trans (W2_arr dat0 m ρ c 3)
theorem E3_main_v4_1 (c : Dev nD) : E3 dat0 m ρ c main_v4_1 = (dat0 (E1 m ρ) c).arrAt 4 cfg0.N :=
  (keep1_main_v4_1 _).trans (W2_arr dat0 m ρ c 4)
/-- The first bias as a row. -/
theorem E3_main_v5 (c : Dev nD) : E3 dat0 m ρ c main_v5 = shapeCast S1x768 (m ((c : Thread nD τ).loc main_arg2)) shapeCasts_S768_S1x768 :=
  (after1_main_v5 _).trans (congrArg (fun x => shapeCast S1x768 x shapeCasts_S768_S1x768)
    ((W2_of_ne dat0 m ρ c main_arg2 (by decide)).trans (keep0_main_arg2 _)))
/-- The classifier weights, as launched. -/
theorem E3_main_arg3 (c : Dev nD) : E3 dat0 m ρ c main_arg3 = m ((c : Thread nD τ).loc main_arg3) :=
  (keep1_main_arg3 _).trans ((W2_of_ne dat0 m ρ c main_arg3 (by decide)).trans (keep0_main_arg3 _))
/-- The second bias as a row. -/
theorem E3_main_v6 (c : Dev nD) : E3 dat0 m ρ c main_v6 = shapeCast S1x2 (m ((c : Thread nD τ).loc main_arg4)) shapeCasts_S2_S1x2 :=
  (after1_main_v6 _).trans (congrArg (fun x => shapeCast S1x2 x shapeCasts_S2_S1x2)
    ((W2_of_ne dat0 m ρ c main_arg4 (by decide)).trans (keep0_main_arg4 _)))

/-! ## The result -/

/-- The result buffer at the end: the transpose of region 1's output array as its write-backs left it. -/
theorem W5_main_v8 (c : Dev nD) : W5 dat0 dat1 m ρ c (Proc.devRef .tc main_v8)
    = transpose S512x512x2 [1, 2, 0] ((dat1 (E3 dat0 m ρ) c).arrAt 5 cfg1.N) transposes_S2x512x512_S512x512x2_1_2_0 :=
  (after2_main_v8 _).trans (congrArg (fun x => transpose S512x512x2 [1, 2, 0] x transposes_S2x512x512_S512x512x2_1_2_0) (W4_arr dat0 dat1 m ρ c 5))

end Cert.KernelIdeal.Fr

end
-- ==== Proof.Spec.lean ====
/-
  The pairwise two-layer map, index by index, on the extended reals.

  For row vectors p[i] (512 rows of 768 features), a first layer W1 : [768, 1536] applied to the concatenation
  (p[i], p[j]) splits into a LEFT projection (W1's first 768 columns against p[i]) and a RIGHT projection (its last 768
  columns against p[j]); the hidden value at feature d is tanh of their sum plus the bias b1[d], and the result at
  (i, j, c) is the hidden vector against row c of W2 : [2, 768], plus b2[c]:

      G (i, j, c) = (Σ_d tanh ((L[i, d] + R[j, d]) + b1[d]) · W2[c, d]) + b2[c],
      L[i, d] = Σ_k p[i, k] · W1[d, k],      R[j, d] = Σ_k p[j, k] · W1[d, 768 + k].

  Every sum, product and tanh is the exact one on the extended reals. The association and the order of the factors
  are fixed as written (the projections' sum first, then the bias; the array of rows p as the LEFT factor of a
  projection's product, the hidden value as the left factor of the second layer's product; the bias b2 added to the
  finished sum on the right), so that a program computing exactly these operations is G with no algebra.

  The one law stated here: a sum over the 768 features is the sum over 6 consecutive blocks of 128 features of each
  block's sum. It is a re-indexing of a finite sum in a commutative monoid, so it holds on the extended reals with no
  finiteness assumption.
-/
import Idealize.ShloMosaic.PureOps.Ideal
import Idealize.ShloMosaic.Lib.ValueIdx
import Mathlib.Algebra.BigOperators.Fin
import Mathlib.Logic.Equiv.Fin.Basic

noncomputable section

open scoped BigOperators

namespace Cert.PairSpec

open Idealize.ShloMosaic Idealize.ShloMosaic.ValueIdx

/-- The left projection of row `i` at feature `d`: row `i` of `p` against the first 768 entries of row `d` of `W1`. -/
def projL (p : (⟨2, ![512, 768]⟩ : Shape).Idx → EReal) (W1 : (⟨2, ![768, 1536]⟩ : Shape).Idx → EReal)
    (i : Fin 512) (d : Fin 768) : EReal :=
  ∑ k : Fin 768, p (ix2 i k) * W1 (ix2 d (⟨k.val, by omega⟩ : Fin 1536))

/-- The right projection of row `j` at feature `d`: row `j` of `p` against the last 768 entries of row `d` of `W1`. -/
def projR (p : (⟨2, ![512, 768]⟩ : Shape).Idx → EReal) (W1 : (⟨2, ![768, 1536]⟩ : Shape).Idx → EReal)
    (j : Fin 512) (d : Fin 768) : EReal :=
  ∑ k : Fin 768, p (ix2 j k) * W1 (ix2 d (⟨768 + k.val, by omega⟩ : Fin 1536))

/-- The summand at feature `d` of the result at `(i, j, c)`: the hidden value `tanh ((L[i,d] + R[j,d]) + b1[d])` times
    `W2[c, d]`. -/
def term (p : (⟨2, ![512, 768]⟩ : Shape).Idx → EReal) (W1 : (⟨2, ![768, 1536]⟩ : Shape).Idx → EReal)
    (b1 : (⟨1, ![768]⟩ : Shape).Idx → EReal) (W2 : (⟨2, ![2, 768]⟩ : Shape).Idx → EReal)
    (i j : Fin 512) (c : Fin 2) (d : Fin 768) : EReal :=
  Ideal.tanh ((projL p W1 i d + projR p W1 j d) + b1 (ix1 d)) * W2 (ix2 c d)

/-- The result at the coordinates `(i, j, c)`: the sum of the 768 summands, plus `b2[c]`. -/
def Gat (p : (⟨2, ![512, 768]⟩ : Shape).Idx → EReal) (W1 : (⟨2, ![768, 1536]⟩ : Shape).Idx → EReal)
    (b1 : (⟨1, ![768]⟩ : Shape).Idx → EReal) (W2 : (⟨2, ![2, 768]⟩ : Shape).Idx → EReal)
    (b2 : (⟨1, ![2]⟩ : Shape).Idx → EReal) (i j : Fin 512) (c : Fin 2) : EReal :=
  (∑ d : Fin 768, term p W1 b1 W2 i j c d) + b2 (ix1 c)

/-- The whole result array `[512, 512, 2]` as one function of the five argument arrays. -/
def G (p : (⟨2, ![512, 768]⟩ : Shape).Idx → EReal) (W1 : (⟨2, ![768, 1536]⟩ : Shape).Idx → EReal)
    (b1 : (⟨1, ![768]⟩ : Shape).Idx → EReal) (W2 : (⟨2, ![2, 768]⟩ : Shape).Idx → EReal)
    (b2 : (⟨1, ![2]⟩ : Shape).Idx → EReal) : (⟨3, ![512, 512, 2]⟩ : Shape).Idx → EReal :=
  fun o => Gat p W1 b1 W2 b2 (o 0) (o 1) (o 2)

/-- `G` at an index given by its coordinates. -/
theorem G_ix3 (p : (⟨2, ![512, 768]⟩ : Shape).Idx → EReal) (W1 : (⟨2, ![768, 1536]⟩ : Shape).Idx → EReal)
    (b1 : (⟨1, ![768]⟩ : Shape).Idx → EReal) (W2 : (⟨2, ![2, 768]⟩ : Shape).Idx → EReal)
    (b2 : (⟨1, ![2]⟩ : Shape).Idx → EReal) (i j : Fin 512) (c : Fin 2) :
    G p W1 b1 W2 b2 (ix3 i j c) = Gat p W1 b1 W2 b2 i j c := rfl

/-- A sum over 768 features is the sum over 6 blocks of 128 of the block's sum: the pair (block, place in the block)
    ↦ 128 · block + place is a bijection onto the 768 features, and a finite sum may be taken along a bijection and
    over a product one coordinate at a time. No finiteness of the summands is needed. -/
theorem sum_blocks {M : Type*} [AddCommMonoid M] (f : Fin 768 → M) :
    ∑ d : Fin 768, f d = ∑ b : Fin 6, ∑ e : Fin 128, f ⟨128 * b.val + e.val, by omega⟩ := by
  refine Eq.trans ?_ (Fintype.sum_prod_type (fun x : Fin 6 × Fin 128 => f ⟨128 * x.1.val + x.2.val, by omega⟩))
  exact (Fintype.sum_equiv (finProdFinEquiv (m := 6) (n := 128))
    (fun x : Fin 6 × Fin 128 => f ⟨128 * x.1.val + x.2.val, by omega⟩) (fun d : Fin 768 => f d)
    (fun x => congrArg f (Fin.ext (by
      show 128 * x.1.val + x.2.val = x.2.val + 128 * x.1.val
      omega)))).symm

end Cert.PairSpec

end
-- ==== Proof.HostAt.lean ====
/-
  The host operations around the two regions, read at an index.

  Before the first region the first layer `W1 : [768, 1536]` is cut into its first and its last 768 columns and each
  cut is transposed: the transposed first cut at `(k, d)` is `W1[d, k]`, the transposed second cut `W1[d, 768 + k]`.
  Between the regions the two bias vectors are recast as one-row matrices: the row at `(0, d)` is the vector at `d`.
  After the second region the result `[2, 512, 512]` is transposed with the permutation `[1, 2, 0]` to
  `[512, 512, 2]`: at `(i, j, c)` it reads the operand at `(c, i, j)`.

  Each lemma is about the pure function the operation applies, over any element type.
-/
import proofs.«130630_j61950608278169_1_alg».proof.Proof.Gen.KernelIdeal.Launch
import Idealize.ShloMosaic.Lib.ValueIdx
import Idealize.ShloMosaic.Lib.ValueLayout
import Idealize.ShloMosaic.Lib.Pipeline.Value

noncomputable section

namespace Cert.KernelIdeal.HostAt

open Cert.KernelIdeal Cert.KernelIdeal.Gen Idealize.ShloMosaic Idealize.ShloMosaic.ValueIdx

variable {α : Type}

/-- The transposed first cut of the first layer at `(k, d)` is the layer at `(d, k)`. -/
theorem wl_at (x : S768x1536.Idx → α) (k d : Fin 768) :
    transpose S768x768 [1, 0] (extractStridedSlice S768x768 ![0, 0] x slices_S768x1536_S768x768_0_0)
        transposes_S768x768_S768x768_1_0 (ix2 k d)
      = x (ix2 d (⟨k.val, by omega⟩ : Fin 1536)) := by
  refine (transpose_ix2_apply _ _ k d).trans ?_
  exact slice2_axis1_apply 0 x _ d k _ (Nat.zero_add _).symm

/-- The transposed second cut of the first layer at `(k, d)` is the layer at `(d, 768 + k)`. -/
theorem wr_at (x : S768x1536.Idx → α) (k d : Fin 768) :
    transpose S768x768 [1, 0] (extractStridedSlice S768x768 ![0, 768] x slices_S768x1536_S768x768_0_768)
        transposes_S768x768_S768x768_1_0 (ix2 k d)
      = x (ix2 d (⟨768 + k.val, by omega⟩ : Fin 1536)) := by
  refine (transpose_ix2_apply _ _ k d).trans ?_
  exact slice2_axis1_apply 768 x _ d k _ rfl

/-- The first bias recast as a one-row matrix: the row at `(0, d)` is the vector at `d`. -/
theorem b1row_at (x : S768.Idx → α) (d : Fin 768) :
    shapeCast S1x768 x shapeCasts_S768_S1x768 (ix2 0 d) = x (ix1 d) :=
  shapeCast_a_1a_apply x _ (0 : Fin 1) d

/-- The second bias recast as a one-row matrix: the row at `(0, c)` is the vector at `c`. -/
theorem b2row_at (x : S2.Idx → α) (c : Fin 2) :
    shapeCast S1x2 x shapeCasts_S2_S1x2 (ix2 0 c) = x (ix1 c) :=
  shapeCast_a_1a_apply x _ (0 : Fin 1) c

/-- The result transposed with `[1, 2, 0]`: at `(i, j, c)` the operand at `(c, i, j)`. -/
theorem out_at (y : S2x512x512.Idx → α) (i j : Fin 512) (c : Fin 2) :
    transpose S512x512x2 [1, 2, 0] y transposes_S2x512x512_S512x512x2_1_2_0 (ix3 i j c) = y (ix3 c i j) :=
  transpose_apply _ y _ _ _ fun b => match b with | ⟨0, _⟩ => rfl | ⟨1, _⟩ => rfl | ⟨2, _⟩ => rfl

end Cert.KernelIdeal.HostAt

end
-- ==== Proof.PayAt.lean ====
/-
  The pure values the two kernel bodies store, read at an index on the extended reals.

  First body (the projections): the block of rows `v0 : [128, 768]` against a whole matrix `[768, 768]`, both rounded
  to the short format (the identity on the extended reals), multiplied into a zero accumulator: at `(a, b)` the plain
  sum `Σ_k v0[a, k] · v2[k, b]`.

  Second body (the pair grid): from a left block `v3 : [128, 128]`, a right block `v5 : [128, 128]` and a bias row
  `v7 : [1, 128]` the hidden block `[128, 128, 128]` at `(a, b, e)` is `tanh ((v3[a, e] + v5[b, e]) + v7[0, e])`
  (the left block laid along the second axis, the right block along the first, the row along both). Each of the two
  accumulator planes `[1, 128, 128]` gains, at `(0, a, b)`, the sum over `e` of the hidden value times a row of the
  second layer's block `[2, 128]` (row 0 for the first plane, row 1 for the second): a lane sum from the zero word,
  whose neutral start drops. At the last feature block the output planes are the accumulator planes plus the two
  entries of the bias `[1, 2]`. The zeroing value is the zero word's value, `0`.

  All lemmas are over variables of the literal vector types and explicit coordinates.
-/
import proofs.«130630_j61950608278169_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayAt

open Cert.KernelIdeal Cert.KernelIdeal.Gen Idealize.ShloMosaic Idealize.ShloMosaic.ValueIdx

/-! ## Layout operations at an index given by coordinates: a unit axis in the middle, two leading unit axes, and the
three broadcasts of the pair grid -/

section Layout
variable {α : Type}

/-- An `[a, c]` array cast to `[a, 1, c]` reads, at `(i, u, e)`, the operand at `(i, e)`: the same row-major place. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (e : Fin c) :
    shapeCast ⟨3, ![a, 1, c]⟩ x h (ix3 i u e) = x (ix2 i e) :=
  shapeCast_apply x h _ _ (by
    have hu : u.val = 0 := by omega
    rw [Shape.rowMajor_val_three, Shape.rowMajor_val_two]
    show i.val * c + e.val = (i.val * 1 + u.val) * c + e.val
    rw [hu, Nat.mul_one, Nat.add_zero])

/-- A `[c]` array cast to `[1, 1, c]` reads, at `(u, v, e)`, the operand at `e`. -/
theorem shapeCast_c_11c_apply {c : ℕ} (x : (⟨1, ![c]⟩ : Shape).Idx → α)
    (h : (⟨1, ![c]⟩ : Shape).ShapeCasts ⟨3, ![1, 1, c]⟩) (u v : Fin 1) (e : Fin c) :
    shapeCast ⟨3, ![1, 1, c]⟩ x h (ix3 u v e) = x (ix1 e) :=
  shapeCast_apply x h _ _ (by
    have hu : u.val = 0 := by omega
    have hv : v.val = 0 := by omega
    rw [Shape.rowMajor_val_three, Shape.rowMajor_val_one]
    show e.val = (u.val * 1 + v.val) * c + e.val
    rw [hu, hv]
    simp)

/-- An `[a, 1, c]` array broadcast to `[a, b, c]` reads, at `(i, j, e)`, the operand at `(i, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (e : Fin c) :
    broadcastTo ⟨3, ![a, b, c]⟩ v h (ix3 i j e) = v (ix3 i (0 : Fin 1) e) := by
  refine broadcastTo_apply v h (ix3 i j e) (ix3 i (0 : Fin 1) e) fun ax => ?_
  match ax with
  | ⟨0, _⟩ =>
    show i.val = if a = 1 then 0 else i.val
    split
    · have := i.isLt; omega
    · rfl
  | ⟨1, _⟩ => rfl
  | ⟨2, _⟩ =>
    show e.val = if c = 1 then 0 else e.val
    split
    · have := e.isLt; omega
    · rfl

/-- A `[1, b, c]` array broadcast to `[a, b, c]` reads, at `(i, j, e)`, the operand at `(0, j, e)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (e : Fin c) :
    broadcastTo ⟨3, ![a, b, c]⟩ v h (ix3 i j e) = v (ix3 (0 : Fin 1) j e) := by
  refine broadcastTo_apply v h (ix3 i j e) (ix3 (0 : Fin 1) j e) fun ax => ?_
  match ax with
  | ⟨0, _⟩ => rfl
  | ⟨1, _⟩ =>
    show j.val = if b = 1 then 0 else j.val
    split
    · have := j.isLt; omega
    · rfl
  | ⟨2, _⟩ =>
    show e.val = if c = 1 then 0 else e.val
    split
    · have := e.isLt; omega
    · rfl

/-- A `[1, 1, c]` array broadcast to `[a, b, c]` reads, at `(i, j, e)`, the operand at `(0, 0, e)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (e : Fin c) :
    broadcastTo ⟨3, ![a, b, c]⟩ v h (ix3 i j e) = v (ix3 (0 : Fin 1) (0 : Fin 1) e) := by
  refine broadcastTo_apply v h (ix3 i j e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

/-- A row `[1, c]` laid along both leading axes of `[a, b, c]` (cast to a vector, then to `[1, 1, c]`, then broadcast)
    reads, at `(i, j, e)`, the row at `(0, e)`. -/
theorem row_along_both {a b c : ℕ} (x : (⟨2, ![1, c]⟩ : Shape).Idx → α)
    (h1 : (⟨2, ![1, c]⟩ : Shape).ShapeCasts ⟨1, ![c]⟩) (h2 : (⟨1, ![c]⟩ : Shape).ShapeCasts ⟨3, ![1, 1, c]⟩)
    (h3 : (⟨3, ![1, 1, c]⟩ : Shape).Broadcasts ⟨3, ![a, b, c]⟩) (i : Fin a) (j : Fin b) (e : Fin c) :
    broadcastTo ⟨3, ![a, b, c]⟩ (shapeCast ⟨3, ![1, 1, c]⟩ (shapeCast ⟨1, ![c]⟩ x h1) h2) h3 (ix3 i j e)
      = x (ix2 (0 : Fin 1) e) := by
  rw [broadcastTo_11c_abc_apply, shapeCast_c_11c_apply, shapeCast_1a_a_apply]

end Layout

/-! ## The hidden block -/

/-- The hidden block at `(a, b, e)`. -/
theorem pay6_at (v3 v5 : Vec Ideal S128x128 .f32) (v7 : Vec Ideal S1x128 .f32) (a b e : Fin 128) :
    k1_pay6 (F := Ideal) v3 v5 v7 (ix3 a b e) = Ideal.tanh ((v3 (ix2 a e) + v5 (ix2 b e)) + v7 (ix2 0 e)) := by
  unfold k1_pay6
  show Ideal.tanh ((broadcastTo S128x128x128 _ _ (ix3 a b e) + broadcastTo S128x128x128 _ _ (ix3 a b e))
    + broadcastTo S128x128x128 _ _ (ix3 a b e)) = _
  rw [row_along_both, broadcastTo_a1c_abc_apply, broadcastTo_1bc_abc_apply, shapeCast_ac_a1c_apply,
    shapeCast_ab_1ab_apply, shapeCast_self, shapeCast_self, shapeCast_self]

/-! ## A lane sum of a `[128, 128, 128]` block, and the two accumulator planes' updates -/

/-- The index over `(a, b)` with `e` put on the summed last axis is `(a, b, e)`. -/
theorem lift_ab (h : S128x128x128.Reduces [2] S128x128) (a b e : Fin 128) :
    h.lift (ix2 a b) e = ix3 a b e :=
  funext fun c => Fin.ext (by match c with | ⟨0, _⟩ => rfl | ⟨1, _⟩ => rfl | ⟨2, _⟩ => rfl)

/-- A sum along the last axis from the zero word, at `(a, b)`: the sum over `e` of the block at `(a, b, e)` (the
    neutral start contributes nothing). -/
theorem laneSum_at (src : FVec Ideal S128x128x128 .f32) (h : S128x128x128.Reduces [2] S128x128)
    (hφ : FKind.Formats .f32) (hacc : (0x00000000#32 : BitVec 32) = 0x00000000#32) (a b : Fin 128) :
    multiReduction (F := Ideal) .add [2] S128x128 src 0x00000000#32 h hφ hacc (ix2 a b)
      = ∑ e : Fin 128, src (ix3 a b e) := by
  refine (Ideal.multiReduction_add_single src 0x00000000#32 h hφ hacc (ix2 a b)).trans ?_
  exact Finset.sum_congr rfl fun e _ => congrArg src (lift_ab h a b e)

/-- The first accumulator plane after a point, at `(0, a, b)`: what it held plus the sum over the block's features of
    the hidden value times row 0 of the second layer's block. -/
theorem pay7_at (v3 v5 : Vec Ideal S128x128 .f32) (v7 : Vec Ideal S1x128 .f32) (v19 : Vec Ideal S2x128 .f32)
    (v20 : Vec Ideal S1x128x128 .f32) (a b : Fin 128) :
    k1_pay7 (F := Ideal) v3 v5 v7 v19 v20 (ix3 0 a b)
      = v20 (ix3 0 a b) + ∑ e : Fin 128, k1_pay6 (F := Ideal) v3 v5 v7 (ix3 a b e) * v19 (ix2 0 e) := by
  unfold k1_pay7
  refine (shapeCast_ab_1ab_apply _ _ (0 : Fin 1) a b).trans ?_
  show shapeCast S128x128 v20 _ (ix2 a b) + _ = _
  refine congrArg₂ (· + ·) (shapeCast_1ab_ab_apply v20 _ a b) ?_
  refine (laneSum_at _ _ _ _ a b).trans ?_
  refine Finset.sum_congr rfl fun e _ => ?_
  show k1_pay6 (F := Ideal) v3 v5 v7 (ix3 a b e) * broadcastTo S128x128x128 _ _ (ix3 a b e) = _
  refine congrArg (k1_pay6 (F := Ideal) v3 v5 v7 (ix3 a b e) * ·) ?_
  rw [row_along_both]
  exact slice2_axis0_apply 0 v19 _ (0 : Fin 1) e (0 : Fin 2) rfl

/-- The second accumulator plane after a point, at `(0, a, b)`: what it held (as a `[128, 128]` array) plus the sum
    over the block's features of the hidden value times the given row. -/
theorem pay1_at (v18 : FVec Ideal S128x128x128 .f32) (v33 : FVec Ideal S128x128 .f32) (v34 : FVec Ideal S1x128 .f32)
    (a b : Fin 128) :
    k1_pay1 (F := Ideal) v18 v33 v34 (ix3 0 a b)
      = v33 (ix2 a b) + ∑ e : Fin 128, v18 (ix3 a b e) * v34 (ix2 0 e) := by
  unfold k1_pay1
  refine (shapeCast_ab_1ab_apply _ _ (0 : Fin 1) a b).trans ?_
  show v33 (ix2 a b) + _ = _
  refine congrArg (v33 (ix2 a b) + ·) ?_
  refine (laneSum_at _ _ _ _ a b).trans ?_
  refine Finset.sum_congr rfl fun e _ => ?_
  show v18 (ix3 a b e) * broadcastTo S128x128x128 _ _ (ix3 a b e) = _
  refine congrArg (v18 (ix3 a b e) * ·) ?_
  rw [row_along_both]

/-- The second plane read back as a `[128, 128]` array. -/
theorem pay8_at (v32 : Vec Ideal S1x128x128 .f32) (a b : Fin 128) :
    k1_pay8 (F := Ideal) v32 (ix2 a b) = v32 (ix3 0 a b) := by
  unfold k1_pay8
  exact shapeCast_1ab_ab_apply v32 _ a b

/-- Row 1 of the second layer's block, as a `[1, 128]` row. -/
theorem pay9_at (v19 : Vec Ideal S2x128 .f32) (e : Fin 128) :
    k1_pay9 (F := Ideal) v19 (ix2 0 e) = v19 (ix2 1 e) := by
  unfold k1_pay9
  exact slice2_axis0_apply 1 v19 _ (0 : Fin 1) e (1 : Fin 2) rfl

/-! ## The output planes at the last feature block, and the zeroing value -/

/-- The first output plane at `(0, a, b)`: the first accumulator plane plus entry 0 of the bias. -/
theorem pay_out0_at (v47 : Vec Ideal S1x2 .f32) (v49 : Vec Ideal S1x128x128 .f32) (a b : Fin 128) :
    k1_pay3 (F := Ideal) v47 v49 (ix3 0 a b) = v49 (ix3 0 a b) + v47 (ix2 0 0) := by
  unfold k1_pay3 k1_pay2
  refine (shapeCast_ab_1ab_apply _ _ (0 : Fin 1) a b).trans ?_
  show shapeCast S128x128 v49 _ (ix2 a b) + extractAt ![0, 0] (extractStridedSlice S1x1 ![0, 0] (shapeCast S1x2 v47 _) _) _ = _
  refine congrArg₂ (· + ·) (shapeCast_1ab_ab_apply v49 _ a b) ?_
  rw [shapeCast_self]
  unfold extractAt extractStridedSlice
  exact congrArg v47 (funext fun c => Fin.ext (by match c with | ⟨0, _⟩ => rfl | ⟨1, _⟩ => rfl))

/-- The second output plane at `(0, a, b)`: the second accumulator plane plus entry 1 of the bias. -/
theorem pay_out1_at (v47 : Vec Ideal S1x2 .f32) (v58 : Vec Ideal S1x128x128 .f32) (a b : Fin 128) :
    k1_pay4 (F := Ideal) v47 v58 (ix3 0 a b) = v58 (ix3 0 a b) + v47 (ix2 0 1) := by
  unfold k1_pay4 k1_pay2
  refine (shapeCast_ab_1ab_apply _ _ (0 : Fin 1) a b).trans ?_
  show shapeCast S128x128 v58 _ (ix2 a b) + extractAt ![0, 0] (extractStridedSlice S1x1 ![0, 1] (shapeCast S1x2 v47 _) _) _ = _
  refine congrArg₂ (· + ·) (shapeCast_1ab_ab_apply v58 _ a b) ?_
  rw [shapeCast_self]
  unfold extractAt extractStridedSlice
  exact congrArg v47 (funext fun c => Fin.ext (by match c with | ⟨0, _⟩ => rfl | ⟨1, _⟩ => rfl))

/-- The value the accumulator is reset to: the zero word's value, `0`, everywhere. -/
theorem pay5_at (j : S2x128x128.Idx) : k1_pay5 (F := Ideal) j = 0 := by
  unfold k1_pay5
  rw [shapeCast_self]
  show Ideal.ofBits .f32 0x00000000#32 = 0
  exact Ideal.ofBits_zero_f32

/-! ## The projections' block product -/

/-- Output row: the left operand's row. -/
theorem lhs0 (i : S128x768.Idx) (q : dot_S128x768_S768x768_S128x768_1_0_0_1_n_n.contr.Idx) :
    (dot_S128x768_S768x768_S128x768_1_0_0_1_n_n.lhsIdx i q 0).val = (i 0).val := by
  unfold DotDims.lhsIdx
  rw [dif_neg (show ¬(0 : Fin S128x768.rank) ∈ dot_S128x768_S768x768_S128x768_1_0_0_1_n_n.lhsBatch by decide),
    dif_pos (show (0 : Fin S128x768.rank) ∈ dot_S128x768_S768x768_S128x768_1_0_0_1_n_n.lhsNonContracting by decide)]
  rfl
/-- The left operand's column is the contraction coordinate. -/
theorem lhs1 (i : S128x768.Idx) (q : dot_S128x768_S768x768_S128x768_1_0_0_1_n_n.contr.Idx) :
    (dot_S128x768_S768x768_S128x768_1_0_0_1_n_n.lhsIdx i q 1).val = (q ⟨0, by decide⟩).val :=
  dot_S128x768_S768x768_S128x768_1_0_0_1_n_n.lhsIdx_val_of_single rfl i q
/-- The right operand's row is the contraction coordinate. -/
theorem rhs0 (i : S128x768.Idx) (q : dot_S128x768_S768x768_S128x768_1_0_0_1_n_n.contr.Idx) :
    (dot_S128x768_S768x768_S128x768_1_0_0_1_n_n.rhsIdx i q 0).val = (q ⟨0, by decide⟩).val :=
  dot_S128x768_S768x768_S128x768_1_0_0_1_n_n.rhsIdx_val_of_single rfl i q
/-- Output column: the right operand's column. -/
theorem rhs1 (i : S128x768.Idx) (q : dot_S128x768_S768x768_S128x768_1_0_0_1_n_n.contr.Idx) :
    (dot_S128x768_S768x768_S128x768_1_0_0_1_n_n.rhsIdx i q 1).val = (i 1).val := by
  unfold DotDims.rhsIdx
  rw [dif_neg (show ¬(1 : Fin S768x768.rank) ∈ dot_S128x768_S768x768_S128x768_1_0_0_1_n_n.rhsBatch by decide),
    dif_pos (show (1 : Fin S768x768.rank) ∈ dot_S128x768_S768x768_S128x768_1_0_0_1_n_n.rhsNonContracting by decide)]
  rfl

/-- A `[128, 768]` block times a `[768, 768]` matrix into the zero accumulator, at `(a, b)`: the plain sum over the
    contraction coordinate (the sum over the one-axis contraction index, re-indexed by its coordinate). -/
theorem blockProduct_at {φ₁ φ₂ : FTy} (x : FVec Ideal S128x768 φ₁) (y : FVec Ideal S768x768 φ₂) (a : Fin 128) (b : Fin 768) :
    matmul (F := Ideal) dot_S128x768_S768x768_S128x768_1_0_0_1_n_n none x y (constant (F := Ideal) S128x768 .f32 0x00000000#32) (ix2 a b)
      = ∑ k : Fin 768, x (ix2 a k) * y (ix2 k b) := by
  refine (Ideal.matmul_constant_zero_apply dot_S128x768_S768x768_S128x768_1_0_0_1_n_n none x y (ix2 a b)).trans ?_
  rw [← Equiv.sum_comp (contrEquiv1 dot_S128x768_S768x768_S128x768_1_0_0_1_n_n 768 rfl rfl).symm]
  refine Finset.sum_congr rfl fun k _ => ?_
  have hk := contrEquiv1_symm_val dot_S128x768_S768x768_S128x768_1_0_0_1_n_n 768 rfl rfl k
  have el : dot_S128x768_S768x768_S128x768_1_0_0_1_n_n.lhsIdx (ix2 a b) ((contrEquiv1 dot_S128x768_S768x768_S128x768_1_0_0_1_n_n 768 rfl rfl).symm k) = ix2 a k :=
    funext fun c => Fin.ext (by
      match c with
      | ⟨0, _⟩ => exact lhs0 _ _
      | ⟨1, _⟩ => exact (lhs1 _ _).trans hk)
  have er : dot_S128x768_S768x768_S128x768_1_0_0_1_n_n.rhsIdx (ix2 a b) ((contrEquiv1 dot_S128x768_S768x768_S128x768_1_0_0_1_n_n 768 rfl rfl).symm k) = ix2 k b :=
    funext fun c => Fin.ext (by
      match c with
      | ⟨0, _⟩ => exact (rhs0 _ _).trans hk
      | ⟨1, _⟩ => exact rhs1 _ _)
  rw [el, er]

/-- The left projection's block at `(a, b)`: the change of format is the identity on the extended reals and the cast
    to the same shape is the identity. -/
theorem pay2_at (v0 : Vec Ideal S128x768 .f32) (v2 : Vec Ideal S768x768 .f32) (a : Fin 128) (b : Fin 768) :
    k0_pay2 (F := Ideal) v0 v2 (ix2 a b) = ∑ k : Fin 768, v0 (ix2 a k) * v2 (ix2 k b) := by
  unfold k0_pay2 k0_pay1
  refine (blockProduct_at _ _ a b).trans ?_
  refine Finset.sum_congr rfl fun k _ => ?_
  show v0 (ix2 a k) * shapeCast S768x768 v2 _ (ix2 k b) = _
  rw [shapeCast_self]

/-- The right projection's block at `(a, b)`: the same product against the other matrix. -/
theorem pay3_at (v0 : Vec Ideal S128x768 .f32) (v5 : Vec Ideal S768x768 .f32) (a : Fin 128) (b : Fin 768) :
    k0_pay3 (F := Ideal) v0 v5 (ix2 a b) = ∑ k : Fin 768, v0 (ix2 a k) * v5 (ix2 k b) := by
  unfold k0_pay3 k0_pay1
  refine (blockProduct_at _ _ a b).trans ?_
  refine Finset.sum_congr rfl fun k _ => ?_
  show v0 (ix2 a k) * shapeCast S768x768 v5 _ (ix2 k b) = _
  rw [shapeCast_self]

end Cert.KernelIdeal.PayAt

end
-- ==== Proof.Val0.lean ====
/- REGION 0's VALUE at the ideal instance, from blocks to the whole arrays: after the projection region's run the left
   output array is the rows' array times the first weight matrix and the right output array the rows' array times the
   second, entry by entry. Output block `t` is rows `128·t … 128·t + 127`; its entry `(a, d)` is row `a` of the
   rows' block `t` times column `d` of the (whole) weight matrix; the four blocks tile the array. -/
import proofs.«130630_j61950608278169_1_alg».proof.Proof.KernelIdeal.Body0
import proofs.«130630_j61950608278169_1_alg».proof.Proof.PayAt
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Fr Cert.KernelIdeal.PayAt

/-- The TensorCore's buffer contents when the region is entered, at the ideal instance. -/
abbrev Entry := (c : Dev nD) → (b : Ref sig .tc) → Buf (Elt Ideal) ((c : Thread nD τ).loc b)

theorem hz : (![0, 0] : Fin 2 → Nat) = fun _ => 0 := funext fun a => by fin_cases a <;> rfl

/-! ## The whole-array functions -/

/-- Entry `(r, d)` of the rows' array times a weight matrix: row `r` of the one against column `d` of the other. -/
def prodAt (P : S512x768.Idx → EReal) (W : S768x768.Idx → EReal) (r : Fin 512) (d : Fin 768) : EReal :=
  ∑ k : Fin 768, P (ix2 r k) * W (ix2 k d)

/-- `prodAt` is that sum (its definition, for rewriting). -/
theorem prodAt_def (P : S512x768.Idx → EReal) (W : S768x768.Idx → EReal) (r : Fin 512) (d : Fin 768) :
    prodAt P W r d = ∑ k : Fin 768, P (ix2 r k) * W (ix2 k d) := rfl

/-- The rows' array times a weight matrix, as a function of the index. -/
def prod0 (P : S512x768.Idx → EReal) (W : S768x768.Idx → EReal) : S512x768.Idx → EReal :=
  fun i => prodAt P W (i 0) (i 1)

/-- The left projection as one function of the region-entry arrays. -/
def L0 (V : Entry) (c : Dev nD) : S512x768.Idx → EReal := prod0 (V c main_arg0) (V c main_v1)
/-- The right projection as one function of the region-entry arrays. -/
def R0 (V : Entry) (c : Dev nD) : S512x768.Idx → EReal := prod0 (V c main_arg0) (V c main_v3)

/-! ## The printed index maps, decided once over the grid -/

/-- The rows' window and both output windows are at row block `t`, column block 0; the weight windows at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each input block read where the arrays hold it -/

/-- Entry `(a, k)` of the rows' block at point `t` is entry `(128·t + a, k)` of the rows' array. -/
theorem rows_blk (V : Entry) (c : Dev nD) (t : Fin cfg0.N) (a : Fin 128) (k : Fin 768) (r : Fin 512)
    (hr : r.val = t.val * 128 + a.val) :
    (iblk0 V c 0 t : Vec Ideal S128x768 .f32) (ix2 a k) = (V c main_arg0 : S512x768.Idx → EReal) (ix2 r k) := by
  obtain ⟨e0, e1, -⟩ := idx_facts t
  unfold iblk0
  rw [View.read_apply]
  show V c main_arg0 _ = V c main_arg0 _
  refine congrArg (V c main_arg0) ?_
  funext x
  apply Fin.ext
  match x with
  | ⟨0, _⟩ => show win0_0.index t (0 : Fin 2) * 128 + 1 * a.val = r.val; rw [e0, hr]; omega
  | ⟨1, _⟩ => show win0_0.index t (1 : Fin 2) * 768 + 1 * k.val = k.val; rw [e1]; omega

/-- Entry `(k, d)` of the first weight window's block, at any point, is that entry of the first weight matrix. -/
theorem wl_blk (V : Entry) (c : Dev nD) (t : Fin cfg0.N) (k : Fin 768) (d : Fin 768) :
    (iblk0 V c 1 t : Vec Ideal S768x768 .f32) (ix2 k d) = (V c main_v1 : S768x768.Idx → EReal) (ix2 k d) := by
  obtain ⟨-, -, e0, e1, -⟩ := idx_facts t
  unfold iblk0
  rw [View.read_apply]
  show V c main_v1 _ = V c main_v1 _
  refine congrArg (V c main_v1) ?_
  funext x
  apply Fin.ext
  match x with
  | ⟨0, _⟩ => show win0_1.index t (0 : Fin 2) * 768 + 1 * k.val = k.val; rw [e0]; omega
  | ⟨1, _⟩ => show win0_1.index t (1 : Fin 2) * 768 + 1 * d.val = d.val; rw [e1]; omega

/-- Entry `(k, d)` of the second weight window's block, at any point, is that entry of the second weight matrix. -/
theorem wr_blk (V : Entry) (c : Dev nD) (t : Fin cfg0.N) (k : Fin 768) (d : Fin 768) :
    (iblk0 V c 2 t : Vec Ideal S768x768 .f32) (ix2 k d) = (V c main_v3 : S768x768.Idx → EReal) (ix2 k d) := by
  obtain ⟨-, -, -, -, e0, e1, -⟩ := idx_facts t
  unfold iblk0
  rw [View.read_apply]
  show V c main_v3 _ = V c main_v3 _
  refine congrArg (V c main_v3) ?_
  funext x
  apply Fin.ext
  match x with
  | ⟨0, _⟩ => show win0_2.index t (0 : Fin 2) * 768 + 1 * k.val = k.val; rw [e0]; omega
  | ⟨1, _⟩ => show win0_2.index t (1 : Fin 2) * 768 + 1 * d.val = d.val; rw [e1]; omega

/-! ## The payloads at an entry, over blocks that are rows of one array and a whole matrix -/

/-- When the first operand's row `a` is row `r` of `P` and the second operand is `W`, entry `(a, b)` of the left
    product is entry `(r, b)` of `P` times `W`. -/
theorem pay2_rows (x0 : Vec Ideal S128x768 .f32) (x1 : Vec Ideal S768x768 .f32)
    (P : S512x768.Idx → EReal) (W : S768x768.Idx → EReal) (a : Fin 128) (b : Fin 768) (r : Fin 512)
    (h0 : ∀ k : Fin 768, x0 (ix2 a k) = P (ix2 r k)) (h1 : ∀ k : Fin 768, x1 (ix2 k b) = W (ix2 k b)) :
    k0_pay2 (F := Ideal) x0 x1 (ix2 a b) = prodAt P W r b := by
  rw [pay2_at]; unfold prodAt
  exact Finset.sum_congr rfl fun k _ => by rw [h0, h1]

/-- The same of the right product. -/
theorem pay3_rows (x0 : Vec Ideal S128x768 .f32) (x2 : Vec Ideal S768x768 .f32)
    (P : S512x768.Idx → EReal) (W : S768x768.Idx → EReal) (a : Fin 128) (b : Fin 768) (r : Fin 512)
    (h0 : ∀ k : Fin 768, x0 (ix2 a k) = P (ix2 r k)) (h1 : ∀ k : Fin 768, x2 (ix2 k b) = W (ix2 k b)) :
    k0_pay3 (F := Ideal) x0 x2 (ix2 a b) = prodAt P W r b := by
  rw [pay3_at]; unfold prodAt
  exact Finset.sum_congr rfl fun k _ => by rw [h0, h1]

/-! ## What each point writes back is its block of the whole-array function -/

/-- Point `t` writes back, to the left output array, block `t` of `L0`. -/
theorem flushed_eq3 (V : Entry) (c : Dev nD) (t : Fin cfg0.N) :
    (dat0 (F := Ideal) V c).flushed 3 t = ((cfg0.win 3).blk t).view.read (Elt Ideal) (L0 V c) := by
  show (cfg0.win 3).cut (grid0.coords t) ((dat0 V c).after 3 t) = _
  rw [after0_3]
  unfold out0_3
  rw [View.canon_unit_zero hz]
  simp only [View.ld_unit_zero (S := S128x768) hz, View.ld_unit_zero (S := S768x768) hz]
  obtain ⟨-, -, -, -, -, -, e0, e1, -⟩ := idx_facts t
  funext j
  have hj0 : (j 0).val < 128 := (j 0).isLt
  have hj1 : (j 1).val < 768 := (j 1).isLt
  have ht : t.val < 4 := lt_of_lt_of_eq t.isLt N_0
  have hr : t.val * 128 + (j 0).val < 512 := by omega
  have hemb : ((cfg0.win 3).blk t).view.emb j = ix2 (⟨t.val * 128 + (j 0).val, hr⟩ : Fin 512) (⟨(j 1).val, hj1⟩ : Fin 768) := by
    funext x; apply Fin.ext
    match x with
    | ⟨0, _⟩ => show win0_3.index t (0 : Fin 2) * 128 + 1 * (j 0).val = t.val * 128 + (j 0).val; rw [e0]; omega
    | ⟨1, _⟩ => show win0_3.index t (1 : Fin 2) * 768 + 1 * (j 1).val = (j 1).val; rw [e1]; omega
  have hx : (cfg0.win 3).xinj (grid0.coords t) j = ix2 (⟨(j 0).val, hj0⟩ : Fin 128) (⟨(j 1).val, hj1⟩ : Fin 768) := by
    funext x; apply Fin.ext
    match x with
    | ⟨0, _⟩ => rfl
    | ⟨1, _⟩ => rfl
  show k0_pay2 (F := Ideal) (iblk0 V c 0 t) (iblk0 V c 1 t) ((cfg0.win 3).xinj (grid0.coords t) j) = L0 V c (((cfg0.win 3).blk t).view.emb j)
  rw [hx, hemb]
  exact pay2_rows (iblk0 V c 0 t) (iblk0 V c 1 t) (V c main_arg0) (V c main_v1) ⟨(j 0).val, hj0⟩ ⟨(j 1).val, hj1⟩ ⟨t.val * 128 + (j 0).val, hr⟩
    (fun k => rows_blk V c t ⟨(j 0).val, hj0⟩ k ⟨t.val * 128 + (j 0).val, hr⟩ rfl) (fun k => wl_blk V c t k ⟨(j 1).val, hj1⟩)

/-- Point `t` writes back, to the right output array, block `t` of `R0`. -/
theorem flushed_eq4 (V : Entry) (c : Dev nD) (t : Fin cfg0.N) :
    (dat0 (F := Ideal) V c).flushed 4 t = ((cfg0.win 4).blk t).view.read (Elt Ideal) (R0 V c) := by
  show (cfg0.win 4).cut (grid0.coords t) ((dat0 V c).after 4 t) = _
  rw [after0_4]
  unfold out0_4
  rw [View.canon_unit_zero hz]
  simp only [View.ld_unit_zero (S := S128x768) hz, View.ld_unit_zero (S := S768x768) hz]
  obtain ⟨-, -, -, -, -, -, -, -, e0, e1⟩ := idx_facts t
  funext j
  have hj0 : (j 0).val < 128 := (j 0).isLt
  have hj1 : (j 1).val < 768 := (j 1).isLt
  have ht : t.val < 4 := lt_of_lt_of_eq t.isLt N_0
  have hr : t.val * 128 + (j 0).val < 512 := by omega
  have hemb : ((cfg0.win 4).blk t).view.emb j = ix2 (⟨t.val * 128 + (j 0).val, hr⟩ : Fin 512) (⟨(j 1).val, hj1⟩ : Fin 768) := by
    funext x; apply Fin.ext
    match x with
    | ⟨0, _⟩ => show win0_4.index t (0 : Fin 2) * 128 + 1 * (j 0).val = t.val * 128 + (j 0).val; rw [e0]; omega
    | ⟨1, _⟩ => show win0_4.index t (1 : Fin 2) * 768 + 1 * (j 1).val = (j 1).val; rw [e1]; omega
  have hx : (cfg0.win 4).xinj (grid0.coords t) j = ix2 (⟨(j 0).val, hj0⟩ : Fin 128) (⟨(j 1).val, hj1⟩ : Fin 768) := by
    funext x; apply Fin.ext
    match x with
    | ⟨0, _⟩ => rfl
    | ⟨1, _⟩ => rfl
  show k0_pay3 (F := Ideal) (iblk0 V c 0 t) (iblk0 V c 2 t) ((cfg0.win 4).xinj (grid0.coords t) j) = R0 V c (((cfg0.win 4).blk t).view.emb j)
  rw [hx, hemb]
  exact pay3_rows (iblk0 V c 0 t) (iblk0 V c 2 t) (V c main_arg0) (V c main_v3) ⟨(j 0).val, hj0⟩ ⟨(j 1).val, hj1⟩ ⟨t.val * 128 + (j 0).val, hr⟩
    (fun k => rows_blk V c t ⟨(j 0).val, hj0⟩ k ⟨t.val * 128 + (j 0).val, hr⟩ rfl) (fun k => wr_blk V c t k ⟨(j 1).val, hj1⟩)

/-! ## The four row blocks tile each output array -/

/-- An index of the left output array is in point `t`'s block iff each coordinate is in the block's range on its axis. -/
theorem mem_blk3 (t : Fin cfg0.N) (i : S512x768.Idx) :
    i ∈ ((cfg0.win 3).blk t).view.set ↔ ∀ a : Fin 2, win0_3.index t a * S128x768.size a ≤ (i a).val ∧ (i a).val < win0_3.index t a * S128x768.size a + S128x768.size a := by
  show i ∈ ((View.whole main_v4_0).slice (win0_3.rect t)).set ↔ _
  rw [View.set_slice_whole, Rect.mem_set_unit]
  exact Iff.rfl

/-- The same of the right output array. -/
theorem mem_blk4 (t : Fin cfg0.N) (i : S512x768.Idx) :
    i ∈ ((cfg0.win 4).blk t).view.set ↔ ∀ a : Fin 2, win0_4.index t a * S128x768.size a ≤ (i a).val ∧ (i a).val < win0_4.index t a * S128x768.size a + S128x768.size a := by
  show i ∈ ((View.whole main_v4_1).slice (win0_4.rect t)).set ↔ _
  rw [View.set_slice_whole, Rect.mem_set_unit]
  exact Iff.rfl

/-- Row `r` of the left output array is in the block of point `r / 128`, which writes it back. -/
theorem cover3 (i : S512x768.Idx) : ∃ t : Fin cfg0.N, (cfg0.win 3).flush t = true ∧ i ∈ ((cfg0.win 3).blk t).view.set := by
  have hi0 : (i 0).val < 512 := (i 0).isLt
  have hi1 : (i 1).val < 768 := (i 1).isLt
  have hN : cfg0.N = 4 := N_0
  have hq : (i 0).val / 128 < cfg0.N := by rw [hN]; omega
  obtain ⟨-, -, -, -, -, -, e0, e1, -⟩ := idx_facts ⟨(i 0).val / 128, hq⟩
  refine ⟨⟨(i 0).val / 128, hq⟩, flush0_3 _, ?_⟩
  rw [mem_blk3]
  intro a
  match a with
  | ⟨0, _⟩ =>
    show win0_3.index ⟨(i 0).val / 128, hq⟩ (0 : Fin 2) * 128 ≤ (i 0).val ∧ (i 0).val < win0_3.index ⟨(i 0).val / 128, hq⟩ (0 : Fin 2) * 128 + 128
    rw [e0]; show (i 0).val / 128 * 128 ≤ (i 0).val ∧ (i 0).val < (i 0).val / 128 * 128 + 128; omega
  | ⟨1, _⟩ =>
    show win0_3.index ⟨(i 0).val / 128, hq⟩ (1 : Fin 2) * 768 ≤ (i 1).val ∧ (i 1).val < win0_3.index ⟨(i 0).val / 128, hq⟩ (1 : Fin 2) * 768 + 768
    rw [e1]; omega

/-- The same of the right output array. -/
theorem cover4 (i : S512x768.Idx) : ∃ t : Fin cfg0.N, (cfg0.win 4).flush t = true ∧ i ∈ ((cfg0.win 4).blk t).view.set := by
  have hi0 : (i 0).val < 512 := (i 0).isLt
  have hi1 : (i 1).val < 768 := (i 1).isLt
  have hN : cfg0.N = 4 := N_0
  have hq : (i 0).val / 128 < cfg0.N := by rw [hN]; omega
  obtain ⟨-, -, -, -, -, -, -, -, e0, e1⟩ := idx_facts ⟨(i 0).val / 128, hq⟩
  refine ⟨⟨(i 0).val / 128, hq⟩, flush0_4 _, ?_⟩
  rw [mem_blk4]
  intro a
  match a with
  | ⟨0, _⟩ =>
    show win0_4.index ⟨(i 0).val / 128, hq⟩ (0 : Fin 2) * 128 ≤ (i 0).val ∧ (i 0).val < win0_4.index ⟨(i 0).val / 128, hq⟩ (0 : Fin 2) * 128 + 128
    rw [e0]; show (i 0).val / 128 * 128 ≤ (i 0).val ∧ (i 0).val < (i 0).val / 128 * 128 + 128; omega
  | ⟨1, _⟩ =>
    show win0_4.index ⟨(i 0).val / 128, hq⟩ (1 : Fin 2) * 768 ≤ (i 1).val ∧ (i 1).val < win0_4.index ⟨(i 0).val / 128, hq⟩ (1 : Fin 2) * 768 + 768
    rw [e1]; omega

/-! ## The arrays after the region's run -/

/-- The left output array ends holding `L0`. -/
theorem final3 (V : Entry) (c : Dev nD) : (dat0 (F := Ideal) V c).arrAt 3 cfg0.N = L0 V c :=
  (dat0 (F := Ideal) V c).arrAt_eq_of_cover 3 (L0 V c) (fun t _ => flushed_eq3 V c t) cover3

/-- The right output array ends holding `R0`. -/
theorem final4 (V : Entry) (c : Dev nD) : (dat0 (F := Ideal) V c).arrAt 4 cfg0.N = R0 V c :=
  (dat0 (F := Ideal) V c).arrAt_eq_of_cover 4 (R0 V c) (fun t _ => flushed_eq4 V c t) cover4

/-- Entry `(r, d)` of the left output array after the run: row `r` of the rows' array against column `d` of the first
    weight matrix. -/
theorem left_at (V : Entry) (c : Dev nD) (r : Fin 512) (d : Fin 768) :
    (dat0 (F := Ideal) V c).arrAt 3 cfg0.N (ix2 r d) = prodAt (V c main_arg0) (V c main_v1) r d :=
  congrFun (final3 V c) (ix2 r d)

/-- Entry `(r, d)` of the right output array after the run: row `r` of the rows' array against column `d` of the second
    weight matrix. -/
theorem right_at (V : Entry) (c : Dev nD) (r : Fin 512) (d : Fin 768) :
    (dat0 (F := Ideal) V c).arrAt 4 cfg0.N (ix2 r d) = prodAt (V c main_arg0) (V c main_v3) r d :=
  congrFun (final4 V c) (ix2 r d)

end Cert.KernelIdeal.Val

end
-- ==== Proof.Val1Defs.lean ====
/-
  Region 1 as functions of arrays whose entries are extended reals: one grid step's partial sum for an accumulator entry,
  and the output array's entry (class, i, j) — the sum over the six feature blocks of 128 of tanh((left + right) + bias)
  times the class's weight, plus the class's second bias.
-/
import proofs.«130630_j61950608278169_1_alg».proof.KernelIdeal
import Idealize.ShloMosaic.PureOps.Ideal
import Idealize.ShloMosaic.Lib.ValueIdx

noncomputable section

namespace Cert.KernelIdeal.Val

open Cert.KernelIdeal
open Idealize.ShloMosaic Idealize.ShloMosaic.ValueIdx

/-- One step's partial sum for the accumulator entry (class ch, row a, row b), from the point's four blocks. -/
def stepSum (x0 x1 : S128x128.Idx → EReal) (x2 : S1x128.Idx → EReal) (x3 : S2x128.Idx → EReal) (ch : Fin 2) (a b : Fin 128) : EReal :=
  ∑ e : Fin 128, Ideal.tanh ((x0 (ix2 a e) + x1 (ix2 b e)) + x2 (ix2 0 e)) * x3 (ix2 ch e)

/-- The summand of the output entry at feature block k, feature e of the block. -/
def outTerm (Lf Rg : S512x768.Idx → EReal) (B1 : S1x768.Idx → EReal) (W2 : S2x768.Idx → EReal) (ch : Fin 2) (i j : Fin 512) (k : Fin 6) (e : Fin 128) : EReal :=
  Ideal.tanh ((Lf (ix2 i (⟨128 * k.val + e.val, by omega⟩ : Fin 768)) + Rg (ix2 j (⟨128 * k.val + e.val, by omega⟩ : Fin 768)))
      + B1 (ix2 0 (⟨128 * k.val + e.val, by omega⟩ : Fin 768))) * W2 (ix2 ch (⟨128 * k.val + e.val, by omega⟩ : Fin 768))

/-- The output array's entry (class ch, i, j). -/
def outAt (Lf Rg : S512x768.Idx → EReal) (B1 : S1x768.Idx → EReal) (W2 : S2x768.Idx → EReal) (B2 : S1x2.Idx → EReal)
    (ch : Fin 2) (i j : Fin 512) : EReal :=
  (∑ k : Fin 6, ∑ e : Fin 128, outTerm Lf Rg B1 W2 ch i j k e) + B2 (ix2 0 ch)

theorem outAt_def (Lf Rg : S512x768.Idx → EReal) (B1 : S1x768.Idx → EReal) (W2 : S2x768.Idx → EReal) (B2 : S1x2.Idx → EReal)
    (ch : Fin 2) (i j : Fin 512) :
    outAt Lf Rg B1 W2 B2 ch i j
      = (∑ k : Fin 6, ∑ e : Fin 128, Ideal.tanh ((Lf (ix2 i (⟨128 * k.val + e.val, by omega⟩ : Fin 768)) + Rg (ix2 j (⟨128 * k.val + e.val, by omega⟩ : Fin 768)))
          + B1 (ix2 0 (⟨128 * k.val + e.val, by omega⟩ : Fin 768))) * W2 (ix2 ch (⟨128 * k.val + e.val, by omega⟩ : Fin 768))) + B2 (ix2 0 ch) := rfl

/-- The whole output array as one function of the five arrays region 1 reads. -/
def out1 (Lf Rg : S512x768.Idx → EReal) (B1 : S1x768.Idx → EReal) (W2 : S2x768.Idx → EReal) (B2 : S1x2.Idx → EReal) :
    S2x512x512.Idx → EReal := fun o => outAt Lf Rg B1 W2 B2 (o 0) (o 1) (o 2)

theorem out1_ix3 (Lf Rg : S512x768.Idx → EReal) (B1 : S1x768.Idx → EReal) (W2 : S2x768.Idx → EReal) (B2 : S1x2.Idx → EReal)
    (ch : Fin 2) (i j : Fin 512) : out1 Lf Rg B1 W2 B2 (ix3 ch i j) = outAt Lf Rg B1 W2 B2 ch i j := rfl

end Cert.KernelIdeal.Val

end
-- ==== Proof.AccLaw.lean ====
/-
  The accumulator's recurrence, in any commutative monoid: a sequence that at the first position of a sweep of six is
  zero plus its term, and at each of the five later positions adds its term to what the position before left, is at the
  sweep's last position the sum of the sweep's six terms.
-/
import Mathlib.Algebra.BigOperators.Fin

namespace Cert.PairSpec

theorem fold_six {M : Type*} [AddCommMonoid M] (S T : ℕ → M) (q : ℕ)
    (h0 : S (6 * q) = 0 + T (6 * q))
    (hs : ∀ k, 1 ≤ k → k ≤ 5 → S (6 * q + k) = S (6 * q + k - 1) + T (6 * q + k)) :
    S (6 * q + 5) = ∑ k : Fin 6, T (6 * q + k.val) := by
  have e1 : S (6 * q + 1) = S (6 * q) + T (6 * q + 1) := hs 1 (by omega) (by omega)
  have e2 : S (6 * q + 2) = S (6 * q + 1) + T (6 * q + 2) := hs 2 (by omega) (by omega)
  have e3 : S (6 * q + 3) = S (6 * q + 2) + T (6 * q + 3) := hs 3 (by omega) (by omega)
  have e4 : S (6 * q + 4) = S (6 * q + 3) + T (6 * q + 4) := hs 4 (by omega) (by omega)
  have e5 : S (6 * q + 5) = S (6 * q + 4) + T (6 * q + 5) := hs 5 (by omega) (by omega)
  rw [e5, e4, e3, e2, e1, h0, Fin.sum_univ_six, zero_add]
  simp only [Fin.isValue, Fin.val_zero, Fin.val_one, Fin.val_two, add_zero]
  rfl

end Cert.PairSpec
-- ==== Proof.Val1Cover.lean ====
/- REGION 1's output window (the logits array, class axis first): which indices of the array each grid point's block
   holds, that the blocks written back tile the array, and where an entry of a point's block sits in the array. The
   block of point `t` is all classes × rows `128·(t / 24) …` × columns `128·((t / 6) % 4) …`; it is written back at the
   last step of the innermost axis, `t % 6 = 5`. -/
import proofs.«130630_j61950608278169_1_alg».proof.Proof.Gen.KernelIdeal.Points
import proofs.«130630_j61950608278169_1_alg».proof.Proof.Gen.KernelIdeal.Launch
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen

/-- The output window's printed index map, decided over the grid: class block 0, row block `t / 24`, column block
    `(t / 6) % 4`. -/
theorem idx5 : ∀ t : Fin cfg1.N, win1_5.index t (0 : Fin 3) = 0 ∧ win1_5.index t (1 : Fin 3) = t.val / 24
    ∧ win1_5.index t (2 : Fin 3) = (t.val / 6) % 4 :=
  (by decide +kernel : ∀ t : Fin grid1.N, _)

/-- An index of the array is in point `t`'s block iff each coordinate is in the block's range on its axis. -/
theorem mem_blk5 (t : Fin cfg1.N) (i : S2x512x512.Idx) :
    i ∈ ((cfg1.win 5).blk t).view.set ↔ ∀ a : Fin 3, win1_5.index t a * S2x128x128.size a ≤ (i a).val ∧ (i a).val < win1_5.index t a * S2x128x128.size a + S2x128x128.size a := by
  show i ∈ ((View.whole main_v7).slice (win1_5.rect t)).set ↔ _
  rw [View.set_slice_whole, Rect.mem_set_unit]
  exact Iff.rfl

/-- Every index of the array is in the block of a point that writes it back: entry `(ch, I, J)` in that of the last
    innermost step of row block `I / 128`, column block `J / 128`. -/
theorem cover5 (i : S2x512x512.Idx) : ∃ t : Fin cfg1.N, (cfg1.win 5).flush t = true ∧ i ∈ ((cfg1.win 5).blk t).view.set := by
  have hi0 : (i 0).val < 2 := (i 0).isLt
  have hi1 : (i 1).val < 512 := (i 1).isLt
  have hi2 : (i 2).val < 512 := (i 2).isLt
  have hN : cfg1.N = 96 := N_1
  have hq : 24 * ((i 1).val / 128) + 6 * ((i 2).val / 128) + 5 < cfg1.N := by rw [hN]; omega
  obtain ⟨e0, e1, e2⟩ := idx5 ⟨24 * ((i 1).val / 128) + 6 * ((i 2).val / 128) + 5, hq⟩
  refine ⟨⟨24 * ((i 1).val / 128) + 6 * ((i 2).val / 128) + 5, hq⟩, (flush1_5 _).mpr ?_, ?_⟩
  · show (24 * ((i 1).val / 128) + 6 * ((i 2).val / 128) + 5) % 6 = 5; omega
  rw [mem_blk5]
  intro a
  match a with
  | ⟨0, _⟩ =>
    show win1_5.index ⟨24 * ((i 1).val / 128) + 6 * ((i 2).val / 128) + 5, hq⟩ (0 : Fin 3) * 2 ≤ (i 0).val
      ∧ (i 0).val < win1_5.index ⟨24 * ((i 1).val / 128) + 6 * ((i 2).val / 128) + 5, hq⟩ (0 : Fin 3) * 2 + 2
    rw [e0]; omega
  | ⟨1, _⟩ =>
    show win1_5.index ⟨24 * ((i 1).val / 128) + 6 * ((i 2).val / 128) + 5, hq⟩ (1 : Fin 3) * 128 ≤ (i 1).val
      ∧ (i 1).val < win1_5.index ⟨24 * ((i 1).val / 128) + 6 * ((i 2).val / 128) + 5, hq⟩ (1 : Fin 3) * 128 + 128
    rw [e1]
    show (24 * ((i 1).val / 128) + 6 * ((i 2).val / 128) + 5) / 24 * 128 ≤ (i 1).val
      ∧ (i 1).val < (24 * ((i 1).val / 128) + 6 * ((i 2).val / 128) + 5) / 24 * 128 + 128
    omega
  | ⟨2, _⟩ =>
    show win1_5.index ⟨24 * ((i 1).val / 128) + 6 * ((i 2).val / 128) + 5, hq⟩ (2 : Fin 3) * 128 ≤ (i 2).val
      ∧ (i 2).val < win1_5.index ⟨24 * ((i 1).val / 128) + 6 * ((i 2).val / 128) + 5, hq⟩ (2 : Fin 3) * 128 + 128
    rw [e2]
    show (24 * ((i 1).val / 128) + 6 * ((i 2).val / 128) + 5) / 6 % 4 * 128 ≤ (i 2).val
      ∧ (i 2).val < (24 * ((i 1).val / 128) + 6 * ((i 2).val / 128) + 5) / 6 % 4 * 128 + 128
    omega

/-- Entry `(ch, a, b)` of point `t`'s block sits in the array at class `ch`, row `128·(t / 24) + a`, column
    `128·((t / 6) % 4) + b`. -/
theorem emb5 (t : Fin cfg1.N) (ch : Fin 2) (a b : Fin 128) (I J : Fin 512) (hI : I.val = 128 * (t.val / 24) + a.val)
    (hJ : J.val = 128 * ((t.val / 6) % 4) + b.val) :
    ((cfg1.win 5).blk t).view.emb (ix3 ch a b) = ix3 ch I J := by
  obtain ⟨e0, e1, e2⟩ := idx5 t
  funext x; apply Fin.ext
  match x with
  | ⟨0, _⟩ => show win1_5.index t (0 : Fin 3) * 2 + 1 * ch.val = ch.val; rw [e0]; omega
  | ⟨1, _⟩ => show win1_5.index t (1 : Fin 3) * 128 + 1 * a.val = I.val; rw [e1, hI]; omega
  | ⟨2, _⟩ => show win1_5.index t (2 : Fin 3) * 128 + 1 * b.val = J.val; rw [e2, hJ]; omega

end Cert.KernelIdeal.Val

end
-- ==== Proof.Val1Pieces.lean ====
/- Region 1 read at the extended reals: what each case's pieces hold at an index. With
   `T a b e = tanh ((x0[a, e] + x1[b, e]) + x2[0, e])` the hidden value of the pair `(a, b)` at feature `e` of the block:
   an inner step adds to plane `ch` of the accumulator, at `(a, b)`, the sum over `e` of `T a b e · x3[ch, e]`; the first
   step of a sweep does so over zeros; the last step also stores, on plane `ch` of the output block, the accumulated
   plane plus entry `ch` of the bias row. -/
import proofs.«130630_j61950608278169_1_alg».proof.Proof.KernelIdeal.Body1
import proofs.«130630_j61950608278169_1_alg».proof.Proof.PayAt

set_option maxRecDepth 16384

noncomputable section

open scoped BigOperators

namespace Cert.KernelIdeal.Val

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.Fr Cert.KernelIdeal.PayAt

/-! ## The geometry of the two planes -/

theorem hz2 : (![0, 0] : Fin 2 → Nat) = fun _ => 0 := funext fun a => by fin_cases a <;> rfl
theorem hz3 : (![0, 0, 0] : Fin 3 → Nat) = fun _ => 0 := funext fun a => by fin_cases a <;> rfl

/-- Plane 0 of a `[2, 128, 128]` buffer as a rectangle: its index `(0, a, b)` is the buffer's `(0, a, b)`. -/
theorem emb_plane0 (inb : ∀ a, (![0, 0, 0] : Fin 3 → Nat) a + S1x128x128.size a ≤ S2x128x128.size a) (a b : Fin 128) :
    (Rect.unit (s := S2x128x128) ![0, 0, 0] S1x128x128.size inb).emb (ix3 (0 : Fin 1) a b) = ix3 (0 : Fin 2) a b :=
  funext fun d => Fin.ext (by
    rw [Rect.emb_apply]
    match d with
    | ⟨0, _⟩ => rfl
    | ⟨1, _⟩ => show 0 + 1 * a.val = a.val; omega
    | ⟨2, _⟩ => show 0 + 1 * b.val = b.val; omega)

/-- Plane 1 likewise: its index `(0, a, b)` is the buffer's `(1, a, b)`. -/
theorem emb_plane1 (inb : ∀ a, (![1, 0, 0] : Fin 3 → Nat) a + S1x128x128.size a ≤ S2x128x128.size a) (a b : Fin 128) :
    (Rect.unit (s := S2x128x128) ![1, 0, 0] S1x128x128.size inb).emb (ix3 (0 : Fin 1) a b) = ix3 (1 : Fin 2) a b :=
  funext fun d => Fin.ext (by
    rw [Rect.emb_apply]
    match d with
    | ⟨0, _⟩ => rfl
    | ⟨1, _⟩ => show 0 + 1 * a.val = a.val; omega
    | ⟨2, _⟩ => show 0 + 1 * b.val = b.val; omega)

/-- An index of plane 0 is not in plane 1. -/
theorem not_mem_plane1 (inb : ∀ a, (![1, 0, 0] : Fin 3 → Nat) a + S1x128x128.size a ≤ S2x128x128.size a) (a b : Fin 128) :
    ix3 (0 : Fin 2) a b ∉ (Rect.unit (s := S2x128x128) ![1, 0, 0] S1x128x128.size inb).set := fun h =>
  absurd (show 1 ≤ 0 from (Rect.mem_set_unit.mp h 0).1) (by omega)

section Planes
variable {Val : EltTy → Type} [∀ e, Nonempty (Val e)]

/-- After stores whose last went to plane 1, what the buffer holds on plane 1 is that store's payload; -/
theorem canon_plane1 (inb1 : ∀ a, (![1, 0, 0] : Fin 3 → Nat) a + S1x128x128.size a ≤ S2x128x128.size a)
    (w1 : (Rect.unit (s := S2x128x128) ![1, 0, 0] S1x128x128.size inb1).shape.Idx → Val .f32)
    (L : List (View.Piece Val S2x128x128 .f32)) (a b : Fin 128) :
    View.canon (⟨Rect.unit (s := S2x128x128) ![1, 0, 0] S1x128x128.size inb1, w1⟩ :: L) (ix3 (1 : Fin 2) a b) = w1 (ix3 (0 : Fin 1) a b) :=
  (congrArg (View.canon _) (emb_plane1 inb1 a b).symm).trans (View.canon_cons_emb _ w1 L (ix3 (0 : Fin 1) a b))

/-- and, the store before it having gone to plane 0, what it holds on plane 0 is that one's payload. -/
theorem canon_plane0 (inb1 : ∀ a, (![1, 0, 0] : Fin 3 → Nat) a + S1x128x128.size a ≤ S2x128x128.size a)
    (w1 : (Rect.unit (s := S2x128x128) ![1, 0, 0] S1x128x128.size inb1).shape.Idx → Val .f32)
    (inb0 : ∀ a, (![0, 0, 0] : Fin 3 → Nat) a + S1x128x128.size a ≤ S2x128x128.size a)
    (w0 : (Rect.unit (s := S2x128x128) ![0, 0, 0] S1x128x128.size inb0).shape.Idx → Val .f32)
    (L : List (View.Piece Val S2x128x128 .f32)) (a b : Fin 128) :
    View.canon (⟨Rect.unit (s := S2x128x128) ![1, 0, 0] S1x128x128.size inb1, w1⟩ :: ⟨Rect.unit (s := S2x128x128) ![0, 0, 0] S1x128x128.size inb0, w0⟩ :: L) (ix3 (0 : Fin 2) a b)
      = w0 (ix3 (0 : Fin 1) a b) :=
  (View.canon_cons_of_not_mem (⟨Rect.unit (s := S2x128x128) ![1, 0, 0] S1x128x128.size inb1, w1⟩ : View.Piece Val S2x128x128 .f32) _ (not_mem_plane1 inb1 a b)).trans
    ((congrArg (View.canon _) (emb_plane0 inb0 a b).symm).trans (View.canon_cons_emb _ w0 L (ix3 (0 : Fin 1) a b)))

end Planes

/-- An index of plane 1 is not in plane 0. -/
theorem not_mem_plane0 (inb : ∀ a, (![0, 0, 0] : Fin 3 → Nat) a + S1x128x128.size a ≤ S2x128x128.size a) (a b : Fin 128) :
    ix3 (1 : Fin 2) a b ∉ (Rect.unit (s := S2x128x128) ![0, 0, 0] S1x128x128.size inb).set := fun h =>
  absurd (show 1 < 0 + 1 from (Rect.mem_set_unit.mp h 0).2) (by omega)

section Loads
variable {Val : EltTy → Type} [∀ e, Nonempty (Val e)]

/-- A load of plane 0 after the stores `L` reads, at `(0, a, b)`, what they leave at `(0, a, b)`; -/
theorem readCov_plane0 (v : View sig .tc .vmem S2x128x128 .f32) (L : List (View.Piece Val S2x128x128 .f32))
    (inb0 : ∀ a, (![0, 0, 0] : Fin 3 → Nat) a + S1x128x128.size a ≤ S2x128x128.size a) (a b : Fin 128) :
    v.readCov L (Rect.unit (s := S2x128x128) ![0, 0, 0] S1x128x128.size inb0).toLoadRect (ix3 (0 : Fin 1) a b) = View.canon L (ix3 (0 : Fin 2) a b) :=
  (congrFun (View.readCov_eq_canon' v L _) _).trans (congrArg (View.canon L) (emb_plane0 inb0 a b))

/-- a load of plane 1, what they leave at `(1, a, b)`. -/
theorem readCov_plane1 (v : View sig .tc .vmem S2x128x128 .f32) (L : List (View.Piece Val S2x128x128 .f32))
    (inb1 : ∀ a, (![1, 0, 0] : Fin 3 → Nat) a + S1x128x128.size a ≤ S2x128x128.size a) (a b : Fin 128) :
    v.readCov L (Rect.unit (s := S2x128x128) ![1, 0, 0] S1x128x128.size inb1).toLoadRect (ix3 (0 : Fin 1) a b) = View.canon L (ix3 (1 : Fin 2) a b) :=
  (congrFun (View.readCov_eq_canon' v L _) _).trans (congrArg (View.canon L) (emb_plane1 inb1 a b))

end Loads

/-- A load of plane 0 of contents `X`, at `(0, a, b)`: `X` at `(0, a, b)`. -/
theorem ld_plane0 {α : Type} (X : S2x128x128.Idx → α) (inb0 : ∀ a, (![0, 0, 0] : Fin 3 → Nat) a + S1x128x128.size a ≤ S2x128x128.size a) (a b : Fin 128) :
    View.ld (Val := fun _ => α) (e' := .f32) X (Rect.unit (s := S2x128x128) ![0, 0, 0] S1x128x128.size inb0) (ix3 (0 : Fin 1) a b) = X (ix3 (0 : Fin 2) a b) :=
  congrArg X (emb_plane0 inb0 a b)

/-! ## One step's gain on each plane, from the payloads -/

/-- Plane 0 after a step, at `(0, a, b)`: what it held plus the step's partial sum against row 0. -/
theorem acc0_at (x0 x1 : Vec Ideal S128x128 .f32) (x2 : Vec Ideal S1x128 .f32) (x3 : Vec Ideal S2x128 .f32) (x4 : Vec Ideal S1x2 .f32) (v20 : Vec Ideal S1x128x128 .f32) (a b : Fin 128) :
    k1_pay7 (F := Ideal) x0 x1 x2 x3 v20 (ix3 0 a b) = v20 (ix3 0 a b) + ∑ e : Fin 128, Ideal.tanh ((x0 (ix2 a e) + x1 (ix2 b e)) + x2 (ix2 0 e)) * x3 (ix2 0 e) :=
  (pay7_at x0 x1 x2 x3 v20 a b).trans
    (congrArg (v20 (ix3 0 a b) + ·) (Finset.sum_congr rfl fun e _ => congrArg (· * x3 (ix2 0 e)) (pay6_at x0 x1 x2 a b e)))

/-- Plane 1 after a step, at `(0, a, b)`: what it held plus the step's partial sum against row 1. -/
theorem acc1_at (x0 x1 : Vec Ideal S128x128 .f32) (x2 : Vec Ideal S1x128 .f32) (x3 : Vec Ideal S2x128 .f32) (x4 : Vec Ideal S1x2 .f32) (v32 : Vec Ideal S1x128x128 .f32) (a b : Fin 128) :
    k1_pay1 (F := Ideal) (k1_pay6 (F := Ideal) x0 x1 x2) (k1_pay8 (F := Ideal) v32) (k1_pay9 (F := Ideal) x3) (ix3 0 a b)
      = v32 (ix3 0 a b) + ∑ e : Fin 128, Ideal.tanh ((x0 (ix2 a e) + x1 (ix2 b e)) + x2 (ix2 0 e)) * x3 (ix2 1 e) :=
  (pay1_at _ _ _ a b).trans
    (congrArg₂ (· + ·) (pay8_at v32 a b) (Finset.sum_congr rfl fun e _ => congrArg₂ (· * ·) (pay6_at x0 x1 x2 a b e) (pay9_at x3 e)))

/-- The zeros stored over the whole accumulator, loaded back on plane 0 at `(0, a, b)`: `0`. -/
theorem zeroed_plane0 (v : View sig .tc .vmem S2x128x128 .f32)
    (inbW : ∀ a, (![0, 0, 0] : Fin 3 → Nat) a + S2x128x128.size a ≤ S2x128x128.size a)
    (inb0 : ∀ a, (![0, 0, 0] : Fin 3 → Nat) a + S1x128x128.size a ≤ S2x128x128.size a) (a b : Fin 128) :
    v.readCov [(⟨Rect.unit (s := S2x128x128) ![0, 0, 0] S2x128x128.size inbW, k1_pay5 (F := Ideal)⟩ : View.Piece (Elt Ideal) S2x128x128 .f32)]
      (Rect.unit (s := S2x128x128) ![0, 0, 0] S1x128x128.size inb0).toLoadRect (ix3 (0 : Fin 1) a b) = 0 :=
  (readCov_plane0 v _ inb0 a b).trans ((congrFun (View.canon_unit_zero (S := S2x128x128) hz3 inbW _) _).trans (pay5_at _))

/-- The same zeros under a later store to plane 0, loaded back on plane 1 at `(0, a, b)`: `0`. -/
theorem zeroed_plane1 (v : View sig .tc .vmem S2x128x128 .f32)
    (inbW : ∀ a, (![0, 0, 0] : Fin 3 → Nat) a + S2x128x128.size a ≤ S2x128x128.size a)
    (inb0 : ∀ a, (![0, 0, 0] : Fin 3 → Nat) a + S1x128x128.size a ≤ S2x128x128.size a)
    (w0 : (Rect.unit (s := S2x128x128) ![0, 0, 0] S1x128x128.size inb0).shape.Idx → Elt Ideal .f32)
    (inb1 : ∀ a, (![1, 0, 0] : Fin 3 → Nat) a + S1x128x128.size a ≤ S2x128x128.size a) (a b : Fin 128) :
    v.readCov [(⟨Rect.unit (s := S2x128x128) ![0, 0, 0] S1x128x128.size inb0, w0⟩ : View.Piece (Elt Ideal) S2x128x128 .f32),
        ⟨Rect.unit (s := S2x128x128) ![0, 0, 0] S2x128x128.size inbW, k1_pay5 (F := Ideal)⟩]
      (Rect.unit (s := S2x128x128) ![1, 0, 0] S1x128x128.size inb1).toLoadRect (ix3 (0 : Fin 1) a b) = 0 :=
  (readCov_plane1 v _ inb1 a b).trans
    ((View.canon_cons_of_not_mem (⟨Rect.unit (s := S2x128x128) ![0, 0, 0] S1x128x128.size inb0, w0⟩ : View.Piece (Elt Ideal) S2x128x128 .f32) _ (not_mem_plane0 inb0 a b)).trans
      ((congrFun (View.canon_unit_zero (S := S2x128x128) hz3 inbW _) _).trans (pay5_at _)))

/-! ## CASE B: an inner step -/

section B
variable (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i)

theorem sout1_B_0_at0 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    sout1_B_0 (F := Ideal) c i arg3 harg3 arg4 harg4 arg5 harg5 arg6 harg6 arg7 harg7 arg8 harg8 arg9 harg9 hc0 hc1 x0 x1 x2 x3 x4 xs0 (ix3 (0 : Fin 2) a b)
      = xs0 (ix3 (0 : Fin 2) a b) + ∑ e : Fin 128, Ideal.tanh ((x0 (ix2 a e) + x1 (ix2 b e)) + x2 (ix2 0 e)) * x3 (ix2 0 e) := by
  unfold sout1_B_0
  rw [View.read_writes_eq_canon _ _ _ (scover1_B_0 (F := Ideal) c i arg3 harg3 arg4 harg4 arg5 harg5 arg6 harg6 arg7 harg7 arg8 harg8 arg9 harg9 hc0 hc1 x0 x1 x2 x3 x4 xs0)]
  unfold kernelRun1_B
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane0 _ _ _ _ _ a b).trans ?_
  refine (acc0_at x0 x1 x2 x3 x4 _ a b).trans ?_
  exact congrArg (· + ∑ e : Fin 128, Ideal.tanh ((x0 (ix2 a e) + x1 (ix2 b e)) + x2 (ix2 0 e)) * x3 (ix2 0 e)) (congrArg xs0 (emb_plane0 _ a b))

theorem sout1_B_0_at1 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    sout1_B_0 (F := Ideal) c i arg3 harg3 arg4 harg4 arg5 harg5 arg6 harg6 arg7 harg7 arg8 harg8 arg9 harg9 hc0 hc1 x0 x1 x2 x3 x4 xs0 (ix3 (1 : Fin 2) a b)
      = xs0 (ix3 (1 : Fin 2) a b) + ∑ e : Fin 128, Ideal.tanh ((x0 (ix2 a e) + x1 (ix2 b e)) + x2 (ix2 0 e)) * x3 (ix2 1 e) := by
  unfold sout1_B_0
  rw [View.read_writes_eq_canon _ _ _ (scover1_B_0 (F := Ideal) c i arg3 harg3 arg4 harg4 arg5 harg5 arg6 harg6 arg7 harg7 arg8 harg8 arg9 harg9 hc0 hc1 x0 x1 x2 x3 x4 xs0)]
  unfold kernelRun1_B
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane1 _ _ _ a b).trans ?_
  refine (acc1_at x0 x1 x2 x3 x4 _ a b).trans ?_
  exact congrArg (· + ∑ e : Fin 128, Ideal.tanh ((x0 (ix2 a e) + x1 (ix2 b e)) + x2 (ix2 0 e)) * x3 (ix2 1 e)) (congrArg xs0 (emb_plane1 _ a b))

/-- CASE B, the accumulator at `(ch, a, b)`: what it held plus the step's partial sum against row `ch`. -/
theorem sout1_B_0_at (x0 x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128) :
    sout1_B_0 (F := Ideal) c i arg3 harg3 arg4 harg4 arg5 harg5 arg6 harg6 arg7 harg7 arg8 harg8 arg9 harg9 hc0 hc1 x0 x1 x2 x3 x4 xs0 (ix3 ch a b)
      = xs0 (ix3 ch a b) + ∑ e : Fin 128, Ideal.tanh ((x0 (ix2 a e) + x1 (ix2 b e)) + x2 (ix2 0 e)) * x3 (ix2 ch e) :=
  match ch with
  | ⟨0, _⟩ => sout1_B_0_at0 c i arg3 harg3 arg4 harg4 arg5 harg5 arg6 harg6 arg7 harg7 arg8 harg8 arg9 harg9 hc0 hc1 x0 x1 x2 x3 x4 xs0 a b
  | ⟨1, _⟩ => sout1_B_0_at1 c i arg3 harg3 arg4 harg4 arg5 harg5 arg6 harg6 arg7 harg7 arg8 harg8 arg9 harg9 hc0 hc1 x0 x1 x2 x3 x4 xs0 a b

end B

/-! ## CASE C: the last step of a sweep -/

section C
variable (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i)

theorem sout1_C_0_at0 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    sout1_C_0 (F := Ideal) c i arg3 harg3 arg4 harg4 arg5 harg5 arg6 harg6 arg7 harg7 arg8 harg8 arg9 harg9 hc0 hc1 x0 x1 x2 x3 x4 xs0 (ix3 (0 : Fin 2) a b)
      = xs0 (ix3 (0 : Fin 2) a b) + ∑ e : Fin 128, Ideal.tanh ((x0 (ix2 a e) + x1 (ix2 b e)) + x2 (ix2 0 e)) * x3 (ix2 0 e) := by
  unfold sout1_C_0
  rw [View.read_writes_eq_canon _ _ _ (scover1_C_0 (F := Ideal) c i arg3 harg3 arg4 harg4 arg5 harg5 arg6 harg6 arg7 harg7 arg8 harg8 arg9 harg9 hc0 hc1 x0 x1 x2 x3 x4 xs0)]
  unfold kernelRun1_C
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane0 _ _ _ _ _ a b).trans ?_
  refine (acc0_at x0 x1 x2 x3 x4 _ a b).trans ?_
  exact congrArg (· + ∑ e : Fin 128, Ideal.tanh ((x0 (ix2 a e) + x1 (ix2 b e)) + x2 (ix2 0 e)) * x3 (ix2 0 e)) (congrArg xs0 (emb_plane0 _ a b))

theorem sout1_C_0_at1 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    sout1_C_0 (F := Ideal) c i arg3 harg3 arg4 harg4 arg5 harg5 arg6 harg6 arg7 harg7 arg8 harg8 arg9 harg9 hc0 hc1 x0 x1 x2 x3 x4 xs0 (ix3 (1 : Fin 2) a b)
      = xs0 (ix3 (1 : Fin 2) a b) + ∑ e : Fin 128, Ideal.tanh ((x0 (ix2 a e) + x1 (ix2 b e)) + x2 (ix2 0 e)) * x3 (ix2 1 e) := by
  unfold sout1_C_0
  rw [View.read_writes_eq_canon _ _ _ (scover1_C_0 (F := Ideal) c i arg3 harg3 arg4 harg4 arg5 harg5 arg6 harg6 arg7 harg7 arg8 harg8 arg9 harg9 hc0 hc1 x0 x1 x2 x3 x4 xs0)]
  unfold kernelRun1_C
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane1 _ _ _ a b).trans ?_
  refine (acc1_at x0 x1 x2 x3 x4 _ a b).trans ?_
  exact congrArg (· + ∑ e : Fin 128, Ideal.tanh ((x0 (ix2 a e) + x1 (ix2 b e)) + x2 (ix2 0 e)) * x3 (ix2 1 e)) (congrArg xs0 (emb_plane1 _ a b))

/-- CASE C, the accumulator at `(ch, a, b)`: as at an inner step. -/
theorem sout1_C_0_at (x0 x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128) :
    sout1_C_0 (F := Ideal) c i arg3 harg3 arg4 harg4 arg5 harg5 arg6 harg6 arg7 harg7 arg8 harg8 arg9 harg9 hc0 hc1 x0 x1 x2 x3 x4 xs0 (ix3 ch a b)
      = xs0 (ix3 ch a b) + ∑ e : Fin 128, Ideal.tanh ((x0 (ix2 a e) + x1 (ix2 b e)) + x2 (ix2 0 e)) * x3 (ix2 ch e) :=
  match ch with
  | ⟨0, _⟩ => sout1_C_0_at0 c i arg3 harg3 arg4 harg4 arg5 harg5 arg6 harg6 arg7 harg7 arg8 harg8 arg9 harg9 hc0 hc1 x0 x1 x2 x3 x4 xs0 a b
  | ⟨1, _⟩ => sout1_C_0_at1 c i arg3 harg3 arg4 harg4 arg5 harg5 arg6 harg6 arg7 harg7 arg8 harg8 arg9 harg9 hc0 hc1 x0 x1 x2 x3 x4 xs0 a b

theorem out1_C_5_at0 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    out1_C_5 (F := Ideal) c i arg3 harg3 arg4 harg4 arg5 harg5 arg6 harg6 arg7 harg7 arg8 harg8 arg9 harg9 hc0 hc1 x0 x1 x2 x3 x4 xs0 (ix3 (0 : Fin 2) a b)
      = (xs0 (ix3 (0 : Fin 2) a b) + ∑ e : Fin 128, Ideal.tanh ((x0 (ix2 a e) + x1 (ix2 b e)) + x2 (ix2 0 e)) * x3 (ix2 0 e)) + x4 (ix2 0 0) := by
  unfold out1_C_5
  rw [View.read_writes_eq_canon _ _ _ (cover1_C_5 (F := Ideal) c i arg3 harg3 arg4 harg4 arg5 harg5 arg6 harg6 arg7 harg7 arg8 harg8 arg9 harg9 hc0 hc1 x0 x1 x2 x3 x4 xs0)]
  unfold kernelRun1_C
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane0 _ _ _ _ _ a b).trans ?_
  refine (pay_out0_at x4 _ a b).trans ?_
  refine congrArg (· + x4 (ix2 0 0)) ?_
  refine (readCov_plane0 _ _ _ a b).trans ?_
  refine (canon_plane0 _ _ _ _ _ a b).trans ?_
  refine (acc0_at x0 x1 x2 x3 x4 _ a b).trans ?_
  exact congrArg (· + ∑ e : Fin 128, Ideal.tanh ((x0 (ix2 a e) + x1 (ix2 b e)) + x2 (ix2 0 e)) * x3 (ix2 0 e)) (congrArg xs0 (emb_plane0 _ a b))

theorem out1_C_5_at1 (x0 x1 : Vec Ideal S128x128 .f32) (x2 : Vec Ideal S1x128 .f32) (x3 : Vec Ideal S2x128 .f32) (x4 : Vec Ideal S1x2 .f32) (xs0 : Vec Ideal S2x128x128 .f32) (a b : Fin 128) :
    out1_C_5 (F := Ideal) c i arg3 harg3 arg4 harg4 arg5 harg5 arg6 harg6 arg7 harg7 arg8 harg8 arg9 harg9 hc0 hc1 x0 x1 x2 x3 x4 xs0 (ix3 (1 : Fin 2) a b)
      = (xs0 (ix3 (1 : Fin 2) a b) + ∑ e : Fin 128, Ideal.tanh ((x0 (ix2 a e) + x1 (ix2 b e)) + x2 (ix2 0 e)) * x3 (ix2 1 e)) + x4 (ix2 0 1) := by
  unfold out1_C_5
  rw [View.read_writes_eq_canon _ _ _ (cover1_C_5 (F := Ideal) c i arg3 harg3 arg4 harg4 arg5 harg5 arg6 harg6 arg7 harg7 arg8 harg8 arg9 harg9 hc0 hc1 x0 x1 x2 x3 x4 xs0)]
  unfold kernelRun1_C
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane1 _ _ _ a b).trans ?_
  refine (pay_out1_at x4 _ a b).trans ?_
  refine congrArg (· + x4 (ix2 0 1)) ?_
  refine (readCov_plane1 _ _ _ a b).trans ?_
  refine (canon_plane1 _ _ _ a b).trans ?_
  refine (acc1_at x0 x1 x2 x3 x4 _ a b).trans ?_
  exact congrArg (· + ∑ e : Fin 128, Ideal.tanh ((x0 (ix2 a e) + x1 (ix2 b e)) + x2 (ix2 0 e)) * x3 (ix2 1 e)) (congrArg xs0 (emb_plane1 _ a b))

/-- CASE C, the output block at `(ch, a, b)`: the accumulated plane plus entry `ch` of the bias row. -/
theorem out1_C_5_at (x0 x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128) :
    out1_C_5 (F := Ideal) c i arg3 harg3 arg4 harg4 arg5 harg5 arg6 harg6 arg7 harg7 arg8 harg8 arg9 harg9 hc0 hc1 x0 x1 x2 x3 x4 xs0 (ix3 ch a b)
      = (xs0 (ix3 ch a b) + ∑ e : Fin 128, Ideal.tanh ((x0 (ix2 a e) + x1 (ix2 b e)) + x2 (ix2 0 e)) * x3 (ix2 ch e)) + x4 (ix2 0 ch) :=
  match ch with
  | ⟨0, _⟩ => out1_C_5_at0 c i arg3 harg3 arg4 harg4 arg5 harg5 arg6 harg6 arg7 harg7 arg8 harg8 arg9 harg9 hc0 hc1 x0 x1 x2 x3 x4 xs0 a b
  | ⟨1, _⟩ => out1_C_5_at1 c i arg3 harg3 arg4 harg4 arg5 harg5 arg6 harg6 arg7 harg7 arg8 harg8 arg9 harg9 hc0 hc1 x0 x1 x2 x3 x4 xs0 a b

end C

/-! ## CASE A: the first step of a sweep -/

section A
variable (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i)

theorem sout1_A_0_at0 (x0 x1 : Vec Ideal S128x128 .f32) (x2 : Vec Ideal S1x128 .f32) (x3 : Vec Ideal S2x128 .f32) (x4 : Vec Ideal S1x2 .f32) (a b : Fin 128) :
    sout1_A_0 (F := Ideal) c i arg3 harg3 arg4 harg4 arg5 harg5 arg6 harg6 arg7 harg7 arg8 harg8 arg9 harg9 hc0 hc1 x0 x1 x2 x3 x4 (ix3 (0 : Fin 2) a b)
      = 0 + ∑ e : Fin 128, Ideal.tanh ((x0 (ix2 a e) + x1 (ix2 b e)) + x2 (ix2 0 e)) * x3 (ix2 0 e) := by
  unfold sout1_A_0
  rw [View.read_writes_eq_canon _ _ _ (scover1_A_0 (F := Ideal) c i arg3 harg3 arg4 harg4 arg5 harg5 arg6 harg6 arg7 harg7 arg8 harg8 arg9 harg9 hc0 hc1 x0 x1 x2 x3 x4)]
  unfold kernelRun1_A
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane0 _ _ _ _ _ a b).trans ?_
  refine (acc0_at x0 x1 x2 x3 x4 _ a b).trans ?_
  exact congrArg (· + ∑ e : Fin 128, Ideal.tanh ((x0 (ix2 a e) + x1 (ix2 b e)) + x2 (ix2 0 e)) * x3 (ix2 0 e)) (zeroed_plane0 _ _ _ a b)

theorem sout1_A_0_at1 (x0 x1 : Vec Ideal S128x128 .f32) (x2 : Vec Ideal S1x128 .f32) (x3 : Vec Ideal S2x128 .f32) (x4 : Vec Ideal S1x2 .f32) (a b : Fin 128) :
    sout1_A_0 (F := Ideal) c i arg3 harg3 arg4 harg4 arg5 harg5 arg6 harg6 arg7 harg7 arg8 harg8 arg9 harg9 hc0 hc1 x0 x1 x2 x3 x4 (ix3 (1 : Fin 2) a b)
      = 0 + ∑ e : Fin 128, Ideal.tanh ((x0 (ix2 a e) + x1 (ix2 b e)) + x2 (ix2 0 e)) * x3 (ix2 1 e) := by
  unfold sout1_A_0
  rw [View.read_writes_eq_canon _ _ _ (scover1_A_0 (F := Ideal) c i arg3 harg3 arg4 harg4 arg5 harg5 arg6 harg6 arg7 harg7 arg8 harg8 arg9 harg9 hc0 hc1 x0 x1 x2 x3 x4)]
  unfold kernelRun1_A
  dsimp only
  sl_unfold_words
  simp only [View.readAt_eq_ld, harg3.read_unread, harg4.read_unread, harg5.read_unread, harg6.read_unread, harg7.read_unread, harg9.read_unread,
    View.ld_unit_zero (S := S128x128) hz2, View.ld_unit_zero (S := S1x128) hz2, View.ld_unit_zero (S := S2x128) hz2, View.ld_unit_zero (S := S1x2) hz2]
  refine (canon_plane1 _ _ _ a b).trans ?_
  refine (acc1_at x0 x1 x2 x3 x4 _ a b).trans ?_
  exact congrArg (· + ∑ e : Fin 128, Ideal.tanh ((x0 (ix2 a e) + x1 (ix2 b e)) + x2 (ix2 0 e)) * x3 (ix2 1 e)) (zeroed_plane1 _ _ _ _ _ a b)

/-- CASE A, the accumulator at `(ch, a, b)`: the step's partial sum against row `ch`, over zero. -/
theorem sout1_A_0_at (x0 x1 : Vec Ideal S128x128 .f32) (x2 : Vec Ideal S1x128 .f32) (x3 : Vec Ideal S2x128 .f32) (x4 : Vec Ideal S1x2 .f32) (ch : Fin 2) (a b : Fin 128) :
    sout1_A_0 (F := Ideal) c i arg3 harg3 arg4 harg4 arg5 harg5 arg6 harg6 arg7 harg7 arg8 harg8 arg9 harg9 hc0 hc1 x0 x1 x2 x3 x4 (ix3 ch a b)
      = 0 + ∑ e : Fin 128, Ideal.tanh ((x0 (ix2 a e) + x1 (ix2 b e)) + x2 (ix2 0 e)) * x3 (ix2 ch e) :=
  match ch with
  | ⟨0, _⟩ => sout1_A_0_at0 c i arg3 harg3 arg4 harg4 arg5 harg5 arg6 harg6 arg7 harg7 arg8 harg8 arg9 harg9 hc0 hc1 x0 x1 x2 x3 x4 a b
  | ⟨1, _⟩ => sout1_A_0_at1 c i arg3 harg3 arg4 harg4 arg5 harg5 arg6 harg6 arg7 harg7 arg8 harg8 arg9 harg9 hc0 hc1 x0 x1 x2 x3 x4 a b

end A

end Cert.KernelIdeal.Val

end
-- ==== Proof.Val1.lean ====
/-
  Region 1's value. At a grid point t = 24·i + 6·j + k the kernel sees rows 128·i… of the left projection,
  rows 128·j… of the right one, and columns 128·k… of both, of the bias row and of the classifier weights. One step adds
  to each accumulator entry (class, a, b) the partial sum over the point's 128 features of tanh((left + right) + bias)
  times the class's weight; the first step of a sweep starts from zero. So after the sixth step the accumulator holds the
  sum of the sweep's six partial sums, and the output block stored there is that plus the class's second bias.
-/
import proofs.«130630_j61950608278169_1_alg».proof.Proof.KernelIdeal.Frame
import proofs.«130630_j61950608278169_1_alg».proof.Proof.AccLaw
import proofs.«130630_j61950608278169_1_alg».proof.Proof.Val1Defs
import proofs.«130630_j61950608278169_1_alg».proof.Proof.Val1Cover
import proofs.«130630_j61950608278169_1_alg».proof.Proof.Val1Pieces
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

/-- What each control case leaves in the accumulator and in the output block, entry by entry. -/
structure Pieces : Prop where
  first : ∀ (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : cond1_0 i) (hc1 : ¬cond1_1 i) (x0 : Vec Ideal S128x128 .f32) (x1 : Vec Ideal S128x128 .f32) (x2 : Vec Ideal S1x128 .f32) (x3 : Vec Ideal S2x128 .f32) (x4 : Vec Ideal S1x2 .f32) (ch : Fin 2) (a b : Fin 128),
    sout1_A_0 (F := Ideal) c i arg3 harg3 arg4 harg4 arg5 harg5 arg6 harg6 arg7 harg7 arg8 harg8 arg9 harg9 hc0 hc1 x0 x1 x2 x3 x4 (ix3 ch a b) = 0 + stepSum x0 x1 x2 x3 ch a b
  inner : ∀ (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : ¬cond1_1 i) (x0 : Vec Ideal S128x128 .f32) (x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128),
    sout1_B_0 (F := Ideal) c i arg3 harg3 arg4 harg4 arg5 harg5 arg6 harg6 arg7 harg7 arg8 harg8 arg9 harg9 hc0 hc1 x0 x1 x2 x3 x4 xs0 (ix3 ch a b) = xs0 (ix3 ch a b) + stepSum x0 x1 x2 x3 ch a b
  last : ∀ (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i) (x0 : Vec Ideal S128x128 .f32) (x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128),
    sout1_C_0 (F := Ideal) c i arg3 harg3 arg4 harg4 arg5 harg5 arg6 harg6 arg7 harg7 arg8 harg8 arg9 harg9 hc0 hc1 x0 x1 x2 x3 x4 xs0 (ix3 ch a b) = xs0 (ix3 ch a b) + stepSum x0 x1 x2 x3 ch a b
  out : ∀ (c : Dev nD) (i : grid1.Coords) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S2x128 .f32) (harg6 : arg6.IsWhole) (arg7 : Memref sig .tc .vmem S1x2 .f32) (harg7 : arg7.IsWhole) (arg8 : Memref sig .tc .vmem S2x128x128 .f32) (harg8 : arg8.IsWhole) (arg9 : Memref sig .tc .vmem S2x128x128 .f32) (harg9 : arg9.IsWhole) (hc0 : ¬cond1_0 i) (hc1 : cond1_1 i) (x0 : Vec Ideal S128x128 .f32) (x1 : Vec Ideal S128x128 .f32) (x2 : Vec Ideal S1x128 .f32) (x3 : Vec Ideal S2x128 .f32) (x4 : Vec Ideal S1x2 .f32) (xs0 : Vec Ideal S2x128x128 .f32) (ch : Fin 2) (a b : Fin 128),
    out1_C_5 (F := Ideal) c i arg3 harg3 arg4 harg4 arg5 harg5 arg6 harg6 arg7 harg7 arg8 harg8 arg9 harg9 hc0 hc1 x0 x1 x2 x3 x4 xs0 (ix3 ch a b) = (xs0 (ix3 ch a b) + stepSum x0 x1 x2 x3 ch a b) + x4 (ix2 0 ch)

/-! ## Where each window's block sits, decided over the 96 points -/

theorem idx1 : ∀ t : Fin cfg1.N,
      win1_0.index t (0 : Fin 2) = t.val / 24 ∧ win1_0.index t (1 : Fin 2) = t.val % 6
    ∧ win1_1.index t (0 : Fin 2) = (t.val / 6) % 4 ∧ win1_1.index t (1 : Fin 2) = t.val % 6
    ∧ win1_2.index t (0 : Fin 2) = 0 ∧ win1_2.index t (1 : Fin 2) = t.val % 6
    ∧ win1_3.index t (0 : Fin 2) = 0 ∧ win1_3.index t (1 : Fin 2) = t.val % 6
    ∧ win1_4.index t (0 : Fin 2) = 0 ∧ win1_4.index t (1 : Fin 2) = 0
    ∧ win1_5.index t (0 : Fin 3) = 0 ∧ win1_5.index t (1 : Fin 3) = t.val / 24 ∧ win1_5.index t (2 : Fin 3) = (t.val / 6) % 4 :=
  (by decide +kernel : ∀ t : Fin grid1.N, _)

variable (V : Entry Ideal) (c : Dev nD)

/-! ## Each input block as entries of its array -/

theorem lft_blk (t : Fin cfg1.N) (x : S128x128.Idx) (k : S512x768.Idx)
    (hk0 : (k 0).val = 128 * (t.val / 24) + (x 0).val) (hk1 : (k 1).val = 128 * (t.val % 6) + (x 1).val) :
    (iblk1 V c 0 t : Vec Ideal S128x128 .f32) x = (V c main_v4_0 : S512x768.Idx → EReal) k := by
  obtain ⟨h0, h1, -⟩ := idx1 t
  unfold iblk1
  rw [View.read_apply]
  show V c main_v4_0 _ = V c main_v4_0 _
  refine congrArg _ ?_
  funext ax; apply Fin.ext
  match ax with
  | ⟨0, _⟩ => show win1_0.index t 0 * 128 + 1 * (x 0).val = (k 0).val; rw [h0, hk0]; omega
  | ⟨1, _⟩ => show win1_0.index t 1 * 128 + 1 * (x 1).val = (k 1).val; rw [h1, hk1]; omega

theorem rgt_blk (t : Fin cfg1.N) (x : S128x128.Idx) (k : S512x768.Idx)
    (hk0 : (k 0).val = 128 * ((t.val / 6) % 4) + (x 0).val) (hk1 : (k 1).val = 128 * (t.val % 6) + (x 1).val) :
    (iblk1 V c 1 t : Vec Ideal S128x128 .f32) x = (V c main_v4_1 : S512x768.Idx → EReal) k := by
  obtain ⟨-, -, h0, h1, -⟩ := idx1 t
  unfold iblk1
  rw [View.read_apply]
  show V c main_v4_1 _ = V c main_v4_1 _
  refine congrArg _ ?_
  funext ax; apply Fin.ext
  match ax with
  | ⟨0, _⟩ => show win1_1.index t 0 * 128 + 1 * (x 0).val = (k 0).val; rw [h0, hk0]; omega
  | ⟨1, _⟩ => show win1_1.index t 1 * 128 + 1 * (x 1).val = (k 1).val; rw [h1, hk1]; omega

theorem b1_blk (t : Fin cfg1.N) (x : S1x128.Idx) (k : S1x768.Idx)
    (hk0 : (k 0).val = (x 0).val) (hk1 : (k 1).val = 128 * (t.val % 6) + (x 1).val) :
    (iblk1 V c 2 t : Vec Ideal S1x128 .f32) x = (V c main_v5 : S1x768.Idx → EReal) k := by
  obtain ⟨-, -, -, -, h0, h1, -⟩ := idx1 t
  unfold iblk1
  rw [View.read_apply]
  show V c main_v5 _ = V c main_v5 _
  refine congrArg _ ?_
  funext ax; apply Fin.ext
  match ax with
  | ⟨0, _⟩ => show win1_2.index t 0 * 1 + 1 * (x 0).val = (k 0).val; rw [h0, hk0]; omega
  | ⟨1, _⟩ => show win1_2.index t 1 * 128 + 1 * (x 1).val = (k 1).val; rw [h1, hk1]; omega

theorem w2_blk (t : Fin cfg1.N) (x : S2x128.Idx) (k : S2x768.Idx)
    (hk0 : (k 0).val = (x 0).val) (hk1 : (k 1).val = 128 * (t.val % 6) + (x 1).val) :
    (iblk1 V c 3 t : Vec Ideal S2x128 .f32) x = (V c main_arg3 : S2x768.Idx → EReal) k := by
  obtain ⟨-, -, -, -, -, -, h0, h1, -⟩ := idx1 t
  unfold iblk1
  rw [View.read_apply]
  show V c main_arg3 _ = V c main_arg3 _
  refine congrArg _ ?_
  funext ax; apply Fin.ext
  match ax with
  | ⟨0, _⟩ => show win1_3.index t 0 * 2 + 1 * (x 0).val = (k 0).val; rw [h0, hk0]; omega
  | ⟨1, _⟩ => show win1_3.index t 1 * 128 + 1 * (x 1).val = (k 1).val; rw [h1, hk1]; omega

theorem b2_blk (t : Fin cfg1.N) (x : S1x2.Idx) (k : S1x2.Idx)
    (hk0 : (k 0).val = (x 0).val) (hk1 : (k 1).val = (x 1).val) :
    (iblk1 V c 4 t : Vec Ideal S1x2 .f32) x = (V c main_v6 : S1x2.Idx → EReal) k := by
  obtain ⟨-, -, -, -, -, -, -, -, h0, h1, -⟩ := idx1 t
  unfold iblk1
  rw [View.read_apply]
  show V c main_v6 _ = V c main_v6 _
  refine congrArg _ ?_
  funext ax; apply Fin.ext
  match ax with
  | ⟨0, _⟩ => show win1_4.index t 0 * 1 + 1 * (x 0).val = (k 0).val; rw [h0, hk0]; omega
  | ⟨1, _⟩ => show win1_4.index t 1 * 2 + 1 * (x 1).val = (k 1).val; rw [h1, hk1]; omega

/-! ## The accumulator entry, position by position -/

/-- The accumulator entry (ch, a, b) after position n (zero past the grid). -/
def accSeq (ch : Fin 2) (a b : Fin 128) (n : ℕ) : EReal :=
  if h : n < cfg1.N then ((outsAt1 (F := Ideal) V c n h).2 : S2x128x128.Idx → EReal) (ix3 ch a b) else 0
/-- Position n's partial sum for that entry. -/
def stepSeq (ch : Fin 2) (a b : Fin 128) (n : ℕ) : EReal :=
  if h : n < cfg1.N then stepSum (iblk1 V c 0 ⟨n, h⟩) (iblk1 V c 1 ⟨n, h⟩) (iblk1 V c 2 ⟨n, h⟩) (iblk1 V c 3 ⟨n, h⟩) ch a b else 0

/-- At the first position of a sweep the accumulator is zero plus the position's partial sum. -/
theorem acc_first (hp : Pieces) (ch : Fin 2) (a b : Fin 128) (n : ℕ) (h : n < cfg1.N) (h0 : n % 6 = 0) :
    accSeq V c ch a b n = 0 + stepSeq V c ch a b n := by
  unfold accSeq stepSeq
  rw [dif_pos h, dif_pos h]
  have e := outsAt1_A V c ⟨n, h⟩ h0 (by show ¬ n % 6 = 5; omega)
  refine (congrArg (fun p => (p.2 : S2x128x128.Idx → EReal) (ix3 ch a b)) e).trans ?_
  dsimp only
  exact hp.first _ _ _ _ _ _ _ _ _ _ _ _ _ _ _ _ _ _ _ _ _ _ _ ch a b

/-- At every later position it is what the position before left plus the position's partial sum. -/
theorem acc_next (hp : Pieces) (ch : Fin 2) (a b : Fin 128) (n : ℕ) (h : n < cfg1.N) (h0 : ¬ n % 6 = 0) :
    accSeq V c ch a b n = accSeq V c ch a b (n - 1) + stepSeq V c ch a b n := by
  have h' : n - 1 < cfg1.N := Nat.lt_of_le_of_lt (Nat.sub_le _ _) h
  unfold accSeq stepSeq
  rw [dif_pos h, dif_pos h, dif_pos h']
  by_cases h5 : n % 6 = 5
  · have e := outsAt1_C V c ⟨n, h⟩ h0 h5
    refine (congrArg (fun p => (p.2 : S2x128x128.Idx → EReal) (ix3 ch a b)) e).trans ?_
    dsimp only
    exact hp.last _ _ _ _ _ _ _ _ _ _ _ _ _ _ _ _ _ _ _ _ _ _ _ _ ch a b
  · have e := outsAt1_B V c ⟨n, h⟩ h0 h5
    refine (congrArg (fun p => (p.2 : S2x128x128.Idx → EReal) (ix3 ch a b)) e).trans ?_
    dsimp only
    exact hp.inner _ _ _ _ _ _ _ _ _ _ _ _ _ _ _ _ _ _ _ _ _ _ _ _ ch a b

/-- After the sixth position of sweep q the accumulator entry is the sum of the sweep's six partial sums. -/
theorem acc_sweep (hp : Pieces) (ch : Fin 2) (a b : Fin 128) (q : ℕ) (hq : q < 16) :
    accSeq V c ch a b (6 * q + 5) = ∑ k : Fin 6, stepSeq V c ch a b (6 * q + k.val) :=
  Cert.PairSpec.fold_six (accSeq V c ch a b) (stepSeq V c ch a b) q
    (acc_first V c hp ch a b (6 * q) (by rw [show cfg1.N = 96 from N_1]; omega) (by omega))
    (fun k hk1 hk5 => acc_next V c hp ch a b (6 * q + k) (by rw [show cfg1.N = 96 from N_1]; omega) (by omega))

/-- At the last position of a sweep the output block's entry is the accumulator's plus the class's second bias. -/
theorem out_flush (hp : Pieces) (ch : Fin 2) (a b : Fin 128) (t : Fin cfg1.N) (h5 : t.val % 6 = 5) :
    ((outsAt1 (F := Ideal) V c t.val t.isLt).1 : S2x128x128.Idx → EReal) (ix3 ch a b)
      = accSeq V c ch a b t.val + (iblk1 V c 4 t : S1x2.Idx → EReal) (ix2 0 ch) := by
  have h0 : ¬ t.val % 6 = 0 := by omega
  have e := outsAt1_C V c t h0 h5
  refine (congrArg (fun p => (p.1 : S2x128x128.Idx → EReal) (ix3 ch a b)) e).trans ?_
  dsimp only
  refine (hp.out _ _ _ _ _ _ _ _ _ _ _ _ _ _ _ _ _ _ _ _ _ _ _ _ ch a b).trans ?_
  rw [acc_next V c hp ch a b t.val t.isLt h0]
  unfold accSeq stepSeq
  rw [dif_pos (Nat.lt_of_le_of_lt (Nat.sub_le _ _) t.isLt), dif_pos t.isLt]

/-! ## What a write-back point writes, and the array after the run -/

/-- The whole output array as one function of region 1's five arrays as the region finds them. -/
def Out1 : S2x512x512.Idx → EReal := out1 (V c main_v4_0) (V c main_v4_1) (V c main_v5) (V c main_arg3) (V c main_v6)

set_option maxHeartbeats 1000000 in
/-- What the last point of a sweep writes back is its block of the whole-array function. -/
theorem flushed_eq5 (hp : Pieces) (t : Fin cfg1.N) (hf : (cfg1.win 5).flush t = true) :
    (dat1 (F := Ideal) V c).flushed 5 t = ((cfg1.win 5).blk t).view.read (Elt Ideal) (Out1 V c) := by
  have h5 : t.val % 6 = 5 := (flush1_5 t).mp hf
  have hN : cfg1.N = 96 := N_1
  have htlt : t.val < 96 := hN ▸ t.isLt
  show (cfg1.win 5).cut (grid1.coords t) ((dat1 V c).after 5 t) = _
  rw [after1_5]
  funext y
  obtain ⟨ch, a, b, rfl⟩ : ∃ (ch : Fin 2) (a b : Fin 128), y = ix3 ch a b := ⟨y 0, y 1, y 2, eq_ix3 y⟩
  have hI : 128 * (t.val / 24) + a.val < 512 := by omega
  have hJ : 128 * ((t.val / 6) % 4) + b.val < 512 := by omega
  rw [View.read_apply, emb5 t ch a b ⟨_, hI⟩ ⟨_, hJ⟩ rfl rfl]
  show ((outsAt1 (F := Ideal) V c t.val t.isLt).1 : S2x128x128.Idx → EReal) (ix3 ch a b) = outAt _ _ _ _ _ ch ⟨_, hI⟩ ⟨_, hJ⟩
  rw [out_flush V c hp ch a b t h5]
  obtain ⟨q, hq⟩ : ∃ q, t.val = 6 * q + 5 := ⟨t.val / 6, by omega⟩
  have hacc : accSeq V c ch a b t.val = ∑ k : Fin 6, stepSeq V c ch a b (6 * q + k.val) := by
    rw [hq]; exact acc_sweep V c hp ch a b q (by omega)
  rw [hacc]
  unfold outAt
  congr 1
  · refine Finset.sum_congr rfl fun k _ => ?_
    have hk : 6 * q + k.val < cfg1.N := by rw [hN]; omega
    unfold stepSeq
    rw [dif_pos hk]
    unfold stepSum
    refine Finset.sum_congr rfl fun e _ => ?_
    unfold outTerm
    have hd : 128 * k.val + e.val < 768 := by omega
    rw [lft_blk V c ⟨6 * q + k.val, hk⟩ (ix2 a e) (ix2 ⟨_, hI⟩ ⟨_, hd⟩) (by show 128 * (t.val / 24) + a.val = 128 * ((6 * q + k.val) / 24) + a.val; omega) (by show 128 * k.val + e.val = 128 * ((6 * q + k.val) % 6) + e.val; omega),
      rgt_blk V c ⟨6 * q + k.val, hk⟩ (ix2 b e) (ix2 ⟨_, hJ⟩ ⟨_, hd⟩) (by show 128 * ((t.val / 6) % 4) + b.val = 128 * (((6 * q + k.val) / 6) % 4) + b.val; omega) (by show 128 * k.val + e.val = 128 * ((6 * q + k.val) % 6) + e.val; omega),
      b1_blk V c ⟨6 * q + k.val, hk⟩ (ix2 0 e) (ix2 0 ⟨_, hd⟩) rfl (by show 128 * k.val + e.val = 128 * ((6 * q + k.val) % 6) + e.val; omega),
      w2_blk V c ⟨6 * q + k.val, hk⟩ (ix2 ch e) (ix2 ch ⟨_, hd⟩) rfl (by show 128 * k.val + e.val = 128 * ((6 * q + k.val) % 6) + e.val; omega)]
  · exact b2_blk V c t (ix2 0 ch) (ix2 0 ch) rfl rfl

/-- The output array after the run: the whole-array function (the sixteen write-back points' blocks tile it). -/
theorem final5 (hp : Pieces) : (dat1 (F := Ideal) V c).arrAt 5 cfg1.N = Out1 V c :=
  (dat1 (F := Ideal) V c).arrAt_eq_of_cover 5 (Out1 V c) (fun t hf => flushed_eq5 V c hp t hf) cover5

/-- Entry (class, i, j) of the output array after the run. -/
theorem out1_at (hp : Pieces) (ch : Fin 2) (i j : Fin 512) :
    (dat1 (F := Ideal) V c).arrAt 5 cfg1.N (ix3 ch i j) = outAt (V c main_v4_0) (V c main_v4_1) (V c main_v5) (V c main_arg3) (V c main_v6) ch i j :=
  congrFun (final5 V c hp) (ix3 ch i j)

/-- The four pieces, as the runs found them. -/
theorem pieces : Pieces :=
  ⟨fun c i arg3 harg3 arg4 harg4 arg5 harg5 arg6 harg6 arg7 harg7 arg8 harg8 arg9 harg9 hc0 hc1 x0 x1 x2 x3 x4 ch a b => sout1_A_0_at c i arg3 harg3 arg4 harg4 arg5 harg5 arg6 harg6 arg7 harg7 arg8 harg8 arg9 harg9 hc0 hc1 x0 x1 x2 x3 x4 ch a b,
   fun c i arg3 harg3 arg4 harg4 arg5 harg5 arg6 harg6 arg7 harg7 arg8 harg8 arg9 harg9 hc0 hc1 x0 x1 x2 x3 x4 xs0 ch a b => sout1_B_0_at c i arg3 harg3 arg4 harg4 arg5 harg5 arg6 harg6 arg7 harg7 arg8 harg8 arg9 harg9 hc0 hc1 x0 x1 x2 x3 x4 xs0 ch a b,
   fun c i arg3 harg3 arg4 harg4 arg5 harg5 arg6 harg6 arg7 harg7 arg8 harg8 arg9 harg9 hc0 hc1 x0 x1 x2 x3 x4 xs0 ch a b => sout1_C_0_at c i arg3 harg3 arg4 harg4 arg5 harg5 arg6 harg6 arg7 harg7 arg8 harg8 arg9 harg9 hc0 hc1 x0 x1 x2 x3 x4 xs0 ch a b,
   fun c i arg3 harg3 arg4 harg4 arg5 harg5 arg6 harg6 arg7 harg7 arg8 harg8 arg9 harg9 hc0 hc1 x0 x1 x2 x3 x4 xs0 ch a b => out1_C_5_at c i arg3 harg3 arg4 harg4 arg5 harg5 arg6 harg6 arg7 harg7 arg8 harg8 arg9 harg9 hc0 hc1 x0 x1 x2 x3 x4 xs0 ch a b⟩

end Cert.KernelIdeal.Val

end
-- ==== Proof.KernelIsG.lean ====
/-
  The program's result is the pairwise two-layer map `G` of its five argument arrays, on the extended reals.

  The result buffer is the transpose (permutation `[1, 2, 0]`) of the array the second region leaves: its entry
  `(i, j, c)` is that array's entry `(c, i, j)`. That entry is the sum over the six feature blocks of the blocks' sums of
  `tanh ((L[i, d] + R[j, d]) + b1row[0, d]) · W2[c, d]`, plus `b2row[0, c]`, where `L` and `R` are the two arrays the first
  region leaves, `b1row` and `b2row` the two biases recast as one-row matrices between the regions, and `W2` the second
  layer as launched. The first region's arrays are the rows `p` against the two transposed cuts of the first layer: at
  `(r, d)` the sums `Σ_k p[r, k] · W1[d, k]` and `Σ_k p[r, k] · W1[d, 768 + k]`, the left and right projections. A sum
  over six blocks of 128 features is the sum over the 768 features (a re-indexing, valid for any summands), and what is
  left is the definition of `G`. No finiteness of any entry is used.
-/
import proofs.«130630_j61950608278169_1_alg».proof.Proof.KernelIdeal.Frame
import proofs.«130630_j61950608278169_1_alg».proof.Proof.KernelIdeal.RunValue
import proofs.«130630_j61950608278169_1_alg».proof.Proof.Spec
import proofs.«130630_j61950608278169_1_alg».proof.Proof.HostAt
import proofs.«130630_j61950608278169_1_alg».proof.Proof.Val0
import proofs.«130630_j61950608278169_1_alg».proof.Proof.Val1Defs
import proofs.«130630_j61950608278169_1_alg».proof.Proof.Val1

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat)

/-- The two regions' proof data as functions of the entry contents. -/
abbrev D0 : Cert.KernelIdeal.Fr.Entry Ideal → (c : Dev nD) → Dat τ (Elt Ideal) Unit ℕ (UR sig nD τ) ℕ cfg0 c :=
  fun V c => dat0 V c
abbrev D1 : Cert.KernelIdeal.Fr.Entry Ideal → (c : Dev nD) → Dat τ (Elt Ideal) Unit ℕ (UR sig nD τ) ℕ cfg1 c :=
  fun V c => dat1 V c

variable (m : (ℓ : Loc nD τ sig) → Buf (Elt Ideal) ℓ) (ρ : Dev nD → PrngReg) (c : Dev nD)

/-- The first region's first output array at `(i, d)` is the left projection of row `i` at feature `d`: the rows are
    the launched ones, and the matrix at `(k, d)` is the first layer at `(d, k)`. -/
theorem left_entry (i : Fin 512) (d : Fin 768) :
    (dat0 (F := Ideal) (E1 m ρ) c).arrAt 3 cfg0.N (ix2 i d)
      = Cert.PairSpec.projL (m ((c : Thread nD τ).loc main_arg0)) (m ((c : Thread nD τ).loc main_arg1)) i d := by
  rw [left_at, E1_main_arg0, E1_main_v1, prodAt_def]
  unfold Cert.PairSpec.projL
  refine Finset.sum_congr (M := EReal) rfl fun k _ => ?_
  rw [Cert.KernelIdeal.HostAt.wl_at]

/-- The first region's second output array at `(j, d)` is the right projection: the matrix at `(k, d)` is the first
    layer at `(d, 768 + k)`. -/
theorem right_entry (j : Fin 512) (d : Fin 768) :
    (dat0 (F := Ideal) (E1 m ρ) c).arrAt 4 cfg0.N (ix2 j d)
      = Cert.PairSpec.projR (m ((c : Thread nD τ).loc main_arg0)) (m ((c : Thread nD τ).loc main_arg1)) j d := by
  rw [right_at, E1_main_arg0, E1_main_v3, prodAt_def]
  unfold Cert.PairSpec.projR
  refine Finset.sum_congr (M := EReal) rfl fun k _ => ?_
  rw [Cert.KernelIdeal.HostAt.wr_at]

/-- THE PROGRAM'S RESULT IS `G`. -/
theorem kernel_is_G :
    W5 D0 D1 m ρ c (Proc.devRef .tc main_v8)
      = Cert.PairSpec.G (m ((c : Thread nD τ).loc main_arg0)) (m ((c : Thread nD τ).loc main_arg1)) (m ((c : Thread nD τ).loc main_arg2)) (m ((c : Thread nD τ).loc main_arg3)) (m ((c : Thread nD τ).loc main_arg4)) := by
  refine funext fun (o : S512x512x2.Idx) => ?_
  obtain ⟨i, j, ch, rfl⟩ : ∃ (i j : Fin 512) (ch : Fin 2), o = ix3 i j ch := ⟨o 0, o 1, o 2, eq_ix3 o⟩
  rw [W5_main_v8, Cert.KernelIdeal.HostAt.out_at, out1_at _ _ pieces, Cert.PairSpec.G_ix3]
  rw [E3_main_v4_0, E3_main_v4_1, E3_main_v5, E3_main_arg3, E3_main_v6, outAt_def]
  unfold Cert.PairSpec.Gat
  refine congrArg₂ (· + ·) ?_ (Cert.KernelIdeal.HostAt.b2row_at _ ch)
  rw [Cert.PairSpec.sum_blocks]
  refine Finset.sum_congr rfl fun k _ => Finset.sum_congr rfl fun e _ => ?_
  unfold Cert.PairSpec.term
  rw [left_entry, right_entry, Cert.KernelIdeal.HostAt.b1row_at]

end Cert.KernelIdeal.Val

end
-- ==== Proof.RefIsG.lean ====
/-
  The reference program computes the pairwise two-layer map `G`, read index by index.

  The program slices the first layer `W1 : [768, 1536]` into its first and its last 768 columns, transposes each
  slice, and contracts the rows `p : [512, 768]` against them: the two results are the LEFT and RIGHT projections
  `L[i, d] = Σ_k p[i, k] · W1[d, k]` and `R[j, d] = Σ_k p[j, k] · W1[d, 768 + k]` (a transposed slice read at `(k, d)`
  is the matrix read at `(d, k)`, resp. `(d, 768 + k)`). It then broadcasts `L` along the second axis and `R` along
  the first to `[512, 512, 768]`, adds them, adds the bias `b1` broadcast along the first two axes, takes `tanh`,
  contracts the last axis against `W2 : [2, 768]`, and adds `b2` broadcast along the first two axes. Every stage
  depends at an index on one element of each operand (or on one sum), so reading the stages from the last to the
  first at `(i, j, c)` gives exactly `(Σ_d tanh ((L[i,d] + R[j,d]) + b1[d]) · W2[c,d]) + b2[c]`, with the same
  association and order of factors as in `G`: no algebraic law is used.
-/
import proofs.«130630_j61950608278169_1_alg».proof.Proof.Spec
import proofs.«130630_j61950608278169_1_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

variable (a0 : FVec Ideal S512x768 .f32) (a1 : FVec Ideal S768x1536 .f32) (a2 : FVec Ideal S768 .f32)
  (a3 : FVec Ideal S2x768 .f32) (a4 : FVec Ideal S2 .f32)

/-- The first contraction at `(i, d)` is the left projection: its left factor is `p[i, k]`, its right factor the
    transposed first slice at `(k, d)`, which is `W1[d, k]`. -/
theorem left_at (i : Fin 512) (d : Fin 768) :
    val_main_v2 (F := Ideal) a0 a1 (ix2 i d) = Cert.PairSpec.projL a0 a1 i d := by
  rw [val_main_v2_apply]
  unfold Cert.PairSpec.projL
  refine Finset.sum_congr rfl fun k _ => ?_
  rw [val_main_v1_apply, val_main_v0_apply]
  have e0 : lidx_main_v2 (ix2 i d) k = ix2 i k :=
    funext fun a => Fin.ext (by match a with | ⟨0, _⟩ => rfl | ⟨1, _⟩ => rfl)
  have e1 : idx_main_v0 (idx_main_v1 (ridx_main_v2 (ix2 i d) k)) = ix2 d (⟨k.val, by omega⟩ : Fin 1536) :=
    funext fun a => Fin.ext (by match a with | ⟨0, _⟩ => rfl | ⟨1, _⟩ => rfl)
  rw [e0, e1]

/-- The second contraction at `(j, d)` is the right projection: its right factor is the transposed second slice at
    `(k, d)`, which is `W1[d, 768 + k]`. -/
theorem right_at (j : Fin 512) (d : Fin 768) :
    val_main_v5 (F := Ideal) a0 a1 (ix2 j d) = Cert.PairSpec.projR a0 a1 j d := by
  rw [val_main_v5_apply]
  unfold Cert.PairSpec.projR
  refine Finset.sum_congr rfl fun k _ => ?_
  rw [val_main_v4_apply, val_main_v3_apply]
  have e0 : lidx_main_v5 (ix2 j d) k = ix2 j k :=
    funext fun a => Fin.ext (by match a with | ⟨0, _⟩ => rfl | ⟨1, _⟩ => rfl)
  have e1 : idx_main_v3 (idx_main_v4 (ridx_main_v5 (ix2 j d) k)) = ix2 d (⟨768 + k.val, by omega⟩ : Fin 1536) :=
    funext fun a => Fin.ext (by match a with | ⟨0, _⟩ => rfl | ⟨1, _⟩ => rfl)
  rw [e0, e1]

/-- The hidden array at `(i, j, d)`: the broadcast left projection reads `L[i, d]`, the broadcast right projection
    `R[j, d]`, the broadcast bias `b1[d]`; their sum in this association, under `tanh`. -/
theorem hidden_at (i j : Fin 512) (d : Fin 768) :
    val_main_v14 (F := Ideal) a0 a1 a2 (ix3 i j d)
      = Ideal.tanh ((Cert.PairSpec.projL a0 a1 i d + Cert.PairSpec.projR a0 a1 j d) + a2 (ix1 d)) := by
  rw [val_main_v14_apply, val_main_v13_apply, val_main_v10_apply, val_main_v8_apply, val_main_v6_apply,
    val_main_v9_apply, val_main_v7_apply, val_main_v12_apply, val_main_v11_apply]
  have eL : idx_main_v6 (idx_main_v8 (ix3 i j d)) = ix2 i d :=
    funext fun a => Fin.ext (by match a with | ⟨0, _⟩ => rfl | ⟨1, _⟩ => rfl)
  have eR : idx_main_v7 (idx_main_v9 (ix3 i j d)) = ix2 j d :=
    funext fun a => Fin.ext (by match a with | ⟨0, _⟩ => rfl | ⟨1, _⟩ => rfl)
  have eB : idx_main_v11 (idx_main_v12 (ix3 i j d)) = ix1 d :=
    funext fun a => Fin.ext (by match a with | ⟨0, _⟩ => rfl)
  rw [eL, eR, eB, left_at, right_at]
  rfl

/-- The reference's last stage is `G` of the five argument arrays. -/
theorem ref_is_G :
    val_main_v18 (F := Ideal) a0 a1 a2 a3 a4 = Cert.PairSpec.G a0 a1 a2 a3 a4 := by
  funext o
  obtain ⟨i, j, c, rfl⟩ : ∃ (i j : Fin 512) (c : Fin 2), o = ix3 i j c := ⟨o 0, o 1, o 2, eq_ix3 o⟩
  rw [Cert.PairSpec.G_ix3, val_main_v18_apply, val_main_v15_apply, val_main_v17_apply, val_main_v16_apply]
  unfold Cert.PairSpec.Gat Cert.PairSpec.term
  have eC : idx_main_v16 (idx_main_v17 (ix3 i j c)) = ix1 c :=
    funext fun a => Fin.ext (by match a with | ⟨0, _⟩ => rfl)
  rw [eC]
  show (∑ k : Fin 768, _) + a4 (ix1 c) = _
  refine congrArg (· + a4 (ix1 c)) (Finset.sum_congr rfl fun d _ => ?_)
  have eH : lidx_main_v15 (ix3 i j c) d = ix3 i j d :=
    funext fun a => Fin.ext (by match a with | ⟨0, _⟩ => rfl | ⟨1, _⟩ => rfl | ⟨2, _⟩ => rfl)
  have eW : ridx_main_v15 (ix3 i j c) d = ix2 c d :=
    funext fun a => Fin.ext (by match a with | ⟨0, _⟩ => rfl | ⟨1, _⟩ => rfl)
  rw [eH, eW, hidden_at]

/-- The same for the composed term of the nineteen operations (the form in which the program's run states its result):
    that term is the last stage by definition. -/
theorem run_term_is_G :
    addf (Host.dotGeneral dot_S512x512x768_S2x768_S512x512x2_2_1_01_0_n_n none (Host.tanh (addf (addf (broadcastInDim S512x512x768 ![0, 1, 2] bcast_S512x1x768_S512x512x768_0_1_2 (broadcastInDim S512x1x768 ![0, 2] bcast_S512x768_S512x1x768_0_2 (Host.dotGeneral dot_S512x768_S768x768_S512x768_1_0_0_1_n_n none (a0) (transpose S768x768 [1, 0] (extractStridedSlice S768x768 ![0, 0] (a1) slices_S768x1536_S768x768_0_0) transposes_S768x768_S768x768_1_0)))) (broadcastInDim S512x512x768 ![0, 1, 2] bcast_S1x512x768_S512x512x768_0_1_2 (broadcastInDim S1x512x768 ![1, 2] bcast_S512x768_S1x512x768_1_2 (Host.dotGeneral dot_S512x768_S768x768_S512x768_1_0_0_1_n_n none (a0) (transpose S768x768 [1, 0] (extractStridedSlice S768x768 ![0, 768] (a1) slices_S768x1536_S768x768_0_768) transposes_S768x768_S768x768_1_0))))) (broadcastInDim S512x512x768 ![0, 1, 2] bcast_S1x1x768_S512x512x768_0_1_2 (broadcastInDim S1x1x768 ![2] bcast_S768_S1x1x768_2 (a2))))) (a3)) (broadcastInDim S512x512x2 ![0, 1, 2] bcast_S1x1x2_S512x512x2_0_1_2 (broadcastInDim S1x1x2 ![2] bcast_S2_S1x1x2_2 (a4)))
      = Cert.PairSpec.G a0 a1 a2 a3 a4 :=
  (val_main_v18_eq (F := Ideal) a0 a1 a2 a3 a4).trans (ref_is_G a0 a1 a2 a3 a4)

end Cert.ReferenceIdeal.RefValue

end
-- ==== Proof.lean ====
/-
  The proof of the claim. The kernel computes, for every pair of rows (i, j) and class c,
      (Σ_d tanh((left[i,d] + right[j,d]) + b1[d]) · W2[c,d]) + b2[c],
  with left = rows · (first half of W1)ᵀ and right = rows · (second half of W1)ᵀ, in two launches: the first writes the two
  projections block of rows by block of rows; the second walks the pairs of row blocks and, for each, the six blocks of
  128 features, adding each block's partial sums into an accumulator it keeps between grid points (from zero at the
  first block) and storing accumulator plus b2 at the sixth. The reference computes the same expression with one sum
  over the 768 features. On the extended reals the two agree entry by entry: the kernel's format changes are the
  identity, its products into a zero accumulator are plain sums, and a sum over 768 features is the sum over six blocks
  of 128 of the blocks' sums — a regrouping, valid in any commutative monoid, so no finiteness is used.

  The three frames: the two kernel programs run by the launch over both regions (each region's arrays split out of the
  unscoped buffers and put back; region 1's accumulator carried in its invariant); the reference by its run.
  The idealization rewrote nothing, so the preservation claim is trivial.
-/
import proofs.«130630_j61950608278169_1_alg».proof.Defs
import proofs.«130630_j61950608278169_1_alg».proof.Proof.Gen.Kernel
import proofs.«130630_j61950608278169_1_alg».proof.Proof.Gen.KernelIdeal
import proofs.«130630_j61950608278169_1_alg».proof.Proof.Gen.ReferenceIdeal
import proofs.«130630_j61950608278169_1_alg».proof.Proof.Gen.ReferenceIdeal.Run
import proofs.«130630_j61950608278169_1_alg».proof.Proof.Gen.ReferenceIdeal.Read
import proofs.«130630_j61950608278169_1_alg».proof.Proof.Gen.Pre_finite_inputs
import proofs.«130630_j61950608278169_1_alg».proof.Proof.Kernel.Frame
import proofs.«130630_j61950608278169_1_alg».proof.Proof.KernelIdeal.Frame
import proofs.«130630_j61950608278169_1_alg».proof.Proof.KernelIsG
import proofs.«130630_j61950608278169_1_alg».proof.Proof.Val1
import proofs.«130630_j61950608278169_1_alg».proof.Proof.RefIsG
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at one function of the five argument arrays. -/
theorem algebraic : Cert.algebraic_KernelIdeal_ReferenceIdeal := by
  intro m ρ m' ρ' _ hagree
  refine ⟨fun c => Cert.PairSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Fr.run_result (F := Ideal) m ρ)
    exact Cert.KernelIdeal.Val.kernel_is_G m ρ c
  · refine (θ_run Cert.ReferenceIdeal.defs _ _).mono (fun _ h c => ⟨(h c).1.trans ?_, (h c).2⟩)
      (Cert.ReferenceIdeal.Value.run (F := Ideal) m' ρ')
    refine (Cert.ReferenceIdeal.RefValue.run_term_is_G _ _ _ _ _).trans ?_
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
